-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63_1)) (v1 : (c : Dev Cert.KernelIdeal.nD) → Buf (Elt Ideal) ((c.tc : Thread Cert.KernelIdeal.nD Cert.KernelIdeal.τ).loc Cert.KernelIdeal.main_v63_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_1) = v0 c
          ∧ r.2.mem ((c.tc : Thread Cert.KernelIdeal.nD Cert.KernelIdeal.τ).loc Cert.KernelIdeal.main_v63_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S40x128 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S40x128 .f32 := Host.absf main_arg10
  let main_cst_16 : FVec F S_ .f32 := constant S_ .f32 0x7F800000#32
  let main_v45 : FVec F S40x128 .f32 := broadcastInDim S40x128 ![] bcast_S_S40x128 main_cst_16
  let main_v46 : IVec S40x128 1 := cmpf .olt main_v44 main_v45
  let main_c_17 : IVec S_ 1 := constantI S_ 1 1#1
  let main_v47 : IVec S_ 1 := (fun x v => Host.reduce IntOp.andi x v reducesTo_S40x128_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S40x128 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S40x128 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S128x40 : Shape := ⟨2, ![128, 40]⟩
abbrev S1x128 : Shape := ⟨2, ![1, 128]⟩
abbrev S1x40 : Shape := ⟨2, ![1, 40]⟩
abbrev S2000x128 : Shape := ⟨2, ![2000, 128]⟩
abbrev S2000x1 : Shape := ⟨2, ![2000, 1]⟩
abbrev S800000x128 : Shape := ⟨2, ![800000, 128]⟩
abbrev S50000x40 : Shape := ⟨2, ![50000, 40]⟩
abbrev S2000x40 : Shape := ⟨2, ![2000, 40]⟩
abbrev S2000 : Shape := ⟨1, ![2000]⟩

abbrev nBuf : Space → Nat
  | .hbm => 91
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S40x128, .f32⟩
  | .hbm, ⟨11, _⟩ => ⟨S40, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S128x128, .f32⟩
  | .hbm, ⟨28, _⟩ => ⟨S128x128, .f32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .i32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S128x128, .f32⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x40, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x40, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x128, .f32⟩
  | .hbm, ⟨90, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S128x40, .f32⟩
  | .local _ .vmem, ⟨41, _⟩ => ⟨S1x40, .f32⟩
  | .local _ .vmem, ⟨42, _⟩ => ⟨S2000x128, .f32⟩
  | .local _ .vmem, ⟨43, _⟩ => ⟨S2000x128, .f32⟩
  | .local _ .vmem, ⟨44, _⟩ => ⟨S2000x40, .f32⟩
  | .local _ .vmem, ⟨45, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_c_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63_0 : Ref sig .tc := ⟨.hbm, 89, rfl⟩
abbrev main_v63_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc3_stg9_0 : Ref sig .tc := ⟨.vmem, 44, rfl⟩
abbrev cc3_stg9_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43
abbrev cc3_sem9_0 : DmaSem sig := 44
abbrev cc3_sem9_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x40 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x40 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S128x128_S128x128_1_0 : S128x128.Transposes [1, 0] S128x128
  bcast_S_S128x128 : S_.BroadcastsInDim S128x128 (![] : Fin 0 → Fin S128x128.rank)
  transposes_S40x128_S128x40_1_0 : S40x128.Transposes [1, 0] S128x40
  shapeCasts_S128_S1x128 : S128.ShapeCasts S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128x128_S128x128 : S128x128.ShapeCasts S128x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S50000x1.size a
  hwx3_4 : ∀ i : grid3.Coords, EltTy.bits .f32 = 32 ∨ (Rect.block (s := S50000x1) S2000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x40.size a ≤ S128x40.size a
  hwx3_6 : ∀ i : grid3.Coords, EltTy.bits .f32 = 32 ∨ (Rect.block (s := S128x40) S128x40.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x40.size a ≤ S1x40.size a
  hwx3_7 : ∀ i : grid3.Coords, EltTy.bits .f32 = 32 ∨ (Rect.block (s := S1x40) S1x40.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x40.size a ≤ S50000x40.size a
  hwx3_9 : ∀ i : grid3.Coords, EltTy.bits .f32 = 32 ∨ (Rect.block (s := S50000x40) S2000x40.size (cc3_transform_9 i) (hinb3_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52_1) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S128x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S1x40.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v63_0) S2000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v63_1) S2000x40.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 200
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S40x128, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S128x128, .f32⟩
  | 17 => ⟨S128x128, .f32⟩
  | 18 => ⟨S128x128, .i32⟩
  | 19 => ⟨S128x128, .i32⟩
  | 20 => ⟨S_, .i32⟩
  | 21 => ⟨S128x128, .i32⟩
  | 22 => ⟨S128x128, .i32⟩
  | 23 => ⟨S128x128, .i1⟩
  | 24 => ⟨S128x128, .f32⟩
  | 25 => ⟨S_, .f32⟩
  | 26 => ⟨S128x128, .f32⟩
  | 27 => ⟨S128x128, .f32⟩
  | 28 => ⟨S128x128, .f32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S128x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S128x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S128x128, .f32⟩
  | 103 => ⟨S128x128, .f32⟩
  | 104 => ⟨S128x128, .i32⟩
  | 105 => ⟨S128x128, .i32⟩
  | 106 => ⟨S_, .i32⟩
  | 107 => ⟨S128x128, .i32⟩
  | 108 => ⟨S128x128, .i32⟩
  | 109 => ⟨S128x128, .i1⟩
  | 110 => ⟨S128x128, .f32⟩
  | 111 => ⟨S_, .f32⟩
  | 112 => ⟨S128x128, .f32⟩
  | 113 => ⟨S128x128, .f32⟩
  | 114 => ⟨S128x128, .f32⟩
  | 115 => ⟨S50000x128, .f32⟩
  | 116 => ⟨S_, .f32⟩
  | 117 => ⟨S800000, .f32⟩
  | 118 => ⟨S_, .f32⟩
  | 119 => ⟨S50000, .f32⟩
  | 120 => ⟨S800000x1, .i32⟩
  | 121 => ⟨S50000, .f32⟩
  | 122 => ⟨S_, .f32⟩
  | 123 => ⟨S50000, .f32⟩
  | 124 => ⟨S50000, .f32⟩
  | 125 => ⟨S50000, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S800000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x1, .f32⟩
  | 27 => ⟨S800000x128, .f32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S50000, .f32⟩
  | 34 => ⟨S50000x1, .f32⟩
  | 35 => ⟨S50000x128, .f32⟩
  | 36 => ⟨S50000x128, .f32⟩
  | 37 => ⟨S50000x128, .f32⟩
  | 38 => ⟨S128x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S128x40, .f32⟩
  | 53 => ⟨S50000x40, .f32⟩
  | 54 => ⟨S1x40, .f32⟩
  | 55 => ⟨S50000x40, .f32⟩
  | 56 => ⟨S50000x40, .f32⟩
  | 57 => ⟨S_, .f32⟩
  | 58 => ⟨S50000, .f32⟩
  | 59 => ⟨S_, .f32⟩
  | 60 => ⟨S50000, .f32⟩
  | 61 => ⟨S50000, .f32⟩
  | 62 => ⟨S50000x1, .f32⟩
  | 63 => ⟨S50000x40, .f32⟩
  | 64 => ⟨S50000x40, .f32⟩
  | 65 => ⟨S50000x40, .f32⟩
  | 66 => ⟨S_, .f32⟩
  | 67 => ⟨S50000, .f32⟩
  | 68 => ⟨S50000x1, .f32⟩
  | 69 => ⟨S50000x1, .f32⟩
  | 70 => ⟨S50000x40, .f32⟩
  | 71 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call0_cst : Ref sig .tc := ⟨.hbm, 91, rfl⟩
abbrev main_call0_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_cst : Ref sig .tc := ⟨.hbm, 99, rfl⟩
abbrev main_call1_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_11 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_16 : Ref sig .tc := ⟨.hbm, 126, rfl⟩
abbrev main_v92 : Ref sig .tc := ⟨.hbm, 127, rfl⟩
abbrev main_v93 : Ref sig .tc := ⟨.hbm, 128, rfl⟩
abbrev main_c_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_18 : Ref sig .tc := ⟨.hbm, 135, rfl⟩
abbrev main_v99 : Ref sig .tc := ⟨.hbm, 136, rfl⟩
abbrev main_v100 : Ref sig .tc := ⟨.hbm, 137, rfl⟩
abbrev main_c_19 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_20 : Ref sig .tc := ⟨.hbm, 145, rfl⟩
abbrev main_v107 : Ref sig .tc := ⟨.hbm, 146, rfl⟩
abbrev main_v108 : Ref sig .tc := ⟨.hbm, 147, rfl⟩
abbrev main_c_21 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_22 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_23 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call2_cst : Ref sig .tc := ⟨.hbm, 177, rfl⟩
abbrev main_call2_v0 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_call3_cst : Ref sig .tc := ⟨.hbm, 185, rfl⟩
abbrev main_call3_v0 : Ref sig .tc := ⟨.hbm, 186, rfl⟩
abbrev main_call3_cst_0 : Ref sig .tc := ⟨.hbm, 187, rfl⟩
abbrev main_call3_v1 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_v5 : Ref sig .tc := ⟨.hbm, 192, rfl⟩
abbrev main_call3_v6 : Ref sig .tc := ⟨.hbm, 193, rfl⟩
abbrev main_call3_cst_1 : Ref sig .tc := ⟨.hbm, 194, rfl⟩
abbrev main_call3_v7 : Ref sig .tc := ⟨.hbm, 195, rfl⟩
abbrev main_call3_v8 : Ref sig .tc := ⟨.hbm, 196, rfl⟩
abbrev main_call3_v9 : Ref sig .tc := ⟨.hbm, 197, rfl⟩
abbrev main_call3_v10 : Ref sig .tc := ⟨.hbm, 198, rfl⟩
abbrev main_v141 : Ref sig .tc := ⟨.hbm, 199, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S128x128 : S_.BroadcastsInDim S128x128 (![] : Fin 0 → Fin S128x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RunRes.lean ====
/-
  The idealized kernel program's run, with its two results named: every weakly fair execution of the program from a
  memory with zero counters terminates without a fault, the log-probabilities' array and the last activations' array
  end holding what the last region's write-backs leave in them (the fold of buffer contents through the program's
  seven segments, read at those two buffers), and the twelve argument arrays end as launched. It is the library's
  launch theorem for a program of several regions, applied to the program's segments, with the final thread state
  read at the two result buffers as well as at the arguments.
-/
import proofs.«147570_j43654047596706_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with both results read off the last boundary's contents, the arguments unchanged. -/
theorem run_results : θ_run defs (onTc (τ := τ) (main (F := F))) ⟨m, fun _ => 0, ρ⟩ (fun r => ∀ c : Dev nD,
      r.2.mem ((c.tc : Thread nD τ).loc main_v63_1) = W7 m ρ c (Proc.devRef .tc main_v63_1)
      ∧ r.2.mem ((c.tc : Thread nD τ).loc main_v63_0) = W7 m ρ c (Proc.devRef .tc main_v63_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63_1 (by decide)),
       h c _ (mem_uc main_v63_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Hand

end
-- ==== Proof.Spec.lean ====
/-
  The mathematics both programs compute, written once, on coordinates, over the extended reals.

  A node matrix is `[50000, F]`, a weight matrix `[K, F]`; `rowdot A B n f` is the entry `(n, f)` of the matrix
  product `A · B`, the sum over the contracted coordinate.  One graph convolution with antisymmetric weights, as the
  kernel arranges it, scales the projected rows by the inverse root degree `d n` BEFORE they are gathered along the
  edges and summed into their target nodes (`proj`), and multiplies the aggregate plus the node's own scaled row by
  `d n` afterwards (`combine`); the reference scales every gathered row by `d (source) · d (target)` on the edge and
  adds the node's own row times `d n · d n` (`refConv`).  The two agree because a nonnegative real factor distributes
  over a sum of extended reals.  Between and after the two convolutions sit a linear layer with a floor at zero (`lin`),
  and a final linear layer followed by the logarithm of the softmax along each row (`logits`, `lsm`).
-/
import Idealize.ShloMosaic.PureOps.Ideal
import Idealize.ShloMosaic.Lib.ValueIdx

noncomputable section

open scoped BigOperators

namespace Gcn

open Idealize.ShloMosaic Idealize.ShloMosaic.ValueIdx

/-- A matrix of extended reals with `a` rows and `b` columns. -/
abbrev Mat (a b : ℕ) := (⟨2, ![a, b]⟩ : Shape).Idx → EReal
/-- A vector of extended reals with `a` entries. -/
abbrev Vc (a : ℕ) := (⟨1, ![a]⟩ : Shape).Idx → EReal

/-- The matrix whose entry `(n, f)` is `g n f`. -/
def arr2 {a b : ℕ} (g : Fin a → Fin b → EReal) : Mat a b := fun i => g (i 0) (i 1)
theorem arr2_apply {a b : ℕ} (g : Fin a → Fin b → EReal) (n : Fin a) (f : Fin b) : arr2 g (ix2 n f) = g n f := rfl
/-- The vector whose entry `n` is `g n`. -/
def arr1 {a : ℕ} (g : Fin a → EReal) : Vc a := fun i => g (i 0)
theorem arr1_apply {a : ℕ} (g : Fin a → EReal) (n : Fin a) : arr1 g (ix1 n) = g n := rfl
/-- Two matrices with equal entries are equal. -/
theorem mat_ext {a b : ℕ} {A B : Mat a b} (h : ∀ (n : Fin a) (f : Fin b), A (ix2 n f) = B (ix2 n f)) : A = B :=
  funext fun i => by rw [eq_ix2 i]; exact h _ _
/-- A matrix is the matrix of its entries. -/
theorem eq_arr2 {a b : ℕ} (A : Mat a b) : A = arr2 fun n f => A (ix2 n f) := mat_ext fun _ _ => rfl

/-- The single-precision number nearest one tenth, at its exact value: the step of the antisymmetric update and the
    damping on the diagonal. -/
def tenth : EReal := Ideal.ofBits .f32 0x3DCCCCCD#32
/-- The zero word's value: the floor of the rectifier. -/
def floor0 : EReal := Ideal.ofBits .f32 0x00000000#32
/-- The word of minus infinity: where a row maximum starts. -/
def negInf : EReal := Ideal.ofBits .f32 0xFF800000#32

/-- Entry `(n, f)` of the matrix product `A · B`. -/
def rowdot {a k b : ℕ} (A : Mat a k) (B : Mat k b) (n : Fin a) (f : Fin b) : EReal :=
  ∑ c : Fin k, A (ix2 n c) * B (ix2 c f)

/-- The projected row scaled by the node's inverse root degree (held as a column): `(x · T)(n, f) · d n`. -/
def proj {a k b : ℕ} (x : Mat a k) (T : Mat k b) (dcol : Mat a 1) (n : Fin a) (f : Fin b) : EReal :=
  rowdot x T n f * dcol (ix2 n 0)

/-- The kernel's arrangement of one antisymmetric convolution followed by the rectifier:
    `max (x + tenth · tanh (x · MT + d n · (scat + xws) + bias), 0)`. -/
def combine {a k : ℕ} (x : Mat a k) (MT : Mat k k) (scat xws : Mat a k) (dcol : Mat a 1) (brow : Mat 1 k)
    (n : Fin a) (f : Fin k) : EReal :=
  max (x (ix2 n f) + tenth * Ideal.tanh (rowdot x MT n f + dcol (ix2 n 0) * (scat (ix2 n f) + xws (ix2 n f))
    + brow (ix2 0 f))) floor0

/-- A linear layer with bias (held as a row) and the rectifier: `max (x · lw + bias, 0)`. -/
def lin {a k b : ℕ} (x : Mat a k) (lw : Mat k b) (brow : Mat 1 b) (n : Fin a) (f : Fin b) : EReal :=
  max (rowdot x lw n f + brow (ix2 0 f)) floor0

/-- The last linear layer, without rectifier. -/
def logits {a k b : ℕ} (x : Mat a k) (lw : Mat k b) (brow : Mat 1 b) (n : Fin a) (f : Fin b) : EReal :=
  rowdot x lw n f + brow (ix2 0 f)

/-- The maximum of a row, started from minus infinity. -/
def rowmax {b : ℕ} (z : Fin b → EReal) : EReal := (Finset.univ : Finset (Fin b)).fold max negInf z

/-- The logarithm of the softmax of a row `z`, at `f`: `(z f − max z) − log (∑ g, exp (z g − max z))`. -/
def lsm {b : ℕ} (z : Fin b → EReal) (f : Fin b) : EReal :=
  (z f - rowmax z) - Ideal.log (∑ g : Fin b, Ideal.exp (z g - rowmax z))

/-- The reference's arrangement of one antisymmetric convolution followed by the rectifier, with the weight matrix `M`
    read transposed, the edge aggregate `agg`, the projected rows `xw`, the inverse root degrees `d` as a vector and the
    bias as a vector: `max (x + tenth · tanh (x · Mᵀ + (agg + xw · (d n · d n)) + bias), 0)`. -/
def refConv {a k : ℕ} (x : Mat a k) (M : Mat k k) (agg xw : Mat a k) (d : Vc a) (b : Vc k) (n : Fin a) (f : Fin k) : EReal :=
  max (x (ix2 n f) + tenth * Ideal.tanh ((∑ c : Fin k, x (ix2 n c) * M (ix2 f c))
    + (agg (ix2 n f) + xw (ix2 n f) * (d (ix1 n) * d (ix1 n))) + b (ix1 f))) floor0

/-- The reference's linear layer: the weight read transposed, the bias a vector. -/
def refLin {a k b : ℕ} (x : Mat a k) (lw : Mat b k) (bv : Vc b) (n : Fin a) (f : Fin b) : EReal :=
  max ((∑ c : Fin k, x (ix2 n c) * lw (ix2 f c)) + bv (ix1 f)) floor0

/-- The reference's last linear layer: the weight read transposed, the bias a vector, no rectifier. -/
def refLogits {a k b : ℕ} (x : Mat a k) (lw : Mat b k) (bv : Vc b) (n : Fin a) (f : Fin b) : EReal :=
  (∑ c : Fin k, x (ix2 n c) * lw (ix2 f c)) + bv (ix1 f)

end Gcn

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.Region0.lean ====
/-
  The first region: the projection scaled by the inverse root degree, as a function of whole arrays.

  The node matrix `x` is `[50000, 128]`, cut into 25 row blocks of 2000 rows; the weight `T` is `[128, 128]` and is
  read whole at every block; the inverse root degrees `d` are a column `[50000, 1]`, cut into the same row blocks.
  At block `t` the region computes `(x_t · T) * (d_t spread along the 128 columns)`, whose entry `(p, q)` is
  `(∑ k, x_t(p, k) · T(k, q)) · d_t(p, 0)`.  Row `p` of block `t` is row `2000 t + p` of the whole matrix, so the
  block written at `t` is the row block `t` of the matrix `(n, q) ↦ (∑ k, x(n, k) · T(k, q)) · d(n, 0)`, which is
  `Gcn.proj x T d`.  Every row `n` lies in the block `n / 2000`, so the 25 blocks fill the result.
-/
import proofs.«147570_j43654047596706_2_alg».proof.Proof.Gen.KernelIdeal.Frame
import proofs.«147570_j43654047596706_2_alg».proof.Proof.Spec
import proofs.«147570_j43654047596706_2_alg».proof.Proof.LibPlainMatmul
import proofs.«147570_j43654047596706_2_alg».proof.Proof.LibLayout2
import Idealize.ShloMosaic.Lib.Pipeline.Value
import Idealize.ShloMosaic.Lib.ValueLayout
import Idealize.ShloMosaic.Lib.Tactic

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Region0

/-- The block's value at `(p, q)`: the product `x_t · T` at `(p, q)`, a sum over the contracted coordinate (the
    change of format on the way into the product is the identity on extended reals), times the column `d_t` at row
    `p` (the column spread along the 128 lanes reads, at `(p, q)`, its entry `(p, 0)`). -/
theorem block_apply (x0 : Vec Ideal S2000x128 .f32) (x1 : Vec Ideal S128x128 .f32) (x2 : Vec Ideal S2000x1 .f32)
    (p : Fin 2000) (q : Fin 128) :
    k0_pay1 x0 x1 x2 (ix2 p q) = (∑ k : Fin 128, x0 (ix2 p k) * x1 (ix2 k q)) * x2 (ix2 p 0) := by
  have h1 : k0_pay1 x0 x1 x2 (ix2 p q)
      = (FloatOps.matmul (PlainMatmul.dims dot_S2000x128_S128x128_S2000x128_1_0_0_1_n_n_wf) none
          (truncf .bf16 x0 bitsLt_bf16_f32 : FVec Ideal S2000x128 .bf16) (truncf .bf16 x1 bitsLt_bf16_f32 : FVec Ideal S128x128 .bf16)
          (constant (F := Ideal) S2000x128 .f32 0x00000000#32) (ix2 p q))
        * (broadcastTo S2000x128 (shapeCast S2000x1 x2 shapeCasts_S2000x1_S2000x1) broadcasts_S2000x1_S2000x128 (ix2 p q)) := rfl
  rw [h1, PlainMatmul.matmul_zero_apply, Layout2.broadcastTo_col_apply, shapeCast_self]
  rfl

/-- The zero offsets of a whole block. -/
theorem zeros2 : (![0, 0] : Fin 2 → Nat) = fun _ => 0 := funext fun a => by fin_cases a <;> rfl

/-- Row `p` of the row block `t` (2000 rows to a block, 25 blocks) is row `2000 t + p` of the node matrix. -/
abbrev rowOf {N : Nat} (hN : N = 25) (t : Fin N) (p : Fin 2000) : Fin 50000 :=
  ⟨2000 * t.val + p.val, by have := t.isLt; have := p.isLt; omega⟩

/-- The block indices over the 25 points: the node matrix, the degree column and the result move down one row block
    per point; the weight stays at its one block. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Block `t` of the node matrix at `(p, q)` is the matrix at `(2000 t + p, q)`. -/
theorem x_block (c : Dev nD) (t : Fin cfg0.N) (p : Fin 2000) (q : Fin 128) :
    (iblk0 V c 0 t : Vec Ideal S2000x128 .f32) (ix2 p q) = (V c main_arg0 : Gcn.Mat 50000 128) (ix2 (rowOf N_0 t p) q) := by
  unfold iblk0
  rw [View.read_apply]
  show (V c main_arg0 : S50000x128.Idx → EReal) (((cfg0.win 0).blk t).view.emb (ix2 p q)) = _
  refine congrArg (V c main_arg0 : S50000x128.Idx → EReal) ?_
  funext a
  apply Fin.ext
  match a with
  | ⟨0, _⟩ => show win0_0.index t (0 : Fin 2) * 2000 + 1 * p.val = 2000 * t.val + p.val; rw [(index_facts t).1.1]; omega
  | ⟨1, _⟩ => show win0_0.index t (1 : Fin 2) * 128 + 1 * q.val = q.val; rw [(index_facts t).1.2]; omega

/-- The weight's one block is the weight. -/
theorem w_block (c : Dev nD) (t : Fin cfg0.N) (p : Fin 128) (q : Fin 128) :
    (iblk0 V c 1 t : Vec Ideal S128x128 .f32) (ix2 p q) = (V c main_arg4 : Gcn.Mat 128 128) (ix2 p q) := by
  unfold iblk0
  rw [View.read_apply]
  show (V c main_arg4 : S128x128.Idx → EReal) (((cfg0.win 1).blk t).view.emb (ix2 p q)) = _
  refine congrArg (V c main_arg4 : S128x128.Idx → EReal) ?_
  funext a
  apply Fin.ext
  match a with
  | ⟨0, _⟩ => show win0_1.index t (0 : Fin 2) * 128 + 1 * p.val = p.val; rw [(index_facts t).2.1.1]; omega
  | ⟨1, _⟩ => show win0_1.index t (1 : Fin 2) * 128 + 1 * q.val = q.val; rw [(index_facts t).2.1.2]; omega

/-- Block `t` of the degree column at `(p, u)` is the column at `(2000 t + p, u)`. -/
theorem d_block (c : Dev nD) (t : Fin cfg0.N) (p : Fin 2000) (u : Fin 1) :
    (iblk0 V c 2 t : Vec Ideal S2000x1 .f32) (ix2 p u) = (V c main_v11 : Gcn.Mat 50000 1) (ix2 (rowOf N_0 t p) u) := by
  unfold iblk0
  rw [View.read_apply]
  show (V c main_v11 : S50000x1.Idx → EReal) (((cfg0.win 2).blk t).view.emb (ix2 p u)) = _
  refine congrArg (V c main_v11 : S50000x1.Idx → EReal) ?_
  funext a
  apply Fin.ext
  match a with
  | ⟨0, _⟩ => show win0_2.index t (0 : Fin 2) * 2000 + 1 * p.val = 2000 * t.val + p.val; rw [(index_facts t).2.2.1.1]; omega
  | ⟨1, _⟩ => show win0_2.index t (1 : Fin 2) * 1 + 1 * u.val = u.val; rw [(index_facts t).2.2.1.2]; omega

/-- The result as one function of the whole arrays: `(n, q) ↦ (∑ k, x(n, k) · T(k, q)) · d(n, 0)`. -/
abbrev whole (c : Dev nD) : Gcn.Mat 50000 128 :=
  Gcn.arr2 (Gcn.proj (V c main_arg0 : Gcn.Mat 50000 128) (V c main_arg4 : Gcn.Mat 128 128) (V c main_v11 : Gcn.Mat 50000 1))

/-- What point `t` writes back is the row block `t` of that function. -/
theorem flushed_eq (c : Dev nD) (t : Fin cfg0.N) :
    (dat0 (F := Ideal) V c).flushed 3 t = ((cfg0.win 3).blk t).view.read (Elt Ideal) (whole V c) := by
  show (cfg0.win 3).cut (grid0.coords t) ((dat0 V c).after 3 t) = _
  rw [after0_3]
  unfold out0_3
  rw [View.canon_unit_zero zeros2]
  simp only [View.ld_unit_zero (S := S2000x128) zeros2, View.ld_unit_zero (S := S128x128) zeros2, View.ld_unit_zero (S := S2000x1) zeros2]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q) = whole V c (((cfg0.win 3).blk t).view.emb (ix2 p q))
  refine (block_apply (iblk0 V c 0 t) (iblk0 V c 1 t) (iblk0 V c 2 t) p q).trans ?_
  have he : ((cfg0.win 3).blk t).view.emb (ix2 p q) = (ix2 (rowOf N_0 t p) q : S50000x128.Idx) := by
    funext a
    apply Fin.ext
    match a with
    | ⟨0, _⟩ => show win0_3.index t (0 : Fin 2) * 2000 + 1 * p.val = 2000 * t.val + p.val; rw [(index_facts t).2.2.2.1]; omega
    | ⟨1, _⟩ => show win0_3.index t (1 : Fin 2) * 128 + 1 * q.val = q.val; rw [(index_facts t).2.2.2.2]; omega
  rw [he, d_block]
  unfold whole
  rw [Gcn.arr2_apply]
  unfold Gcn.proj Gcn.rowdot
  congr 1
  exact Finset.sum_congr rfl fun k _ => by rw [x_block, w_block]

/-- An index of the result is in point `t`'s block iff each coordinate is in the block's range on its axis. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v40).slice (win0_3.rect t)).set ↔ _
  rw [View.set_slice_whole, Rect.mem_set_unit]
  exact Iff.rfl

/-- Row `n` of the result lies in the block of point `n / 2000`. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < cfg0.N := lt_of_lt_of_eq (by omega) N_0.symm
  refine ⟨⟨(i 0).val / 2000, ht⟩, flush0_3 _, ?_⟩
  rw [mem_block]
  intro a
  obtain ⟨-, -, -, e0, e1⟩ := index_facts ⟨(i 0).val / 2000, ht⟩
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e1]; omega

end Region0

/-- After the first region the result array is `Gcn.proj` of the node matrix, the weight and the degree column as the
    region found them. -/
theorem region0_out (c : Dev nD) : ((dat0 (F := Ideal) V c).arrAt 3 cfg0.N : Gcn.Mat 50000 128)
    = Gcn.arr2 (Gcn.proj (V c main_arg0 : Gcn.Mat 50000 128) (V c main_arg4 : Gcn.Mat 128 128) (V c main_v11 : Gcn.Mat 50000 1)) :=
  (dat0 (F := Ideal) V c).arrAt_eq_of_cover 3 (Region0.whole V c) (fun t _ => Region0.flushed_eq V c t) Region0.covered

end Cert.KernelIdeal.Hand

end
-- ==== Proof.Region1.lean ====
/-
  The first antisymmetric convolution's combining step, read as one function of the arrays.

  The step runs over the 50000 nodes in 25 blocks of 2000 rows.  At block `t` it reads rows `2000 t … 2000 t + 1999` of
  the node features, of the edge aggregate, of the scaled projection and of the degree column, and the whole of the
  `[128, 128]` weight matrix and of the `[1, 128]` bias row; it writes rows `2000 t … 2000 t + 1999` of the result.
  Entry `(p, q)` of a block's result depends on row `p` of the row blocks only, so it is the entry `(2000 t + p, q)`
  of ONE function of the whole arrays (`Gcn.combine`), and since every row lies in exactly one block the result array
  is that function.
-/
import proofs.«147570_j43654047596706_2_alg».proof.Proof.Gen.KernelIdeal.Frame
import proofs.«147570_j43654047596706_2_alg».proof.Proof.Spec
import proofs.«147570_j43654047596706_2_alg».proof.Proof.LibPlainMatmul
import proofs.«147570_j43654047596706_2_alg».proof.Proof.LibLayout2
import Idealize.ShloMosaic.Lib.Pipeline.Value
import Idealize.ShloMosaic.Lib.ValueLayout
import Idealize.ShloMosaic.Lib.Tactic

-- indices of axes of 2000 and 50000 coordinates: the elaborator's structural recursion goes deeper than its default bound
set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-! ## One block of the antisymmetric update, entry by entry -/

/-- The product of a `[2000, 128]` block of rows by a `[128, 128]` matrix, accumulated into zero, at `(p, q)`:
    the sum over the contracted coordinate. -/
theorem dot_rows_apply (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  PlainMatmul.matmul_zero_apply dot_S2000x128_S128x128_S2000x128_1_0_0_1_n_n_wf none A B p q

/-- The update of one block of 2000 rows, at row `p` and feature `q`: the block's own entry plus a tenth of the
    hyperbolic tangent of (row `p` of the block times the weights) + (the row's degree factor) · (the two gathered
    entries added) + (the bias at `q`), floored at zero.  Rounding to the narrower format is the identity on ideal
    values, and a cast to the same shape changes nothing. -/
theorem combine_block_apply (x0 : Vec Ideal S2000x128 .f32) (x1 : Vec Ideal S128x128 .f32) (x4 : Vec Ideal S2000x1 .f32)
    (x2 x3 : Vec Ideal S2000x128 .f32) (x5 : Vec Ideal S1x128 .f32) (p : Fin 2000) (q : Fin 128) :
    k1_pay1 x0 x1 x4 x2 x3 x5 (ix2 p q)
      = max (x0 (ix2 p q) + Gcn.tenth * Ideal.tanh ((∑ c : Fin 128, x0 (ix2 p c) * x1 (ix2 c q))
          + x4 (ix2 p 0) * (x2 (ix2 p q) + x3 (ix2 p q)) + x5 (ix2 0 q))) Gcn.floor0 := by
  unfold k1_pay1
  simp only [shapeCast_self]
  show max (x0 (ix2 p q) + Gcn.tenth * Ideal.tanh
      (matmul dot_S2000x128_S128x128_S2000x128_1_0_0_1_n_n none (truncf FTy.bf16 x0 bitsLt_bf16_f32)
          (truncf FTy.bf16 x1 bitsLt_bf16_f32) (constant (F := Ideal) S2000x128 FTy.f32 0#32) (ix2 p q)
        + broadcastTo S2000x128 x4 broadcasts_S2000x1_S2000x128 (ix2 p q) * (x2 (ix2 p q) + x3 (ix2 p q))
        + broadcastTo S2000x128 x5 broadcasts_S1x128_S2000x128 (ix2 p q))) Gcn.floor0 = _
  rw [dot_rows_apply, Layout2.broadcastTo_col_apply, broadcastTo_1b_ab_apply]
  rfl

/-! ## The windows' blocks as rows of the arrays -/

/-- Where each window's block sits at grid point `t`: a window over a `[50000, _]` array is at block `(t, 0)`
    (rows `2000 t … 2000 t + 1999`), a window over a whole small array at block `(0, 0)`: decided over the 25 points. -/
theorem block_index1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row `p` of window 0's block at point `t` is row `2000 t + p` of the node features. -/
theorem block1_0_apply (c : Dev nD) (t : Fin cfg1.N) (p : Fin 2000) (q : Fin 128) (n : Fin 50000)
    (hn : n.val = t.val * 2000 + p.val) :
    (iblk1 V c 0 t : Vec Ideal S2000x128 .f32) (ix2 p q) = (V c main_arg0 : S50000x128.Idx → EReal) (ix2 n q) := by
  have e := block_index1 t
  unfold iblk1
  rw [View.read_apply]
  show V c main_arg0 _ = V c main_arg0 _
  refine congrArg _ ?_
  funext a; apply Fin.ext
  match a with
  | ⟨0, _⟩ => show win1_0.index t (0 : Fin 2) * 2000 + 1 * p.val = n.val; omega
  | ⟨1, _⟩ => show win1_0.index t (1 : Fin 2) * 128 + 1 * q.val = q.val; omega

/-- Window 1's block at every point is the whole weight matrix. -/
theorem block1_1_apply (c : Dev nD) (t : Fin cfg1.N) (p : Fin 128) (q : Fin 128) :
    (iblk1 V c 1 t : Vec Ideal S128x128 .f32) (ix2 p q) = (V c main_v22 : S128x128.Idx → EReal) (ix2 p q) := by
  have e := block_index1 t
  unfold iblk1
  rw [View.read_apply]
  show V c main_v22 _ = V c main_v22 _
  refine congrArg _ ?_
  funext a; apply Fin.ext
  match a with
  | ⟨0, _⟩ => show win1_1.index t (0 : Fin 2) * 128 + 1 * p.val = p.val; omega
  | ⟨1, _⟩ => show win1_1.index t (1 : Fin 2) * 128 + 1 * q.val = q.val; omega

/-- Row `p` of window 2's block at point `t` is row `2000 t + p` of the edge aggregate. -/
theorem block1_2_apply (c : Dev nD) (t : Fin cfg1.N) (p : Fin 2000) (q : Fin 128) (n : Fin 50000)
    (hn : n.val = t.val * 2000 + p.val) :
    (iblk1 V c 2 t : Vec Ideal S2000x128 .f32) (ix2 p q) = (V c main_v50 : S50000x128.Idx → EReal) (ix2 n q) := by
  have e := block_index1 t
  unfold iblk1
  rw [View.read_apply]
  show V c main_v50 _ = V c main_v50 _
  refine congrArg _ ?_
  funext a; apply Fin.ext
  match a with
  | ⟨0, _⟩ => show win1_2.index t (0 : Fin 2) * 2000 + 1 * p.val = n.val; omega
  | ⟨1, _⟩ => show win1_2.index t (1 : Fin 2) * 128 + 1 * q.val = q.val; omega

/-- Row `p` of window 3's block at point `t` is row `2000 t + p` of the scaled projection. -/
theorem block1_3_apply (c : Dev nD) (t : Fin cfg1.N) (p : Fin 2000) (q : Fin 128) (n : Fin 50000)
    (hn : n.val = t.val * 2000 + p.val) :
    (iblk1 V c 3 t : Vec Ideal S2000x128 .f32) (ix2 p q) = (V c main_v40 : S50000x128.Idx → EReal) (ix2 n q) := by
  have e := block_index1 t
  unfold iblk1
  rw [View.read_apply]
  show V c main_v40 _ = V c main_v40 _
  refine congrArg _ ?_
  funext a; apply Fin.ext
  match a with
  | ⟨0, _⟩ => show win1_3.index t (0 : Fin 2) * 2000 + 1 * p.val = n.val; omega
  | ⟨1, _⟩ => show win1_3.index t (1 : Fin 2) * 128 + 1 * q.val = q.val; omega

/-- Entry `p` of window 4's block at point `t` is entry `2000 t + p` of the degree column. -/
theorem block1_4_apply (c : Dev nD) (t : Fin cfg1.N) (p : Fin 2000) (q : Fin 1) (n : Fin 50000)
    (hn : n.val = t.val * 2000 + p.val) :
    (iblk1 V c 4 t : Vec Ideal S2000x1 .f32) (ix2 p q) = (V c main_v11 : S50000x1.Idx → EReal) (ix2 n q) := by
  have e := block_index1 t
  unfold iblk1
  rw [View.read_apply]
  show V c main_v11 _ = V c main_v11 _
  refine congrArg _ ?_
  funext a; apply Fin.ext
  match a with
  | ⟨0, _⟩ => show win1_4.index t (0 : Fin 2) * 2000 + 1 * p.val = n.val; omega
  | ⟨1, _⟩ => show win1_4.index t (1 : Fin 2) * 1 + 1 * q.val = q.val; omega

/-- Window 5's block at every point is the whole bias row. -/
theorem block1_5_apply (c : Dev nD) (t : Fin cfg1.N) (p : Fin 1) (q : Fin 128) :
    (iblk1 V c 5 t : Vec Ideal S1x128 .f32) (ix2 p q) = (V c main_v36 : S1x128.Idx → EReal) (ix2 p q) := by
  have e := block_index1 t
  unfold iblk1
  rw [View.read_apply]
  show V c main_v36 _ = V c main_v36 _
  refine congrArg _ ?_
  funext a; apply Fin.ext
  match a with
  | ⟨0, _⟩ => show win1_5.index t (0 : Fin 2) * 1 + 1 * p.val = p.val; omega
  | ⟨1, _⟩ => show win1_5.index t (1 : Fin 2) * 128 + 1 * q.val = q.val; omega

/-! ## From the blocks to the array -/

/-- The updated node features as one function of the arrays the region is entered with. -/
abbrev updated1 (c : Dev nD) : Gcn.Mat 50000 128 :=
  Gcn.arr2 (Gcn.combine (V c main_arg0 : Gcn.Mat 50000 128) (V c main_v22 : Gcn.Mat 128 128)
    (V c main_v50 : Gcn.Mat 50000 128) (V c main_v40 : Gcn.Mat 50000 128) (V c main_v11 : Gcn.Mat 50000 1)
    (V c main_v36 : Gcn.Mat 1 128))

/-- What grid point `t` writes back is rows `2000 t … 2000 t + 1999` of the updated node features: entry `(p, q)`
    of the body's result reads row `p` of each row block, which is row `2000 t + p` of its array, and the whole of the
    weight matrix and of the bias row. -/
theorem written_back1 (c : Dev nD) (t : Fin cfg1.N) :
    (dat1 (F := Ideal) V c).flushed 6 t = ((cfg1.win 6).blk t).view.read (Elt Ideal) (updated1 V c) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets]
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hn : t.val * 2000 + p.val < 50000 := by have := p.isLt; omega
  have e := block_index1 t
  have hemb : ((cfg1.win 6).blk t).view.emb (ix2 p q) = ix2 (⟨t.val * 2000 + p.val, hn⟩ : Fin 50000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show k1_pay1 (iblk1 V c 0 t) (iblk1 V c 1 t) (iblk1 V c 4 t) (iblk1 V c 2 t) (iblk1 V c 3 t) (iblk1 V c 5 t) (ix2 p q)
    = updated1 V c (((cfg1.win 6).blk t).view.emb (ix2 p q))
  rw [hemb]
  refine (combine_block_apply (iblk1 V c 0 t) (iblk1 V c 1 t) (iblk1 V c 4 t) (iblk1 V c 2 t) (iblk1 V c 3 t)
    (iblk1 V c 5 t) p q).trans ?_
  rw [block1_0_apply V c t p q ⟨_, hn⟩ rfl, block1_2_apply V c t p q ⟨_, hn⟩ rfl, block1_3_apply V c t p q ⟨_, hn⟩ rfl,
    block1_4_apply V c t p 0 ⟨_, hn⟩ rfl, block1_5_apply V c t 0 q,
    Finset.sum_congr rfl fun k _ => by rw [block1_0_apply V c t p k ⟨_, hn⟩ rfl, block1_1_apply V c t k q]]
  rfl

/-- Row `n` of the array lies in the block of point `n / 2000`, which is written back. -/
theorem rows_covered1 (i : S50000x128.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 128 := (i 1).isLt
  have ht : (i 0).val / 2000 < cfg1.N := by rw [hN]; omega
  have e := block_index1 ⟨(i 0).val / 2000, ht⟩
  refine ⟨⟨(i 0).val / 2000, ht⟩, flush1_6 _, ?_⟩
  show i ∈ ((View.whole main_v51).slice (win1_6.rect ⟨(i 0).val / 2000, ht⟩)).set
  rw [View.set_slice_whole, Rect.mem_set_unit]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    have : (⟨(i 0).val / 2000, ht⟩ : Fin cfg1.N).val = (i 0).val / 2000 := rfl
    omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    omega

/-- AFTER THE REGION the output array is the updated node features, as one function of the arrays it was entered with. -/
theorem region1_out (c : Dev nD) : ((dat1 (F := Ideal) V c).arrAt 6 cfg1.N : Gcn.Mat 50000 128)
    = Gcn.arr2 (Gcn.combine (V c main_arg0 : Gcn.Mat 50000 128) (V c main_v22 : Gcn.Mat 128 128)
        (V c main_v50 : Gcn.Mat 50000 128) (V c main_v40 : Gcn.Mat 50000 128) (V c main_v11 : Gcn.Mat 50000 1)
        (V c main_v36 : Gcn.Mat 1 128)) :=
  (dat1 V c).arrAt_eq_of_cover 6 (updated1 V c) (fun t _ => written_back1 V c t) rows_covered1

end Cert.KernelIdeal.Hand

end
-- ==== Proof.Region2.lean ====
/-
  The third region: a linear layer with bias and a floor at zero, and the projection of its result scaled by the
  inverse root degree, both as functions of whole arrays.

  The node matrix `x` is `[50000, 128]`, cut into 25 row blocks of 2000 rows; the two weights `W` and `T` are
  `[128, 128]` and the bias `b` is a row `[1, 128]`, each read whole at every block; the inverse root degrees `d` are
  a column `[50000, 1]`, cut into the same row blocks.  At block `t` the region first computes
  `h_t = max (x_t · W + (b spread down the 2000 rows), 0)`, whose entry `(p, q)` is
  `max ((∑ k, x_t(p, k) · W(k, q)) + b(0, q)) 0`, and writes it to its first result; it then computes
  `(h_t · T) * (d_t spread along the 128 columns)`, whose entry `(p, q)` is `(∑ k, h_t(p, k) · T(k, q)) · d_t(p, 0)`,
  and writes it to its second result.  Row `p` of block `t` is row `2000 t + p` of a whole matrix, so `h_t` is the row
  block `t` of `h = Gcn.lin x W b`, and the second block is the row block `t` of `Gcn.proj h T d`: the sum over the
  contracted coordinate only meets row `2000 t + p` of `h`.  Every row `n` lies in the block `n / 2000`, so the 25
  blocks fill each result.
-/
import proofs.«147570_j43654047596706_2_alg».proof.Proof.Gen.KernelIdeal.Frame
import proofs.«147570_j43654047596706_2_alg».proof.Proof.Spec
import proofs.«147570_j43654047596706_2_alg».proof.Proof.LibPlainMatmul
import proofs.«147570_j43654047596706_2_alg».proof.Proof.LibLayout2
import Idealize.ShloMosaic.Lib.Pipeline.Value
import Idealize.ShloMosaic.Lib.ValueLayout
import Idealize.ShloMosaic.Lib.Tactic

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Region2

/-- The first block's value at `(p, q)`: the product `x_t · W` at `(p, q)`, a sum over the contracted coordinate (the
    change of format on the way into the product is the identity on extended reals), plus the bias row at column `q`
    (the row spread down the 2000 rows reads, at `(p, q)`, its entry `(0, q)`), floored at the zero word's value. -/
theorem lin_block_apply (x0 : Vec Ideal S2000x128 .f32) (x1 : Vec Ideal S128x128 .f32) (x2 : Vec Ideal S1x128 .f32)
    (p : Fin 2000) (q : Fin 128) :
    k2_pay1 x0 x1 x2 (ix2 p q) = max ((∑ k : Fin 128, x0 (ix2 p k) * x1 (ix2 k q)) + x2 (ix2 0 q)) Gcn.floor0 := by
  have h1 : k2_pay1 x0 x1 x2 (ix2 p q)
      = max ((FloatOps.matmul (PlainMatmul.dims dot_S2000x128_S128x128_S2000x128_1_0_0_1_n_n_wf) none
          (truncf .bf16 (shapeCast S2000x128 x0 shapeCasts_S2000x128_S2000x128) bitsLt_bf16_f32 : FVec Ideal S2000x128 .bf16)
          (truncf .bf16 (shapeCast S128x128 x1 shapeCasts_S128x128_S128x128) bitsLt_bf16_f32 : FVec Ideal S128x128 .bf16)
          (constant (F := Ideal) S2000x128 .f32 0x00000000#32) (ix2 p q))
        + (broadcastTo S2000x128 (shapeCast S1x128 x2 shapeCasts_S1x128_S1x128) broadcasts_S1x128_S2000x128 (ix2 p q))) Gcn.floor0 := rfl
  rw [h1, PlainMatmul.matmul_zero_apply, broadcastTo_1b_ab_apply, shapeCast_self, shapeCast_self, shapeCast_self]
  rfl

/-- The second block's value at `(p, q)`: the product `h_t · T` at `(p, q)`, with `h_t` the first block, times the
    column `d_t` at row `p`. -/
theorem proj_block_apply (x0 : Vec Ideal S2000x128 .f32) (x1 : Vec Ideal S128x128 .f32) (x2 : Vec Ideal S1x128 .f32)
    (x3 : Vec Ideal S128x128 .f32) (x4 : Vec Ideal S2000x1 .f32) (p : Fin 2000) (q : Fin 128) :
    k2_pay2 x0 x1 x2 x3 x4 (ix2 p q) = (∑ k : Fin 128, k2_pay1 x0 x1 x2 (ix2 p k) * x3 (ix2 k q)) * x4 (ix2 p 0) := by
  have h1 : k2_pay2 x0 x1 x2 x3 x4 (ix2 p q)
      = (FloatOps.matmul (PlainMatmul.dims dot_S2000x128_S128x128_S2000x128_1_0_0_1_n_n_wf) none
          (truncf .bf16 (k2_pay1 x0 x1 x2) bitsLt_bf16_f32 : FVec Ideal S2000x128 .bf16)
          (truncf .bf16 x3 bitsLt_bf16_f32 : FVec Ideal S128x128 .bf16)
          (constant (F := Ideal) S2000x128 .f32 0x00000000#32) (ix2 p q))
        * (broadcastTo S2000x128 (shapeCast S2000x1 x4 shapeCasts_S2000x1_S2000x1) broadcasts_S2000x1_S2000x128 (ix2 p q)) := rfl
  rw [h1, PlainMatmul.matmul_zero_apply, Layout2.broadcastTo_col_apply, shapeCast_self]
  rfl

/-- The zero offsets of a whole block. -/
theorem zeros2 : (![0, 0] : Fin 2 → Nat) = fun _ => 0 := funext fun a => by fin_cases a <;> rfl

/-- Row `p` of the row block `t` (2000 rows to a block, 25 blocks) is row `2000 t + p` of the node matrix. -/
abbrev rowOf {N : Nat} (hN : N = 25) (t : Fin N) (p : Fin 2000) : Fin 50000 :=
  ⟨2000 * t.val + p.val, by have := t.isLt; have := p.isLt; omega⟩

/-- The block indices over the 25 points: the node matrix, the degree column and the two results move down one row
    block per point; the two weights and the bias stay at their one block. -/
theorem index_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0) :=
  (by decide +kernel : ∀ t : Fin grid2.N, _)

/-- Block `t` of the node matrix at `(p, q)` is the matrix at `(2000 t + p, q)`. -/
theorem x_block (c : Dev nD) (t : Fin cfg2.N) (p : Fin 2000) (q : Fin 128) :
    (iblk2 V c 0 t : Vec Ideal S2000x128 .f32) (ix2 p q) = (V c main_v51 : Gcn.Mat 50000 128) (ix2 (rowOf N_2 t p) q) := by
  unfold iblk2
  rw [View.read_apply]
  show (V c main_v51 : S50000x128.Idx → EReal) (((cfg2.win 0).blk t).view.emb (ix2 p q)) = _
  refine congrArg (V c main_v51 : S50000x128.Idx → EReal) ?_
  funext a
  apply Fin.ext
  match a with
  | ⟨0, _⟩ => show win2_0.index t (0 : Fin 2) * 2000 + 1 * p.val = 2000 * t.val + p.val; rw [(index_facts t).1.1]; omega
  | ⟨1, _⟩ => show win2_0.index t (1 : Fin 2) * 128 + 1 * q.val = q.val; rw [(index_facts t).1.2]; omega

/-- The first weight's one block is the weight. -/
theorem w_block (c : Dev nD) (t : Fin cfg2.N) (p : Fin 128) (q : Fin 128) :
    (iblk2 V c 1 t : Vec Ideal S128x128 .f32) (ix2 p q) = (V c main_v34 : Gcn.Mat 128 128) (ix2 p q) := by
  unfold iblk2
  rw [View.read_apply]
  show (V c main_v34 : S128x128.Idx → EReal) (((cfg2.win 1).blk t).view.emb (ix2 p q)) = _
  refine congrArg (V c main_v34 : S128x128.Idx → EReal) ?_
  funext a
  apply Fin.ext
  match a with
  | ⟨0, _⟩ => show win2_1.index t (0 : Fin 2) * 128 + 1 * p.val = p.val; rw [(index_facts t).2.1.1]; omega
  | ⟨1, _⟩ => show win2_1.index t (1 : Fin 2) * 128 + 1 * q.val = q.val; rw [(index_facts t).2.1.2]; omega

/-- The bias row's one block is the bias row. -/
theorem b_block (c : Dev nD) (t : Fin cfg2.N) (u : Fin 1) (q : Fin 128) :
    (iblk2 V c 2 t : Vec Ideal S1x128 .f32) (ix2 u q) = (V c main_v38 : Gcn.Mat 1 128) (ix2 u q) := by
  unfold iblk2
  rw [View.read_apply]
  show (V c main_v38 : S1x128.Idx → EReal) (((cfg2.win 2).blk t).view.emb (ix2 u q)) = _
  refine congrArg (V c main_v38 : S1x128.Idx → EReal) ?_
  funext a
  apply Fin.ext
  match a with
  | ⟨0, _⟩ => show win2_2.index t (0 : Fin 2) * 1 + 1 * u.val = u.val; rw [(index_facts t).2.2.1.1]; omega
  | ⟨1, _⟩ => show win2_2.index t (1 : Fin 2) * 128 + 1 * q.val = q.val; rw [(index_facts t).2.2.1.2]; omega

/-- The second weight's one block is the weight. -/
theorem t_block (c : Dev nD) (t : Fin cfg2.N) (p : Fin 128) (q : Fin 128) :
    (iblk2 V c 3 t : Vec Ideal S128x128 .f32) (ix2 p q) = (V c main_arg7 : Gcn.Mat 128 128) (ix2 p q) := by
  unfold iblk2
  rw [View.read_apply]
  show (V c main_arg7 : S128x128.Idx → EReal) (((cfg2.win 3).blk t).view.emb (ix2 p q)) = _
  refine congrArg (V c main_arg7 : S128x128.Idx → EReal) ?_
  funext a
  apply Fin.ext
  match a with
  | ⟨0, _⟩ => show win2_3.index t (0 : Fin 2) * 128 + 1 * p.val = p.val; rw [(index_facts t).2.2.2.1.1]; omega
  | ⟨1, _⟩ => show win2_3.index t (1 : Fin 2) * 128 + 1 * q.val = q.val; rw [(index_facts t).2.2.2.1.2]; omega

/-- Block `t` of the degree column at `(p, u)` is the column at `(2000 t + p, u)`. -/
theorem d_block (c : Dev nD) (t : Fin cfg2.N) (p : Fin 2000) (u : Fin 1) :
    (iblk2 V c 4 t : Vec Ideal S2000x1 .f32) (ix2 p u) = (V c main_v11 : Gcn.Mat 50000 1) (ix2 (rowOf N_2 t p) u) := by
  unfold iblk2
  rw [View.read_apply]
  show (V c main_v11 : S50000x1.Idx → EReal) (((cfg2.win 4).blk t).view.emb (ix2 p u)) = _
  refine congrArg (V c main_v11 : S50000x1.Idx → EReal) ?_
  funext a
  apply Fin.ext
  match a with
  | ⟨0, _⟩ => show win2_4.index t (0 : Fin 2) * 2000 + 1 * p.val = 2000 * t.val + p.val; rw [(index_facts t).2.2.2.2.1.1]; omega
  | ⟨1, _⟩ => show win2_4.index t (1 : Fin 2) * 1 + 1 * u.val = u.val; rw [(index_facts t).2.2.2.2.1.2]; omega

/-- The linear layer as one function of the whole arrays: `(n, q) ↦ max ((∑ k, x(n, k) · W(k, q)) + b(0, q)) 0`. -/
abbrev linWhole (c : Dev nD) : Gcn.Mat 50000 128 :=
  Gcn.arr2 (Gcn.lin (V c main_v51 : Gcn.Mat 50000 128) (V c main_v34 : Gcn.Mat 128 128) (V c main_v38 : Gcn.Mat 1 128))

/-- Its projection scaled by the degree column: `(n, q) ↦ (∑ k, h(n, k) · T(k, q)) · d(n, 0)`. -/
abbrev projWhole (c : Dev nD) : Gcn.Mat 50000 128 :=
  Gcn.arr2 (Gcn.proj (linWhole V c) (V c main_arg7 : Gcn.Mat 128 128) (V c main_v11 : Gcn.Mat 50000 1))

/-- The first block at point `t`, entry `(p, q)`, is the linear layer at `(2000 t + p, q)`. -/
theorem lin_at (c : Dev nD) (t : Fin cfg2.N) (p : Fin 2000) (q : Fin 128) :
    k2_pay1 (iblk2 V c 0 t) (iblk2 V c 1 t) (iblk2 V c 2 t) (ix2 p q) = linWhole V c (ix2 (rowOf N_2 t p) q) := by
  refine (lin_block_apply (iblk2 V c 0 t) (iblk2 V c 1 t) (iblk2 V c 2 t) p q).trans ?_
  rw [b_block]
  unfold linWhole
  rw [Gcn.arr2_apply]
  unfold Gcn.lin Gcn.rowdot
  congr 2
  exact Finset.sum_congr rfl fun k _ => by rw [x_block, w_block]

/-- Where an entry of a result's block `t` sits in the result. -/
theorem out5_emb (t : Fin cfg2.N) (p : Fin 2000) (q : Fin 128) :
    ((cfg2.win 5).blk t).view.emb (ix2 p q) = (ix2 (rowOf N_2 t p) q : S50000x128.Idx) := by
  funext a
  apply Fin.ext
  match a with
  | ⟨0, _⟩ => show win2_5.index t (0 : Fin 2) * 2000 + 1 * p.val = 2000 * t.val + p.val; rw [(index_facts t).2.2.2.2.2.1.1]; omega
  | ⟨1, _⟩ => show win2_5.index t (1 : Fin 2) * 128 + 1 * q.val = q.val; rw [(index_facts t).2.2.2.2.2.1.2]; omega

theorem out6_emb (t : Fin cfg2.N) (p : Fin 2000) (q : Fin 128) :
    ((cfg2.win 6).blk t).view.emb (ix2 p q) = (ix2 (rowOf N_2 t p) q : S50000x128.Idx) := by
  funext a
  apply Fin.ext
  match a with
  | ⟨0, _⟩ => show win2_6.index t (0 : Fin 2) * 2000 + 1 * p.val = 2000 * t.val + p.val; rw [(index_facts t).2.2.2.2.2.2.1]; omega
  | ⟨1, _⟩ => show win2_6.index t (1 : Fin 2) * 128 + 1 * q.val = q.val; rw [(index_facts t).2.2.2.2.2.2.2]; omega

/-- What point `t` writes back to the first result is the row block `t` of the linear layer. -/
theorem lin_flushed_eq (c : Dev nD) (t : Fin cfg2.N) :
    (dat2 (F := Ideal) V c).flushed 5 t = ((cfg2.win 5).blk t).view.read (Elt Ideal) (linWhole V c) := by
  show (cfg2.win 5).cut (grid2.coords t) ((dat2 V c).after 5 t) = _
  rw [after2_5]
  unfold out2_5
  rw [View.canon_unit_zero zeros2]
  simp only [View.ld_unit_zero (S := S2000x128) zeros2, View.ld_unit_zero (S := S128x128) zeros2, View.ld_unit_zero (S := S1x128) zeros2]
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (ix2 p q) = linWhole V c (((cfg2.win 5).blk t).view.emb (ix2 p q))
  rw [out5_emb]
  exact lin_at V c t p q

/-- What point `t` writes back to the second result is the row block `t` of the scaled projection. -/
theorem proj_flushed_eq (c : Dev nD) (t : Fin cfg2.N) :
    (dat2 (F := Ideal) V c).flushed 6 t = ((cfg2.win 6).blk t).view.read (Elt Ideal) (projWhole V c) := by
  show (cfg2.win 6).cut (grid2.coords t) ((dat2 V c).after 6 t) = _
  rw [after2_6]
  unfold out2_6
  rw [View.canon_unit_zero zeros2]
  simp only [View.ld_unit_zero (S := S2000x128) zeros2, View.ld_unit_zero (S := S128x128) zeros2, View.ld_unit_zero (S := S1x128) zeros2, View.ld_unit_zero (S := S2000x1) zeros2]
  funext j
  obtain ⟨p, q, rfl⟩ : ∃ (p : Fin 2000) (q : Fin 128), j = ix2 p q := ⟨j 0, j 1, eq_ix2 j⟩
  show k2_pay2 (iblk2 V c 0 t) (iblk2 V c 1 t) (iblk2 V c 2 t) (iblk2 V c 3 t) (iblk2 V c 4 t) (ix2 p q) = projWhole V c (((cfg2.win 6).blk t).view.emb (ix2 p q))
  refine (proj_block_apply (iblk2 V c 0 t) (iblk2 V c 1 t) (iblk2 V c 2 t) (iblk2 V c 3 t) (iblk2 V c 4 t) p q).trans ?_
  rw [out6_emb, d_block]
  unfold projWhole
  rw [Gcn.arr2_apply]
  unfold Gcn.proj Gcn.rowdot
  congr 1
  exact Finset.sum_congr rfl fun k _ => by rw [lin_at, t_block]

/-- An index of a result is in point `t`'s block iff each coordinate is in the block's range on its axis. -/
theorem mem_block5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v52_0).slice (win2_5.rect t)).set ↔ _
  rw [View.set_slice_whole, Rect.mem_set_unit]
  exact Iff.rfl

theorem mem_block6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v52_1).slice (win2_6.rect t)).set ↔ _
  rw [View.set_slice_whole, Rect.mem_set_unit]
  exact Iff.rfl

/-- Row `n` of the first result lies in the block of point `n / 2000`. -/
theorem covered5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 2000 < cfg2.N := lt_of_lt_of_eq (by omega) N_2.symm
  refine ⟨⟨(i 0).val / 2000, ht⟩, flush2_5 _, ?_⟩
  rw [mem_block5]
  intro a
  obtain ⟨-, -, -, -, -, ⟨e0, e1⟩, -⟩ := index_facts ⟨(i 0).val / 2000, ht⟩
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e1]; omega

/-- Row `n` of the second result lies in the block of point `n / 2000`. -/
theorem covered6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 2000 < cfg2.N := lt_of_lt_of_eq (by omega) N_2.symm
  refine ⟨⟨(i 0).val / 2000, ht⟩, flush2_6 _, ?_⟩
  rw [mem_block6]
  intro a
  obtain ⟨-, -, -, -, -, -, e0, e1⟩ := index_facts ⟨(i 0).val / 2000, ht⟩
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e1]; omega

end Region2

/-- After the third region its first result is `Gcn.lin` of the node matrix, the weight and the bias row as the region
    found them. -/
theorem region2_lin (c : Dev nD) : ((dat2 (F := Ideal) V c).arrAt 5 cfg2.N : Gcn.Mat 50000 128)
    = Gcn.arr2 (Gcn.lin (V c main_v51 : Gcn.Mat 50000 128) (V c main_v34 : Gcn.Mat 128 128) (V c main_v38 : Gcn.Mat 1 128)) :=
  (dat2 (F := Ideal) V c).arrAt_eq_of_cover 5 (Region2.linWhole V c) (fun t _ => Region2.lin_flushed_eq V c t) Region2.covered5

/-- After the third region its second result is `Gcn.proj` of that linear layer, the second weight and the degree
    column as the region found them. -/
theorem region2_proj (c : Dev nD) : ((dat2 (F := Ideal) V c).arrAt 6 cfg2.N : Gcn.Mat 50000 128)
    = Gcn.arr2 (Gcn.proj (Gcn.arr2 (Gcn.lin (V c main_v51 : Gcn.Mat 50000 128) (V c main_v34 : Gcn.Mat 128 128) (V c main_v38 : Gcn.Mat 1 128))) (V c main_arg7 : Gcn.Mat 128 128) (V c main_v11 : Gcn.Mat 50000 1)) :=
  (dat2 (F := Ideal) V c).arrAt_eq_of_cover 6 (Region2.projWhole V c) (fun t _ => Region2.proj_flushed_eq V c t) Region2.covered6

end Cert.KernelIdeal.Hand

end
-- ==== Proof.Region3.lean ====
/-
  The second antisymmetric convolution's combining step and the classifier, read as functions of the arrays.

  The step runs over the 50000 nodes in 25 blocks of 2000 rows.  At block `t` it reads rows `2000 t … 2000 t + 1999` of
  the node features, of the edge aggregate, of the scaled projection and of the degree column, and the whole of the
  `[128, 128]` weight matrix, of the `[1, 128]` bias row, of the `[128, 40]` class weights and of the `[1, 40]` class
  biases.  It writes two blocks of rows: the updated node features (the first convolution's arithmetic on this
  region's arrays) and, from those 2000 updated rows, the class log-probabilities: each updated row times the class
  weights plus the class biases, then along the row the maximum `m` taken from minus infinity, the row shifted by `m`,
  and the shifted row minus the logarithm of the sum of its exponentials.  Entry `(p, ·)` of either result depends on
  row `p` of the row blocks only, so it is row `2000 t + p` of ONE function of the whole arrays, and since every row
  lies in exactly one block each result array is that function.
-/
import proofs.«147570_j43654047596706_2_alg».proof.Proof.Gen.KernelIdeal.Frame
import proofs.«147570_j43654047596706_2_alg».proof.Proof.Spec
import proofs.«147570_j43654047596706_2_alg».proof.Proof.LibPlainMatmul
import proofs.«147570_j43654047596706_2_alg».proof.Proof.LibLayout2
import proofs.«147570_j43654047596706_2_alg».proof.Proof.Region1
import Idealize.ShloMosaic.Lib.Pipeline.Value
import Idealize.ShloMosaic.Lib.ValueLayout
import Idealize.ShloMosaic.Lib.Tactic

-- indices of axes of 2000 and 50000 coordinates: the elaborator's structural recursion goes deeper than its default bound
set_option maxRecDepth 16384

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The second update's block has the first's arithmetic -/

/-- The second convolution's update of one block of 2000 rows is the same term as the first's, but for a cast of the
    block to its own shape, which changes nothing. -/
theorem combine_block3_apply (x0 : Vec Ideal S2000x128 .f32) (x1 : Vec Ideal S128x128 .f32) (x4 : Vec Ideal S2000x1 .f32)
    (x2 x3 : Vec Ideal S2000x128 .f32) (x5 : Vec Ideal S1x128 .f32) (p : Fin 2000) (q : Fin 128) :
    k3_pay2 x0 x1 x4 x2 x3 x5 (ix2 p q)
      = max (x0 (ix2 p q) + Gcn.tenth * Ideal.tanh ((∑ c : Fin 128, x0 (ix2 p c) * x1 (ix2 c q))
          + x4 (ix2 p 0) * (x2 (ix2 p q) + x3 (ix2 p q)) + x5 (ix2 0 q))) Gcn.floor0 := by
  have h : k3_pay2 x0 x1 x4 x2 x3 x5 = k1_pay1 x0 x1 x4 x2 x3 x5 := by
    unfold k3_pay2 k1_pay1
    simp only [shapeCast_self]
  rw [h]
  exact combine_block_apply x0 x1 x4 x2 x3 x5 p q

/-! ## The logarithm of the softmax along the rows of a block -/

/-- A maximum along the rows of a matrix (axis 1 dropped), at row `i`: the fold of `max` from the accumulator's
    value over the entries `(i, j)`. -/
theorem max_axis1_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) := by
  refine (Ideal.multiReduction_maximumf_single src acc h hφ hacc (ix1 i)).trans ?_
  have hf : (src ∘ h.lift (ix1 i)) = fun j : Fin b => src (ix2 i j) :=
    funext fun k => congrArg src (PlainMatmul.lift_last h i k)
  exact congrArg (fun f => Finset.fold max (Ideal.ofBits φ acc) f (Finset.univ : Finset (Fin b))) hf

/-- The row maximum from minus infinity, made a column and spread along the row again, at `(p, g)`: the maximum of
    row `p`. -/
theorem row_max_apply (L : FVec Ideal S2000x40 .f32) (p : Fin 2000) (g : Fin 40) :
    broadcastTo S2000x40 (shapeCast S2000x1 (multiReduction (F := Ideal) .maximumf [1] S2000 L 0xFF800000#32
        reduces_S2000x40_S2000 (.inl rfl) rfl) shapeCasts_S2000_S2000x1) broadcasts_S2000x1_S2000x40 (ix2 p g)
      = Gcn.rowmax fun g' : Fin 40 => L (ix2 p g') := by
  rw [Layout2.broadcastTo_col_of_vector_apply]
  exact max_axis1_apply L _ _ _ _ p

/-- The logarithm of the row sum, the sum made a column and the logarithm spread along the row, at `(p, g)`: the
    logarithm of the sum of row `p`; the sum has no initial term. -/
theorem row_logsum_apply (E : FVec Ideal S2000x40 .f32) (p : Fin 2000) (g : Fin 40) :
    broadcastTo S2000x40 (log (shapeCast S2000x1 (multiReduction (F := Ideal) .add [1] S2000 E 0x00000000#32
        reduces_S2000x40_S2000 (.inl rfl) rfl) shapeCasts_S2000_S2000x1)) broadcasts_S2000x1_S2000x40 (ix2 p g)
      = Ideal.log (∑ g' : Fin 40, E (ix2 p g')) := by
  rw [Layout2.broadcastTo_col_apply]
  show Ideal.log (shapeCast S2000x1 _ shapeCasts_S2000_S2000x1 (ix2 p (0 : Fin 1))) = _
  rw [Layout2.shapeCast_col_apply]
  exact congrArg Ideal.log (PlainMatmul.sum_axis1_apply E _ _ _ _ p)

/-- The last step of the classifier on one block, at row `p` and class `g`: with `z` the row of the sum of its two
    operands, `(z g − max z) − log (∑ exp (z − max z))`. -/
theorem log_softmax_block_apply (z b : FVec Ideal S2000x40 .f32) (p : Fin 2000) (g : Fin 40) :
    k3_pay1 z b (ix2 p g) = Gcn.lsm (fun g' : Fin 40 => z (ix2 p g') + b (ix2 p g')) g := by
  unfold k3_pay1
  show (z (ix2 p g) + b (ix2 p g) - broadcastTo S2000x40 _ broadcasts_S2000x1_S2000x40 (ix2 p g))
      - broadcastTo S2000x40 _ broadcasts_S2000x1_S2000x40 (ix2 p g) = _
  rw [row_max_apply (addf z b) p g, row_logsum_apply _ p g]
  unfold Gcn.lsm
  refine congrArg (fun s => (z (ix2 p g) + b (ix2 p g) - Gcn.rowmax fun g' : Fin 40 => z (ix2 p g') + b (ix2 p g')) - Ideal.log s)
    (Finset.sum_congr rfl fun g' _ => ?_)
  show Ideal.exp (z (ix2 p g') + b (ix2 p g') - broadcastTo S2000x40 _ broadcasts_S2000x1_S2000x40 (ix2 p g')) = _
  rw [row_max_apply (addf z b) p g']
  rfl

/-- The product of a `[2000, 128]` block of rows by the `[128, 40]` class weights, accumulated into zero, at
    `(p, g)`: the sum over the contracted coordinate. -/
theorem dot_classes_apply (A : FVec Ideal S2000x128 .bf16) (B : FVec Ideal S128x40 .bf16) (p : Fin 2000) (g : Fin 40) :
    matmul dot_S2000x128_S128x40_S2000x40_1_0_0_1_n_n none A B (constant (F := Ideal) S2000x40 .f32 0x00000000#32) (ix2 p g)
      = ∑ c : Fin 128, A (ix2 p c) * B (ix2 c g) :=
  PlainMatmul.matmul_zero_apply dot_S2000x128_S128x40_S2000x40_1_0_0_1_n_n_wf none A B p g

/-- The classifier on one block of 2000 rows, at row `p` and class `g`: the logarithm of the softmax of the row
    `g' ↦ (row p of the updated block · column g' of the class weights) + bias g'`. -/
theorem classify_block_apply (x0 : Vec Ideal S2000x128 .f32) (x1 : Vec Ideal S128x128 .f32) (x4 : Vec Ideal S2000x1 .f32)
    (x2 x3 : Vec Ideal S2000x128 .f32) (x5 : Vec Ideal S1x128 .f32) (x6 : Vec Ideal S128x40 .f32) (x7 : Vec Ideal S1x40 .f32)
    (p : Fin 2000) (g : Fin 40) :
    k3_pay1 (k3_pay3 x0 x1 x4 x2 x3 x5 x6) (k3_pay4 x7) (ix2 p g)
      = Gcn.lsm (fun g' : Fin 40 => (∑ c : Fin 128, k3_pay2 x0 x1 x4 x2 x3 x5 (ix2 p c) * x6 (ix2 c g'))
          + x7 (ix2 0 g')) g := by
  refine (log_softmax_block_apply _ _ p g).trans ?_
  refine congrArg (fun z => Gcn.lsm z g) (funext fun g' => ?_)
  have h3 : k3_pay3 x0 x1 x4 x2 x3 x5 x6 (ix2 p g')
      = ∑ c : Fin 128, k3_pay2 x0 x1 x4 x2 x3 x5 (ix2 p c) * x6 (ix2 c g') := by
    unfold k3_pay3
    simp only [shapeCast_self]
    exact dot_classes_apply _ _ p g'
  have h4 : k3_pay4 x7 (ix2 p g') = x7 (ix2 0 g') := by
    unfold k3_pay4
    rw [shapeCast_self]
    exact broadcastTo_1b_ab_apply _ _ p g'
  rw [h3, h4]

/-! ## The windows' blocks as rows of the arrays -/

/-- Where each window's block sits at grid point `t`: a window over a `[50000, _]` array is at block `(t, 0)`
    (rows `2000 t … 2000 t + 1999`), a window over a whole small array at block `(0, 0)`: decided over the 25 points. -/
theorem block_index3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = t.val ∧ win3_8.index t (1 : Fin 2) = 0)
    ∧ (win3_9.index t (0 : Fin 2) = t.val ∧ win3_9.index t (1 : Fin 2) = 0) :=
  (by decide +kernel : ∀ t : Fin grid3.N, _)

/-- Row `p` of window 0's block at point `t` is row `2000 t + p` of the node features. -/
theorem block3_0_apply (c : Dev nD) (t : Fin cfg3.N) (p : Fin 2000) (q : Fin 128) (n : Fin 50000)
    (hn : n.val = t.val * 2000 + p.val) :
    (iblk3 V c 0 t : Vec Ideal S2000x128 .f32) (ix2 p q) = (V c main_v52_0 : S50000x128.Idx → EReal) (ix2 n q) := by
  have e := block_index3 t
  unfold iblk3
  rw [View.read_apply]
  show V c main_v52_0 _ = V c main_v52_0 _
  refine congrArg _ ?_
  funext a; apply Fin.ext
  match a with
  | ⟨0, _⟩ => show win3_0.index t (0 : Fin 2) * 2000 + 1 * p.val = n.val; omega
  | ⟨1, _⟩ => show win3_0.index t (1 : Fin 2) * 128 + 1 * q.val = q.val; omega

/-- Window 1's block at every point is the whole weight matrix. -/
theorem block3_1_apply (c : Dev nD) (t : Fin cfg3.N) (p : Fin 128) (q : Fin 128) :
    (iblk3 V c 1 t : Vec Ideal S128x128 .f32) (ix2 p q) = (V c main_v33 : S128x128.Idx → EReal) (ix2 p q) := by
  have e := block_index3 t
  unfold iblk3
  rw [View.read_apply]
  show V c main_v33 _ = V c main_v33 _
  refine congrArg _ ?_
  funext a; apply Fin.ext
  match a with
  | ⟨0, _⟩ => show win3_1.index t (0 : Fin 2) * 128 + 1 * p.val = p.val; omega
  | ⟨1, _⟩ => show win3_1.index t (1 : Fin 2) * 128 + 1 * q.val = q.val; omega

/-- Row `p` of window 2's block at point `t` is row `2000 t + p` of the edge aggregate. -/
theorem block3_2_apply (c : Dev nD) (t : Fin cfg3.N) (p : Fin 2000) (q : Fin 128) (n : Fin 50000)
    (hn : n.val = t.val * 2000 + p.val) :
    (iblk3 V c 2 t : Vec Ideal S2000x128 .f32) (ix2 p q) = (V c main_v62 : S50000x128.Idx → EReal) (ix2 n q) := by
  have e := block_index3 t
  unfold iblk3
  rw [View.read_apply]
  show V c main_v62 _ = V c main_v62 _
  refine congrArg _ ?_
  funext a; apply Fin.ext
  match a with
  | ⟨0, _⟩ => show win3_2.index t (0 : Fin 2) * 2000 + 1 * p.val = n.val; omega
  | ⟨1, _⟩ => show win3_2.index t (1 : Fin 2) * 128 + 1 * q.val = q.val; omega

/-- Row `p` of window 3's block at point `t` is row `2000 t + p` of the scaled projection. -/
theorem block3_3_apply (c : Dev nD) (t : Fin cfg3.N) (p : Fin 2000) (q : Fin 128) (n : Fin 50000)
    (hn : n.val = t.val * 2000 + p.val) :
    (iblk3 V c 3 t : Vec Ideal S2000x128 .f32) (ix2 p q) = (V c main_v52_1 : S50000x128.Idx → EReal) (ix2 n q) := by
  have e := block_index3 t
  unfold iblk3
  rw [View.read_apply]
  show V c main_v52_1 _ = V c main_v52_1 _
  refine congrArg _ ?_
  funext a; apply Fin.ext
  match a with
  | ⟨0, _⟩ => show win3_3.index t (0 : Fin 2) * 2000 + 1 * p.val = n.val; omega
  | ⟨1, _⟩ => show win3_3.index t (1 : Fin 2) * 128 + 1 * q.val = q.val; omega

/-- Entry `p` of window 4's block at point `t` is entry `2000 t + p` of the degree column. -/
theorem block3_4_apply (c : Dev nD) (t : Fin cfg3.N) (p : Fin 2000) (q : Fin 1) (n : Fin 50000)
    (hn : n.val = t.val * 2000 + p.val) :
    (iblk3 V c 4 t : Vec Ideal S2000x1 .f32) (ix2 p q) = (V c main_v11 : S50000x1.Idx → EReal) (ix2 n q) := by
  have e := block_index3 t
  unfold iblk3
  rw [View.read_apply]
  show V c main_v11 _ = V c main_v11 _
  refine congrArg _ ?_
  funext a; apply Fin.ext
  match a with
  | ⟨0, _⟩ => show win3_4.index t (0 : Fin 2) * 2000 + 1 * p.val = n.val; omega
  | ⟨1, _⟩ => show win3_4.index t (1 : Fin 2) * 1 + 1 * q.val = q.val; omega

/-- Window 5's block at every point is the whole bias row. -/
theorem block3_5_apply (c : Dev nD) (t : Fin cfg3.N) (p : Fin 1) (q : Fin 128) :
    (iblk3 V c 5 t : Vec Ideal S1x128 .f32) (ix2 p q) = (V c main_v37 : S1x128.Idx → EReal) (ix2 p q) := by
  have e := block_index3 t
  unfold iblk3
  rw [View.read_apply]
  show V c main_v37 _ = V c main_v37 _
  refine congrArg _ ?_
  funext a; apply Fin.ext
  match a with
  | ⟨0, _⟩ => show win3_5.index t (0 : Fin 2) * 1 + 1 * p.val = p.val; omega
  | ⟨1, _⟩ => show win3_5.index t (1 : Fin 2) * 128 + 1 * q.val = q.val; omega

/-- Window 6's block at every point is the whole matrix of class weights. -/
theorem block3_6_apply (c : Dev nD) (t : Fin cfg3.N) (p : Fin 128) (q : Fin 40) :
    (iblk3 V c 6 t : Vec Ideal S128x40 .f32) (ix2 p q) = (V c main_v35 : S128x40.Idx → EReal) (ix2 p q) := by
  have e := block_index3 t
  unfold iblk3
  rw [View.read_apply]
  show V c main_v35 _ = V c main_v35 _
  refine congrArg _ ?_
  funext a; apply Fin.ext
  match a with
  | ⟨0, _⟩ => show win3_6.index t (0 : Fin 2) * 128 + 1 * p.val = p.val; omega
  | ⟨1, _⟩ => show win3_6.index t (1 : Fin 2) * 40 + 1 * q.val = q.val; omega

/-- Window 7's block at every point is the whole row of class biases. -/
theorem block3_7_apply (c : Dev nD) (t : Fin cfg3.N) (p : Fin 1) (q : Fin 40) :
    (iblk3 V c 7 t : Vec Ideal S1x40 .f32) (ix2 p q) = (V c main_v39 : S1x40.Idx → EReal) (ix2 p q) := by
  have e := block_index3 t
  unfold iblk3
  rw [View.read_apply]
  show V c main_v39 _ = V c main_v39 _
  refine congrArg _ ?_
  funext a; apply Fin.ext
  match a with
  | ⟨0, _⟩ => show win3_7.index t (0 : Fin 2) * 1 + 1 * p.val = p.val; omega
  | ⟨1, _⟩ => show win3_7.index t (1 : Fin 2) * 40 + 1 * q.val = q.val; omega

/-! ## From the blocks to the arrays -/

/-- The updated node features as one function of the arrays the region is entered with. -/
abbrev updated3 (c : Dev nD) : Gcn.Mat 50000 128 :=
  Gcn.arr2 (Gcn.combine (V c main_v52_0 : Gcn.Mat 50000 128) (V c main_v33 : Gcn.Mat 128 128)
    (V c main_v62 : Gcn.Mat 50000 128) (V c main_v52_1 : Gcn.Mat 50000 128) (V c main_v11 : Gcn.Mat 50000 1)
    (V c main_v37 : Gcn.Mat 1 128))

/-- The class log-probabilities as one function of the arrays the region is entered with. -/
abbrev logprob3 (c : Dev nD) : Gcn.Mat 50000 40 :=
  Gcn.arr2 fun n => Gcn.lsm (Gcn.logits (updated3 V c) (V c main_v35 : Gcn.Mat 128 40) (V c main_v39 : Gcn.Mat 1 40) n)

/-- Entry `(p, q)` of the update of the blocks at point `t` is entry `(2000 t + p, q)` of the updated node
    features: it reads row `p` of each row block, which is row `2000 t + p` of its array, and the whole of the weight
    matrix and of the bias row. -/
theorem combine_rows3 (c : Dev nD) (t : Fin cfg3.N) (p : Fin 2000) (q : Fin 128) (n : Fin 50000)
    (hn : n.val = t.val * 2000 + p.val) :
    k3_pay2 (iblk3 V c 0 t) (iblk3 V c 1 t) (iblk3 V c 4 t) (iblk3 V c 2 t) (iblk3 V c 3 t) (iblk3 V c 5 t) (ix2 p q)
      = updated3 V c (ix2 n q) := by
  refine (combine_block3_apply (iblk3 V c 0 t) (iblk3 V c 1 t) (iblk3 V c 4 t) (iblk3 V c 2 t) (iblk3 V c 3 t)
    (iblk3 V c 5 t) p q).trans ?_
  rw [block3_0_apply V c t p q n hn, block3_2_apply V c t p q n hn, block3_3_apply V c t p q n hn,
    block3_4_apply V c t p 0 n hn, block3_5_apply V c t 0 q,
    Finset.sum_congr rfl fun k _ => by rw [block3_0_apply V c t p k n hn, block3_1_apply V c t k q]]
  rfl

/-- What grid point `t` writes back to the first output is rows `2000 t … 2000 t + 1999` of the updated node
    features. -/
theorem written_back3_8 (c : Dev nD) (t : Fin cfg3.N) :
    (dat3 (F := Ideal) V c).flushed 8 t = ((cfg3.win 8).blk t).view.read (Elt Ideal) (updated3 V c) := by
  show (cfg3.win 8).cut (grid3.coords t) ((dat3 V c).after 8 t) = _
  rw [after3_8]
  unfold out3_8
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hn : t.val * 2000 + p.val < 50000 := by have := p.isLt; omega
  have e := block_index3 t
  have hemb : ((cfg3.win 8).blk t).view.emb (ix2 p q) = ix2 (⟨t.val * 2000 + p.val, hn⟩ : Fin 50000) q := by
    funext a; apply Fin.ext
    match a with
    | ⟨0, _⟩ => show win3_8.index t (0 : Fin 2) * 2000 + 1 * p.val = t.val * 2000 + p.val; omega
    | ⟨1, _⟩ => show win3_8.index t (1 : Fin 2) * 128 + 1 * q.val = q.val; omega
  show k3_pay2 (iblk3 V c 0 t) (iblk3 V c 1 t) (iblk3 V c 4 t) (iblk3 V c 2 t) (iblk3 V c 3 t) (iblk3 V c 5 t) (ix2 p q)
    = updated3 V c (((cfg3.win 8).blk t).view.emb (ix2 p q))
  rw [hemb]
  exact combine_rows3 V c t p q ⟨_, hn⟩ rfl

/-- What grid point `t` writes back to the second output is rows `2000 t … 2000 t + 1999` of the class
    log-probabilities: row `p` of the block's logits is row `2000 t + p` of the updated node features times the whole
    class weights, plus the whole row of class biases. -/
theorem written_back3_9 (c : Dev nD) (t : Fin cfg3.N) :
    (dat3 (F := Ideal) V c).flushed 9 t = ((cfg3.win 9).blk t).view.read (Elt Ideal) (logprob3 V c) := by
  show (cfg3.win 9).cut (grid3.coords t) ((dat3 V c).after 9 t) = _
  rw [after3_9]
  unfold out3_9
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets,
    View.ld_unit_zero (S := S128x40) zero_offsets, View.ld_unit_zero (S := S1x40) zero_offsets]
  funext j
  obtain ⟨p, g, rfl⟩ : ∃ (p : Fin 2000) (g : Fin 40), j = ix2 p g := ⟨j 0, j 1, eq_ix2 j⟩
  have hN : cfg3.N = 25 := N_3
  have ht : t.val < 25 := hN ▸ t.isLt
  have hn : t.val * 2000 + p.val < 50000 := by have := p.isLt; omega
  have e := block_index3 t
  have hemb : ((cfg3.win 9).blk t).view.emb (ix2 p g) = ix2 (⟨t.val * 2000 + p.val, hn⟩ : Fin 50000) g := by
    funext a; apply Fin.ext
    match a with
    | ⟨0, _⟩ => show win3_9.index t (0 : Fin 2) * 2000 + 1 * p.val = t.val * 2000 + p.val; omega
    | ⟨1, _⟩ => show win3_9.index t (1 : Fin 2) * 40 + 1 * g.val = g.val; omega
  show k3_pay1 (k3_pay3 (iblk3 V c 0 t) (iblk3 V c 1 t) (iblk3 V c 4 t) (iblk3 V c 2 t) (iblk3 V c 3 t) (iblk3 V c 5 t)
      (iblk3 V c 6 t)) (k3_pay4 (iblk3 V c 7 t)) (ix2 p g)
    = logprob3 V c (((cfg3.win 9).blk t).view.emb (ix2 p g))
  rw [hemb]
  refine (classify_block_apply (iblk3 V c 0 t) (iblk3 V c 1 t) (iblk3 V c 4 t) (iblk3 V c 2 t) (iblk3 V c 3 t)
    (iblk3 V c 5 t) (iblk3 V c 6 t) (iblk3 V c 7 t) p g).trans ?_
  refine congrArg (fun z => Gcn.lsm z g) (funext fun g' => ?_)
  rw [block3_7_apply V c t 0 g',
    Finset.sum_congr rfl fun k _ => by rw [combine_rows3 V c t p k ⟨_, hn⟩ rfl, block3_6_apply V c t k g']]
  rfl

/-- Row `n` of the first output lies in the block of point `n / 2000`, which is written back. -/
theorem rows_covered3_8 (i : S50000x128.Idx) :
    ∃ t : Fin cfg3.N, (cfg3.win 8).flush t = true ∧ i ∈ ((cfg3.win 8).blk t).view.set := by
  have hN : cfg3.N = 25 := N_3
  have hi0 : (i 0).val < 50000 := (i 0).isLt
  have hi1 : (i 1).val < 128 := (i 1).isLt
  have ht : (i 0).val / 2000 < cfg3.N := by rw [hN]; omega
  have e := block_index3 ⟨(i 0).val / 2000, ht⟩
  refine ⟨⟨(i 0).val / 2000, ht⟩, flush3_8 _, ?_⟩
  show i ∈ ((View.whole main_v63_0).slice (win3_8.rect ⟨(i 0).val / 2000, ht⟩)).set
  rw [View.set_slice_whole, Rect.mem_set_unit]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    have : (⟨(i 0).val / 2000, ht⟩ : Fin cfg3.N).val = (i 0).val / 2000 := rfl
    omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    omega

/-- Row `n` of the second output lies in the block of point `n / 2000`, which is written back. -/
theorem rows_covered3_9 (i : S50000x40.Idx) :
    ∃ t : Fin cfg3.N, (cfg3.win 9).flush t = true ∧ i ∈ ((cfg3.win 9).blk t).view.set := by
  have hN : cfg3.N = 25 := N_3
  have hi0 : (i 0).val < 50000 := (i 0).isLt
  have hi1 : (i 1).val < 40 := (i 1).isLt
  have ht : (i 0).val / 2000 < cfg3.N := by rw [hN]; omega
  have e := block_index3 ⟨(i 0).val / 2000, ht⟩
  refine ⟨⟨(i 0).val / 2000, ht⟩, flush3_9 _, ?_⟩
  show i ∈ ((View.whole main_v63_1).slice (win3_9.rect ⟨(i 0).val / 2000, ht⟩)).set
  rw [View.set_slice_whole, Rect.mem_set_unit]
  intro a
  match a with
  | ⟨0, _⟩ =>
    show win3_9.index ⟨(i 0).val / 2000, ht⟩ (0 : Fin 2) * 2000 ≤ (i 0).val
      ∧ (i 0).val < win3_9.index ⟨(i 0).val / 2000, ht⟩ (0 : Fin 2) * 2000 + 2000
    have : (⟨(i 0).val / 2000, ht⟩ : Fin cfg3.N).val = (i 0).val / 2000 := rfl
    omega
  | ⟨1, _⟩ =>
    show win3_9.index ⟨(i 0).val / 2000, ht⟩ (1 : Fin 2) * 40 ≤ (i 1).val
      ∧ (i 1).val < win3_9.index ⟨(i 0).val / 2000, ht⟩ (1 : Fin 2) * 40 + 40
    omega

/-- AFTER THE REGION the first output array is the updated node features, as one function of the arrays it was entered
    with. -/
theorem region3_x1 (c : Dev nD) : ((dat3 (F := Ideal) V c).arrAt 8 cfg3.N : Gcn.Mat 50000 128)
    = Gcn.arr2 (Gcn.combine (V c main_v52_0 : Gcn.Mat 50000 128) (V c main_v33 : Gcn.Mat 128 128)
        (V c main_v62 : Gcn.Mat 50000 128) (V c main_v52_1 : Gcn.Mat 50000 128) (V c main_v11 : Gcn.Mat 50000 1)
        (V c main_v37 : Gcn.Mat 1 128)) :=
  (dat3 V c).arrAt_eq_of_cover 8 (updated3 V c) (fun t _ => written_back3_8 V c t) rows_covered3_8

/-- AFTER THE REGION the second output array is the class log-probabilities: along each row, the logarithm of the
    softmax of the updated node features times the class weights plus the class biases. -/
theorem region3_logp (c : Dev nD) : ((dat3 (F := Ideal) V c).arrAt 9 cfg3.N : Gcn.Mat 50000 40)
    = Gcn.arr2 (fun n => Gcn.lsm (Gcn.logits (Gcn.arr2 (Gcn.combine (V c main_v52_0 : Gcn.Mat 50000 128)
        (V c main_v33 : Gcn.Mat 128 128) (V c main_v62 : Gcn.Mat 50000 128) (V c main_v52_1 : Gcn.Mat 50000 128)
        (V c main_v11 : Gcn.Mat 50000 1) (V c main_v37 : Gcn.Mat 1 128)))
        (V c main_v35 : Gcn.Mat 128 40) (V c main_v39 : Gcn.Mat 1 40) n)) :=
  (dat3 V c).arrAt_eq_of_cover 9 (logprob3 V c) (fun t _ => written_back3_9 V c t) rows_covered3_9

end Cert.KernelIdeal.Hand

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.LibLineTernary.lean ====
/- Two more stages for a straight line of host operations in single-assignment form (companions of the stages
   for constants, one- and two-operand operations and reshapes): a THREE-operand operation (a select, a scatter), and a
   two-operand operation of an inlined function, whose values are carried to and from its buffers along equations
   between types that are reflexivity for a literal buffer. In both, what the written buffer holds after the WHOLE line
   is the operation's function of what its operands hold after the whole line. -/
import proofs.«147570_j43654047596706_2_alg».proof.Proof.LibLine

namespace Cert.LibLine

open Idealize.ShloMosaic Idealize.ShloMosaic.TcCoe Idealize.ShloMosaic.StableHlo

/-- The stage of a three-operand operation: after the whole line its buffer holds the operation's function of what
    the three operands hold after the whole line. -/
theorem stage_ternary {τ : Topo} {sig : RefSig} {Val : EltTy → Type} {ops : List (HloOp τ sig Val)} {outs : List (Ref sig .tc)}
    (h : WritesAre ops outs) (k : Nat) (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

/-- The stage of a two-operand operation of an inlined function: its values are carried to and from the buffers along
    equations between types that are reflexivity, so its stage reads like any other two-operand operation's. -/
theorem stage_tbinary {τ : Topo} {sig : RefSig} {Val : EltTy → Type} {ops : List (HloOp τ sig Val)} {outs : List (Ref sig .tc)}
    (h : WritesAre ops outs) (k : Nat) (a b y : Ref sig .tc) {ha2 ha3 hb2 hb3 hy2 hy3}
    (f : a.ty.Contents Val → b.ty.Contents Val → y.ty.Contents Val)
    (hk : ops[k]? = some (TRef.binary (⟨a, rfl, ha2, ha3⟩ : TRef sig a.ty) (⟨b, rfl, hb2, hb3⟩ : TRef sig b.ty)
      (⟨y, rfl, hy2, hy3⟩ : TRef sig y.ty) f))
    (hy' : y ∉ outs.drop (k + 1)) (ha' : a ∉ outs.drop k) (hb' : b ∉ outs.drop k) (V : Valuation τ sig Val) :
    after ops V (Proc.devRef .tc y) = f (after ops V (Proc.devRef .tc a)) (after ops V (Proc.devRef .tc b)) :=
  stage_binary h k a b y f hk hy' ha' hb' V

end Cert.LibLine
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.HostK.lean ====
/-
  The host stretches of the kernel program: what each buffer holds when each region is entered.

  The program's main function is three stretches of host operations among four regions.  The first stretch computes,
  from the arguments, the small arrays every region reads: the edge sources and targets, the inverse root degrees as a
  column, the two antisymmetrised and damped weight matrices, the transposed linear weights, the biases as rows.  The
  second and the third stretch aggregate a region's output along the edges.  Here: (1) a buffer written by the first
  stretch, or an argument, holds the same when any later region is entered; (2) the two aggregates as one function of
  the edge lists and the aggregated matrix; (3) the small arrays as terms of the arguments, read at an index.
-/
import proofs.«147570_j43654047596706_2_alg».proof.Proof.Gen.KernelIdeal.Frame
import proofs.«147570_j43654047596706_2_alg».proof.Proof.Spec
import proofs.«147570_j43654047596706_2_alg».proof.Proof.LibLine
import proofs.«147570_j43654047596706_2_alg».proof.Proof.LibLineTernary
import proofs.«147570_j43654047596706_2_alg».proof.Proof.LibTRef
import Idealize.ShloMosaic.Lib.StableHlo.Run
import Idealize.ShloMosaic.Lib.Pipeline.Value
import Idealize.ShloMosaic.Lib.ValueLayout
import Idealize.ShloMosaic.Lib.Tactic

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx
open Cert.LibLine

variable (m : (ℓ : Loc nD τ sig) → Buf (Elt Ideal) ℓ) (ρ : Dev nD → PrngReg)

/-! # What each host stretch writes

Each of the three host stretches is a straight line in single-assignment form: operation by operation it writes
exactly one buffer. A buffer that is not among those keeps its contents across the stretch. -/

/-- The buffers the first host stretch writes, in order. -/
theorem writes0 : WritesAre (hostOps0 (F := Ideal))
    [main_v0, main_v1, main_v2, main_v3, main_cst, main_v4, main_cst_0, main_v5, main_v6, main_v7, main_cst_1, main_v8,
      main_v9, main_v10, main_v11, main_v12, main_v13, main_v14, main_v15, main_c, main_v16, main_v17, main_v18,
      main_v19, main_cst_2, main_v20, main_v21, main_v22, main_v23, main_v24, main_v25, main_v26, main_c_3, main_v27,
      main_v28, main_v29, main_v30, main_cst_4, main_v31, main_v32, main_v33, main_v34, main_v35, main_v36, main_v37,
      main_v38, main_v39] := by
  repeat' first | exact List.Forall₂.nil | apply List.Forall₂.cons
  all_goals rfl

/-- The buffers the second host stretch writes, in order. -/
theorem writes1 : WritesAre (hostOps1 (F := Ideal))
    [main_c_5, main_v41, main_v42, main_c_6, main_v43, main_v44, main_v45, main_v46, main_v47, main_cst_7, main_v48,
      main_v49, main_v50] := by
  repeat' first | exact List.Forall₂.nil | apply List.Forall₂.cons
  all_goals rfl

/-- The buffers the third host stretch writes, in order. -/
theorem writes3 : WritesAre (hostOps3 (F := Ideal))
    [main_c_8, main_v53, main_v54, main_c_9, main_v55, main_v56, main_v57, main_v58, main_v59, main_cst_10, main_v60,
      main_v61, main_v62] := by
  repeat' first | exact List.Forall₂.nil | apply List.Forall₂.cons
  all_goals rfl

/-! # Persistence

A buffer written once by the first host stretch, or an argument, is never written again: the later host stretches
write other buffers, and a region leaves every buffer that is not one of its output arrays as it found it (an input
array ends as entered, any other buffer is untouched). So what such a buffer holds when a later region is entered
is what it holds after the first host stretch. -/

section Persistence

variable (c : Dev nD)

/-! ## The arguments: the first host stretch writes none of them -/

theorem V1_main_arg0 : V1 m ρ c main_arg0 = m ((c : Thread nD τ).loc main_arg0) :=
  after_of_writesAre writes0 _ (by decide)
theorem V1_main_arg1 : V1 m ρ c main_arg1 = m ((c : Thread nD τ).loc main_arg1) :=
  after_of_writesAre writes0 _ (by decide)
theorem V1_main_arg2 : V1 m ρ c main_arg2 = m ((c : Thread nD τ).loc main_arg2) :=
  after_of_writesAre writes0 _ (by decide)
theorem V1_main_arg3 : V1 m ρ c main_arg3 = m ((c : Thread nD τ).loc main_arg3) :=
  after_of_writesAre writes0 _ (by decide)
theorem V1_main_arg4 : V1 m ρ c main_arg4 = m ((c : Thread nD τ).loc main_arg4) :=
  after_of_writesAre writes0 _ (by decide)
theorem V1_main_arg5 : V1 m ρ c main_arg5 = m ((c : Thread nD τ).loc main_arg5) :=
  after_of_writesAre writes0 _ (by decide)
theorem V1_main_arg6 : V1 m ρ c main_arg6 = m ((c : Thread nD τ).loc main_arg6) :=
  after_of_writesAre writes0 _ (by decide)
theorem V1_main_arg7 : V1 m ρ c main_arg7 = m ((c : Thread nD τ).loc main_arg7) :=
  after_of_writesAre writes0 _ (by decide)
theorem V1_main_arg8 : V1 m ρ c main_arg8 = m ((c : Thread nD τ).loc main_arg8) :=
  after_of_writesAre writes0 _ (by decide)
theorem V1_main_arg9 : V1 m ρ c main_arg9 = m ((c : Thread nD τ).loc main_arg9) :=
  after_of_writesAre writes0 _ (by decide)
theorem V1_main_arg10 : V1 m ρ c main_arg10 = m ((c : Thread nD τ).loc main_arg10) :=
  after_of_writesAre writes0 _ (by decide)
theorem V1_main_arg11 : V1 m ρ c main_arg11 = m ((c : Thread nD τ).loc main_arg11) :=
  after_of_writesAre writes0 _ (by decide)

/-! ## Across the first region and the second host stretch -/

theorem keep3_main_v40 : V3 m ρ c main_v40 = V2 m ρ c main_v40 :=
  after_of_writesAre writes1 _ (by decide)

theorem keep3_main_arg0 : V3 m ρ c main_arg0 = V1 m ρ c main_arg0 :=
  (after_of_writesAre writes1 _ (by decide)).trans
    ((W2_arr m ρ c 0).trans (((dat0 (V1 m ρ) c).arrAt_in 0 rfl _).trans (A_eq0 (V1 m ρ) c 0)))
theorem keep3_main_v11 : V3 m ρ c main_v11 = V1 m ρ c main_v11 :=
  (after_of_writesAre writes1 _ (by decide)).trans
    ((W2_arr m ρ c 2).trans (((dat0 (V1 m ρ) c).arrAt_in 2 rfl _).trans (A_eq0 (V1 m ρ) c 2)))
theorem keep3_main_v22 : V3 m ρ c main_v22 = V1 m ρ c main_v22 :=
  (after_of_writesAre writes1 _ (by decide)).trans (W2_of_ne m ρ c main_v22 (by decide))
theorem keep3_main_v36 : V3 m ρ c main_v36 = V1 m ρ c main_v36 :=
  (after_of_writesAre writes1 _ (by decide)).trans (W2_of_ne m ρ c main_v36 (by decide))
theorem keep3_main_v1 : V3 m ρ c main_v1 = V1 m ρ c main_v1 :=
  (after_of_writesAre writes1 _ (by decide)).trans (W2_of_ne m ρ c main_v1 (by decide))
theorem keep3_main_v3 : V3 m ρ c main_v3 = V1 m ρ c main_v3 :=
  (after_of_writesAre writes1 _ (by decide)).trans (W2_of_ne m ρ c main_v3 (by decide))
theorem keep3_main_v34 : V3 m ρ c main_v34 = V1 m ρ c main_v34 :=
  (after_of_writesAre writes1 _ (by decide)).trans (W2_of_ne m ρ c main_v34 (by decide))
theorem keep3_main_v38 : V3 m ρ c main_v38 = V1 m ρ c main_v38 :=
  (after_of_writesAre writes1 _ (by decide)).trans (W2_of_ne m ρ c main_v38 (by decide))
theorem keep3_main_arg7 : V3 m ρ c main_arg7 = V1 m ρ c main_arg7 :=
  (after_of_writesAre writes1 _ (by decide)).trans (W2_of_ne m ρ c main_arg7 (by decide))
theorem keep3_main_v33 : V3 m ρ c main_v33 = V1 m ρ c main_v33 :=
  (after_of_writesAre writes1 _ (by decide)).trans (W2_of_ne m ρ c main_v33 (by decide))
theorem keep3_main_v37 : V3 m ρ c main_v37 = V1 m ρ c main_v37 :=
  (after_of_writesAre writes1 _ (by decide)).trans (W2_of_ne m ρ c main_v37 (by decide))
theorem keep3_main_v35 : V3 m ρ c main_v35 = V1 m ρ c main_v35 :=
  (after_of_writesAre writes1 _ (by decide)).trans (W2_of_ne m ρ c main_v35 (by decide))
theorem keep3_main_v39 : V3 m ρ c main_v39 = V1 m ρ c main_v39 :=
  (after_of_writesAre writes1 _ (by decide)).trans (W2_of_ne m ρ c main_v39 (by decide))

/-! ## Across the second region -/

theorem keep4_main_v11 : V4 m ρ c main_v11 = V1 m ρ c main_v11 :=
  ((W4_arr m ρ c 4).trans (((dat1 (V3 m ρ) c).arrAt_in 4 rfl _).trans (A_eq1 (V3 m ρ) c 4))).trans
    (keep3_main_v11 m ρ c)
theorem keep4_main_v34 : V4 m ρ c main_v34 = V1 m ρ c main_v34 :=
  (W4_of_ne m ρ c main_v34 (by decide)).trans (keep3_main_v34 m ρ c)
theorem keep4_main_v38 : V4 m ρ c main_v38 = V1 m ρ c main_v38 :=
  (W4_of_ne m ρ c main_v38 (by decide)).trans (keep3_main_v38 m ρ c)
theorem keep4_main_arg7 : V4 m ρ c main_arg7 = V1 m ρ c main_arg7 :=
  (W4_of_ne m ρ c main_arg7 (by decide)).trans (keep3_main_arg7 m ρ c)
theorem keep4_main_v1 : V4 m ρ c main_v1 = V1 m ρ c main_v1 :=
  (W4_of_ne m ρ c main_v1 (by decide)).trans (keep3_main_v1 m ρ c)
theorem keep4_main_v3 : V4 m ρ c main_v3 = V1 m ρ c main_v3 :=
  (W4_of_ne m ρ c main_v3 (by decide)).trans (keep3_main_v3 m ρ c)
theorem keep4_main_v33 : V4 m ρ c main_v33 = V1 m ρ c main_v33 :=
  (W4_of_ne m ρ c main_v33 (by decide)).trans (keep3_main_v33 m ρ c)
theorem keep4_main_v37 : V4 m ρ c main_v37 = V1 m ρ c main_v37 :=
  (W4_of_ne m ρ c main_v37 (by decide)).trans (keep3_main_v37 m ρ c)
theorem keep4_main_v35 : V4 m ρ c main_v35 = V1 m ρ c main_v35 :=
  (W4_of_ne m ρ c main_v35 (by decide)).trans (keep3_main_v35 m ρ c)
theorem keep4_main_v39 : V4 m ρ c main_v39 = V1 m ρ c main_v39 :=
  (W4_of_ne m ρ c main_v39 (by decide)).trans (keep3_main_v39 m ρ c)

/-! ## Across the third region and the third host stretch -/

theorem keep6_main_v52_0 : V6 m ρ c main_v52_0 = V5 m ρ c main_v52_0 :=
  after_of_writesAre writes3 _ (by decide)
theorem keep6_main_v52_1 : V6 m ρ c main_v52_1 = V5 m ρ c main_v52_1 :=
  after_of_writesAre writes3 _ (by decide)

theorem keep6_main_v11 : V6 m ρ c main_v11 = V1 m ρ c main_v11 :=
  (after_of_writesAre writes3 _ (by decide)).trans
    (((W5_arr m ρ c 4).trans (((dat2 (V4 m ρ) c).arrAt_in 4 rfl _).trans (A_eq2 (V4 m ρ) c 4))).trans
      (keep4_main_v11 m ρ c))
theorem keep6_main_v33 : V6 m ρ c main_v33 = V1 m ρ c main_v33 :=
  (after_of_writesAre writes3 _ (by decide)).trans
    ((W5_of_ne m ρ c main_v33 (by decide)).trans (keep4_main_v33 m ρ c))
theorem keep6_main_v37 : V6 m ρ c main_v37 = V1 m ρ c main_v37 :=
  (after_of_writesAre writes3 _ (by decide)).trans
    ((W5_of_ne m ρ c main_v37 (by decide)).trans (keep4_main_v37 m ρ c))
theorem keep6_main_v35 : V6 m ρ c main_v35 = V1 m ρ c main_v35 :=
  (after_of_writesAre writes3 _ (by decide)).trans
    ((W5_of_ne m ρ c main_v35 (by decide)).trans (keep4_main_v35 m ρ c))
theorem keep6_main_v39 : V6 m ρ c main_v39 = V1 m ρ c main_v39 :=
  (after_of_writesAre writes3 _ (by decide)).trans
    ((W5_of_ne m ρ c main_v39 (by decide)).trans (keep4_main_v39 m ρ c))
theorem keep6_main_v1 : V6 m ρ c main_v1 = V1 m ρ c main_v1 :=
  (after_of_writesAre writes3 _ (by decide)).trans
    ((W5_of_ne m ρ c main_v1 (by decide)).trans (keep4_main_v1 m ρ c))
theorem keep6_main_v3 : V6 m ρ c main_v3 = V1 m ρ c main_v3 :=
  (after_of_writesAre writes3 _ (by decide)).trans
    ((W5_of_ne m ρ c main_v3 (by decide)).trans (keep4_main_v3 m ρ c))

end Persistence

/-! # The two aggregates

The second and the third host stretch are the same line on other buffers: the source node of every edge, taken from
the end of the node axis when it is negative, is broadcast to a column of row indices; the rows of a node matrix are
gathered at those indices, one per edge; and the gathered rows are added, edge by edge, into the rows of a zero
matrix at the edge's target node. -/

/-- The aggregate of the node matrix `U` along the edges `src → dst`: row `n` is the sum, over the edges whose target
    is `n`, of the rows of `U` at their sources. -/
def aggK (src dst : (⟨S800000, .i32⟩ : BufTy).Contents (Elt Ideal)) (U : Gcn.Mat 50000 128) : Gcn.Mat 50000 128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 U
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

section Aggregates

variable (c : Dev nD)

/-- What the second host stretch leaves in its last buffer, of the contents it starts from. -/
theorem scat1_entry : V3 m ρ c main_v50 = aggK (V2 m ρ c main_v1) (V2 m ρ c main_v3) (V2 m ρ c main_v40) := by
  show StableHlo.after hostOps1 _ (Proc.devRef .tc main_v50) = _
  after_results_simp
  rfl

/-- The first aggregate: of the first region's output, along the edges. -/
theorem scat1_eq : V3 m ρ c main_v50 = aggK (V1 m ρ c main_v1) (V1 m ρ c main_v3) (V2 m ρ c main_v40) :=
  (scat1_entry m ρ c).trans
    (congrArg₂ (fun s d => aggK s d (V2 m ρ c main_v40)) (W2_of_ne m ρ c main_v1 (by decide))
      (W2_of_ne m ρ c main_v3 (by decide)))

/-- What the third host stretch leaves in its last buffer, of the contents it starts from. -/
theorem scat2_entry : V6 m ρ c main_v62 = aggK (V5 m ρ c main_v1) (V5 m ρ c main_v3) (V5 m ρ c main_v52_1) := by
  show StableHlo.after hostOps3 _ (Proc.devRef .tc main_v62) = _
  after_results_simp
  rfl

/-- The second aggregate: of the third region's second output, along the edges. -/
theorem scat2_eq : V6 m ρ c main_v62 = aggK (V1 m ρ c main_v1) (V1 m ρ c main_v3) (V5 m ρ c main_v52_1) :=
  (scat2_entry m ρ c).trans
    (congrArg₂ (fun s d => aggK s d (V5 m ρ c main_v52_1))
      ((W5_of_ne m ρ c main_v1 (by decide)).trans (keep4_main_v1 m ρ c))
      ((W5_of_ne m ρ c main_v3 (by decide)).trans (keep4_main_v3 m ρ c)))

end Aggregates

/-! # The small arrays of the first host stretch

Each is read off the first host stretch as a term of the arguments, and the matrices are then read at an index:
a transpose reads the operand at the swapped index, a vector reshaped to a row reads the operand at the column. -/

/-- The inverse root degrees from the edge targets: every node counts the edges that end at it, plus one for
    itself, and takes the inverse square root of the count. -/
def dinvK (dst : (⟨S800000, .i32⟩ : BufTy).Contents (Elt Ideal)) : S50000.Idx → EReal :=
  Host.rsqrt (F := Ideal)
    (addf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

section SmallArrays

variable (c : Dev nD)

/-- The edge sources: row 0 of the edge list. -/
theorem src_eq : V1 m ρ c main_v1
    = shapeCast S800000
        (extractStridedSlice S1x800000 ![0, 0]
          (m ((c : Thread nD τ).loc main_arg1) : (⟨S2x800000, .i32⟩ : BufTy).Contents (Elt Ideal))
          slices_S2x800000_S1x800000_0_0)
        shapeCasts_S1x800000_S800000 := by
  show StableHlo.after hostOps0 _ (Proc.devRef .tc main_v1) = _
  after_results_simp <;> rfl

/-- The edge targets: row 1 of the edge list. -/
theorem dst_eq : V1 m ρ c main_v3
    = shapeCast S800000
        (extractStridedSlice S1x800000 ![1, 0]
          (m ((c : Thread nD τ).loc main_arg1) : (⟨S2x800000, .i32⟩ : BufTy).Contents (Elt Ideal))
          slices_S2x800000_S1x800000_1_0)
        shapeCasts_S1x800000_S800000 := by
  show StableHlo.after hostOps0 _ (Proc.devRef .tc main_v3) = _
  after_results_simp <;> rfl

/-- The inverse root degrees as a column. -/
theorem dcol_eq : V1 m ρ c main_v11
    = shapeCast S50000x1 (dinvK (V1 m ρ c main_v3)) shapeCasts_S50000_S50000x1 := by
  rw [dst_eq]
  show StableHlo.after hostOps0 _ (Proc.devRef .tc main_v11) = _
  after_results_simp <;> rfl

/-- The column of inverse root degrees read at a node: the vector's entry. -/
theorem dcol_apply (n : Fin 50000) :
    (V1 m ρ c main_v11 : Gcn.Mat 50000 1) (ix2 n 0) = dinvK (V1 m ρ c main_v3) (ix1 n) := by
  rw [dcol_eq]
  exact shapeCast_apply _ _ _ _ (by
    rw [Shape.rowMajor_val_two, Shape.rowMajor_val_one]
    show n.val = n.val * 1 + 0
    omega)

/-- The damping matrix of the first convolution: a tenth on the diagonal. -/
theorem damp1_eq : V1 m ρ c main_v21
    = mulf (broadcastInDim S128x128 ![] bcast_S_S128x128 (constant (F := Ideal) S_ .f32 0x3DCCCCCD#32))
        (uitofp .f32
          (cmpi .eq
            (addi (iotaInDim S128x128 32 0) (broadcastInDim S128x128 ![] bcast_S_S128x128 (constantI S_ 32 0#32)))
            (iotaInDim S128x128 32 1))) := by
  show StableHlo.after hostOps0 _ (Proc.devRef .tc main_v21) = _
  after_results_simp <;> rfl

/-- The damping matrix of the second convolution: the same term. -/
theorem damp2_eq : V1 m ρ c main_v32
    = mulf (broadcastInDim S128x128 ![] bcast_S_S128x128 (constant (F := Ideal) S_ .f32 0x3DCCCCCD#32))
        (uitofp .f32
          (cmpi .eq
            (addi (iotaInDim S128x128 32 0) (broadcastInDim S128x128 ![] bcast_S_S128x128 (constantI S_ 32 0#32)))
            (iotaInDim S128x128 32 1))) := by
  show StableHlo.after hostOps0 _ (Proc.devRef .tc main_v32) = _
  after_results_simp <;> rfl

/-- The first convolution's weights as the kernel takes them: the transpose minus the matrix, minus the damping. -/
theorem MT1_eq : V1 m ρ c main_v22
    = (subf
        (subf
          (transpose S128x128 [1, 0]
            (m ((c : Thread nD τ).loc main_arg2) : (⟨S128x128, .f32⟩ : BufTy).Contents (Elt Ideal))
            transposes_S128x128_S128x128_1_0)
          (m ((c : Thread nD τ).loc main_arg2) : (⟨S128x128, .f32⟩ : BufTy).Contents (Elt Ideal)))
        (V1 m ρ c main_v21) : FVec Ideal S128x128 .f32) := by
  rw [damp1_eq]
  show StableHlo.after hostOps0 _ (Proc.devRef .tc main_v22) = _
  after_results_simp <;> rfl

/-- Entry `(a, b)` of the first convolution's weights as the kernel takes them, `W` the weight argument. -/
theorem MT1_apply (W : Gcn.Mat 128 128) (hW : W = m ((c : Thread nD τ).loc main_arg2)) (a b : Fin 128) :
    (V1 m ρ c main_v22 : Gcn.Mat 128 128) (ix2 a b)
      = (W (ix2 b a) - W (ix2 a b)) - (V1 m ρ c main_v21 : Gcn.Mat 128 128) (ix2 a b) := by
  subst hW
  rw [MT1_eq, subf_apply, subf_apply, transpose_ix2_apply]

/-- The second convolution's weights as the kernel takes them. -/
theorem MT2_eq : V1 m ρ c main_v33
    = (subf
        (subf
          (transpose S128x128 [1, 0]
            (m ((c : Thread nD τ).loc main_arg5) : (⟨S128x128, .f32⟩ : BufTy).Contents (Elt Ideal))
            transposes_S128x128_S128x128_1_0)
          (m ((c : Thread nD τ).loc main_arg5) : (⟨S128x128, .f32⟩ : BufTy).Contents (Elt Ideal)))
        (V1 m ρ c main_v32) : FVec Ideal S128x128 .f32) := by
  rw [damp2_eq]
  show StableHlo.after hostOps0 _ (Proc.devRef .tc main_v33) = _
  after_results_simp <;> rfl

/-- Entry `(a, b)` of the second convolution's weights as the kernel takes them, `W` the weight argument. -/
theorem MT2_apply (W : Gcn.Mat 128 128) (hW : W = m ((c : Thread nD τ).loc main_arg5)) (a b : Fin 128) :
    (V1 m ρ c main_v33 : Gcn.Mat 128 128) (ix2 a b)
      = (W (ix2 b a) - W (ix2 a b)) - (V1 m ρ c main_v32 : Gcn.Mat 128 128) (ix2 a b) := by
  subst hW
  rw [MT2_eq, subf_apply, subf_apply, transpose_ix2_apply]

/-- The first linear layer's weights, transposed. -/
theorem lw1T_eq : V1 m ρ c main_v34
    = transpose S128x128 [1, 0]
        (m ((c : Thread nD τ).loc main_arg8) : (⟨S128x128, .f32⟩ : BufTy).Contents (Elt Ideal))
        transposes_S128x128_S128x128_1_0 := by
  show StableHlo.after hostOps0 _ (Proc.devRef .tc main_v34) = _
  after_results_simp <;> rfl

theorem lw1T_apply (a b : Fin 128) :
    (V1 m ρ c main_v34 : Gcn.Mat 128 128) (ix2 a b)
      = (m ((c : Thread nD τ).loc main_arg8) : Gcn.Mat 128 128) (ix2 b a) := by
  rw [lw1T_eq, transpose_ix2_apply]

/-- The second linear layer's weights, transposed. -/
theorem lw2T_eq : V1 m ρ c main_v35
    = transpose S128x40 [1, 0]
        (m ((c : Thread nD τ).loc main_arg10) : (⟨S40x128, .f32⟩ : BufTy).Contents (Elt Ideal))
        transposes_S40x128_S128x40_1_0 := by
  show StableHlo.after hostOps0 _ (Proc.devRef .tc main_v35) = _
  after_results_simp <;> rfl

theorem lw2T_apply (a : Fin 128) (b : Fin 40) :
    (V1 m ρ c main_v35 : Gcn.Mat 128 40) (ix2 a b)
      = (m ((c : Thread nD τ).loc main_arg10) : Gcn.Mat 40 128) (ix2 b a) := by
  rw [lw2T_eq, transpose_ix2_apply]

/-- The four biases as rows. -/
theorem brow1_eq : V1 m ρ c main_v36
    = shapeCast S1x128 (m ((c : Thread nD τ).loc main_arg3) : (⟨S128, .f32⟩ : BufTy).Contents (Elt Ideal))
        shapeCasts_S128_S1x128 := by
  show StableHlo.after hostOps0 _ (Proc.devRef .tc main_v36) = _
  after_results_simp <;> rfl
theorem brow2_eq : V1 m ρ c main_v37
    = shapeCast S1x128 (m ((c : Thread nD τ).loc main_arg6) : (⟨S128, .f32⟩ : BufTy).Contents (Elt Ideal))
        shapeCasts_S128_S1x128 := by
  show StableHlo.after hostOps0 _ (Proc.devRef .tc main_v37) = _
  after_results_simp <;> rfl
theorem brow3_eq : V1 m ρ c main_v38
    = shapeCast S1x128 (m ((c : Thread nD τ).loc main_arg9) : (⟨S128, .f32⟩ : BufTy).Contents (Elt Ideal))
        shapeCasts_S128_S1x128 := by
  show StableHlo.after hostOps0 _ (Proc.devRef .tc main_v38) = _
  after_results_simp <;> rfl
theorem brow4_eq : V1 m ρ c main_v39
    = shapeCast S1x40 (m ((c : Thread nD τ).loc main_arg11) : (⟨S40, .f32⟩ : BufTy).Contents (Elt Ideal))
        shapeCasts_S40_S1x40 := by
  show StableHlo.after hostOps0 _ (Proc.devRef .tc main_v39) = _
  after_results_simp <;> rfl

theorem brow1_apply (f : Fin 128) :
    (V1 m ρ c main_v36 : Gcn.Mat 1 128) (ix2 0 f) = (m ((c : Thread nD τ).loc main_arg3) : Gcn.Vc 128) (ix1 f) := by
  rw [brow1_eq, shapeCast_a_1a_apply]
theorem brow2_apply (f : Fin 128) :
    (V1 m ρ c main_v37 : Gcn.Mat 1 128) (ix2 0 f) = (m ((c : Thread nD τ).loc main_arg6) : Gcn.Vc 128) (ix1 f) := by
  rw [brow2_eq, shapeCast_a_1a_apply]
theorem brow3_apply (f : Fin 128) :
    (V1 m ρ c main_v38 : Gcn.Mat 1 128) (ix2 0 f) = (m ((c : Thread nD τ).loc main_arg9) : Gcn.Vc 128) (ix1 f) := by
  rw [brow3_eq, shapeCast_a_1a_apply]
theorem brow4_apply (f : Fin 40) :
    (V1 m ρ c main_v39 : Gcn.Mat 1 40) (ix2 0 f) = (m ((c : Thread nD τ).loc main_arg11) : Gcn.Vc 40) (ix1 f) := by
  rw [brow4_eq, shapeCast_a_1a_apply]

end SmallArrays

end Cert.KernelIdeal.Hand
-- ==== Proof.KChain.lean ====
/-
  The idealized kernel program's six intermediate and final arrays, as the specification's functions of the argument
  arrays and of the small arrays the first host stretch computes.

  Each region's output array is its stage function of the region's input arrays as it finds them; a host stretch
  between two regions aggregates along the edges; every other buffer a later region reads still holds what the first
  host stretch (or the launch) left in it.  Chaining these through the program's seven segments gives: the first
  convolution's scaled projection, its rectified output, the linear layer's output and the second scaled projection,
  the second convolution's rectified output (the second result) and the log-softmax of the last linear layer (the
  first result).
-/
import proofs.«147570_j43654047596706_2_alg».proof.Proof.Region0
import proofs.«147570_j43654047596706_2_alg».proof.Proof.Region1
import proofs.«147570_j43654047596706_2_alg».proof.Proof.Region2
import proofs.«147570_j43654047596706_2_alg».proof.Proof.Region3
import proofs.«147570_j43654047596706_2_alg».proof.Proof.HostK

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Names for the arrays the stages read -/

/-- The node features. -/
abbrev xA : Gcn.Mat 50000 128 := m ((c : Thread nD τ).loc main_arg0)
/-- The two projection weights. -/
abbrev T1A : Gcn.Mat 128 128 := m ((c : Thread nD τ).loc main_arg4)
abbrev T2A : Gcn.Mat 128 128 := m ((c : Thread nD τ).loc main_arg7)
/-- The edges' sources and targets, as the first host stretch leaves them. -/
abbrev srcA : (⟨S800000, .i32⟩ : BufTy).Contents (Elt Ideal) := V1 m ρ c main_v1
abbrev dstA : (⟨S800000, .i32⟩ : BufTy).Contents (Elt Ideal) := V1 m ρ c main_v3
/-- The inverse root degrees, as a column. -/
abbrev dcolA : Gcn.Mat 50000 1 := V1 m ρ c main_v11
/-- The two antisymmetrised, damped weights; the two transposed linear weights; the four bias rows. -/
abbrev MT1A : Gcn.Mat 128 128 := V1 m ρ c main_v22
abbrev MT2A : Gcn.Mat 128 128 := V1 m ρ c main_v33
abbrev lw1TA : Gcn.Mat 128 128 := V1 m ρ c main_v34
abbrev lw2TA : Gcn.Mat 128 40 := V1 m ρ c main_v35
abbrev b1rA : Gcn.Mat 1 128 := V1 m ρ c main_v36
abbrev b2rA : Gcn.Mat 1 128 := V1 m ρ c main_v37
abbrev lb1rA : Gcn.Mat 1 128 := V1 m ρ c main_v38
abbrev lb2rA : Gcn.Mat 1 40 := V1 m ρ c main_v39

/-! ## The stages, composed -/

/-- The first scaled projection. -/
def xws1K : Gcn.Mat 50000 128 := Gcn.arr2 (Gcn.proj (xA m c) (T1A m c) (dcolA m ρ c))
/-- The first convolution's rectified output. -/
def out1K : Gcn.Mat 50000 128 :=
  Gcn.arr2 (Gcn.combine (xA m c) (MT1A m ρ c) (aggK (srcA m ρ c) (dstA m ρ c) (xws1K m ρ c)) (xws1K m ρ c) (dcolA m ρ c) (b1rA m ρ c))
/-- The linear layer's rectified output. -/
def lin1K : Gcn.Mat 50000 128 := Gcn.arr2 (Gcn.lin (out1K m ρ c) (lw1TA m ρ c) (lb1rA m ρ c))
/-- The second scaled projection. -/
def xws2K : Gcn.Mat 50000 128 := Gcn.arr2 (Gcn.proj (lin1K m ρ c) (T2A m c) (dcolA m ρ c))
/-- The second convolution's rectified output: the second result. -/
def x1K : Gcn.Mat 50000 128 :=
  Gcn.arr2 (Gcn.combine (lin1K m ρ c) (MT2A m ρ c) (aggK (srcA m ρ c) (dstA m ρ c) (xws2K m ρ c)) (xws2K m ρ c) (dcolA m ρ c) (b2rA m ρ c))
/-- The log-softmax of the last linear layer: the first result. -/
def logpK : Gcn.Mat 50000 40 := Gcn.arr2 fun n => Gcn.lsm (Gcn.logits (x1K m ρ c) (lw2TA m ρ c) (lb2rA m ρ c) n)

/-! ## What the program's buffers hold -/

/-- After the first region its output holds the first scaled projection. -/
theorem k_xws1 : V2 m ρ c main_v40 = xws1K m ρ c :=
  (W2_arr m ρ c 3).trans ((region0_out (V1 m ρ) c).trans (by
    rw [V1_main_arg0, V1_main_arg4]; rfl))

/-- After the second region its output holds the first convolution's rectified output. -/
theorem k_out1 : V4 m ρ c main_v51 = out1K m ρ c :=
  (W4_arr m ρ c 6).trans ((region1_out (V3 m ρ) c).trans (by
    rw [scat1_eq, keep3_main_v40, k_xws1, keep3_main_arg0, V1_main_arg0, keep3_main_v22, keep3_main_v11, keep3_main_v36]
    rfl))

/-- After the third region its first output holds the linear layer's output … -/
theorem k_lin1 : V5 m ρ c main_v52_0 = lin1K m ρ c :=
  (W5_arr m ρ c 5).trans ((region2_lin (V4 m ρ) c).trans (by
    rw [k_out1, keep4_main_v34, keep4_main_v38]; rfl))

/-- … and its second output the second scaled projection. -/
theorem k_xws2 : V5 m ρ c main_v52_1 = xws2K m ρ c :=
  (W5_arr m ρ c 6).trans ((region2_proj (V4 m ρ) c).trans (by
    rw [k_out1, keep4_main_v34, keep4_main_v38, keep4_main_arg7, V1_main_arg7, keep4_main_v11]; rfl))

/-- At the end the second result holds the second convolution's rectified output … -/
theorem k_x1 : W7 m ρ c (Proc.devRef .tc main_v63_0) = x1K m ρ c :=
  (W7_arr m ρ c 8).trans ((region3_x1 (V6 m ρ) c).trans (by
    rw [scat2_eq, keep6_main_v52_0, keep6_main_v52_1, k_lin1, k_xws2, keep6_main_v33, keep6_main_v11, keep6_main_v37]
    rfl))

/-- … and the first result the log-softmax of the last linear layer. -/
theorem k_logp : W7 m ρ c (Proc.devRef .tc main_v63_1) = logpK m ρ c :=
  (W7_arr m ρ c 9).trans ((region3_logp (V6 m ρ) c).trans (by
    rw [scat2_eq, keep6_main_v52_0, keep6_main_v52_1, k_lin1, k_xws2, keep6_main_v33, keep6_main_v11, keep6_main_v37,
      keep6_main_v35, keep6_main_v39]
    rfl))

end Cert.KernelIdeal.Hand

end
-- ==== Proof.LibRowsAt.lean ====
/-
  Rows of a matrix taken at a column of start indices, and rows added into a matrix at a column of target indices,
  read at an index, for any extents.

  `x[idx]` of a matrix `x : [N, K]` (or of a vector `x : [N]`) at a column of integers `idx : [E, 1]` takes, for each
  `e`, the row of `x` whose number is `idx[e, 0]` read as a signed integer and clamped into `[0, N − 1]`: result entry
  `(e, k)` is entry `(that row, k)` of `x`.  Adding the rows of `u : [E, K]` into `x : [N, K]` at a column of targets
  `idx : [E, 1]` sends entry `(e, k)` of `u` to entry `(idx[e, 0], k)` when the target, read signed and NOT clamped, is a
  row number of `x`, and drops it otherwise.
-/
import Idealize.ShloMosaic.PureOps.ShapeOps
import Idealize.ShloMosaic.Lib.ValueIdx

namespace RowsAt

open Idealize.ShloMosaic Idealize.ShloMosaic.ValueIdx

/-- Taking rows of `[N, K]` at `[E, 1]` start indices: the dimension numbers. -/
abbrev rowGather (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Taking entries of `[N]` at `[E, 1]` start indices: the dimension numbers. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Adding rows of `[E, K]` into `[N, K]` at `[E, 1]` targets: the dimension numbers. -/
abbrev rowScatter (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The start index of row `e`: entry `(e, 0)` of the column. -/
abbrev col {E : Nat} (e : Fin E) : (⟨2, ![E, 1]⟩ : Shape).Idx := ix2 e (0 : Fin 1)

/-- A signed start index clamped into `[0, N − 1]`. -/
def clamp (N : Nat) {w : Nat} (b : BitVec w) : Nat := min b.toInt.toNat (N - 1)

theorem clamp_lt {N : Nat} (hN : 0 < N) {w : Nat} (b : BitVec w) : clamp N b < N := by
  unfold clamp; omega

/-- ROWS TAKEN, AT `(e, k)`: the operand at `(clamped start of e, k)`. -/
theorem rowGather_apply {α : Type} {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGather N E K wf) x idx (ix2 e k) = x (ix2 ⟨clamp N (idx (col e)), clamp_lt hN _⟩ k) := by
  unfold Host.gather
  congr 1
  funext a
  refine Fin.ext ?_
  have hsi : (rowGather N E K wf).siIdx (ix2 e k) ⟨List.idxOf (0 : Fin 2) (rowGather N E K wf).startIndexMap,
      List.idxOf_lt_length_iff.2 (List.mem_singleton.mpr rfl)⟩ = col e := by
    funext b; refine Fin.ext ?_
    match b with
    | ⟨0, _⟩ => rfl
    | ⟨1, _⟩ => rfl
  match a with
  | ⟨0, _⟩ =>
    show (rowGather N E K wf).start (ix2 e k) idx 0 + (rowGather N E K wf).batchCoord (ix2 e k) 0
      + (rowGather N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E K wf).startIndexMap from List.mem_singleton.mpr rfl), hsi]
    rfl
  | ⟨1, _⟩ =>
    show (rowGather N E K wf).start (ix2 e k) idx 1 + (rowGather N E K wf).batchCoord (ix2 e k) 1
      + (rowGather N E K wf).offCoord (ix2 e k) 1 = _
    rw [GatherDims.batchCoord_eq_zero _ _ _ List.not_mem_nil]
    unfold GatherDims.start
    rw [dif_neg (show ¬ (1 : Fin 2) ∈ ([0] : List (Fin 2)) from by decide)]
    simp only [Nat.add_zero, Nat.zero_add]
    rfl

/-- ENTRIES TAKEN, AT `e`: the operand at the clamped start of `e`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 ⟨clamp N (idx (col e)), clamp_lt hN _⟩) := by
  unfold Host.gather
  congr 1
  funext a
  obtain rfl : a = 0 := Subsingleton.elim _ _
  refine Fin.ext ?_
  have hsi : (vecGather N E wf).siIdx (ix1 e) ⟨List.idxOf (0 : Fin 1) (vecGather N E wf).startIndexMap,
      List.idxOf_lt_length_iff.2 (List.mem_singleton.mpr rfl)⟩ = col e := by
    funext b; refine Fin.ext ?_
    match b with
    | ⟨0, _⟩ => rfl
    | ⟨1, _⟩ => rfl
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl), hsi]
  rfl

/-- WHERE AN ADDED ENTRY LANDS: if entry `(e, k)` of the updates lands at `i`, the target of `e`, read signed, is the row
    number of `i` and `k` is its column. -/
theorem rowScatter_result {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) (n : Fin N) (f : Fin K)
    (h : (rowScatter N E K wf).resultIdx? (ix2 e k) idx = some (ix2 n f)) :
    (idx (col e)).toInt = (n.val : Int) ∧ k = f := by
  have hsi : (rowScatter N E K wf).siIdx (ix2 e k) ⟨List.idxOf (0 : Fin 2) (rowScatter N E K wf).scatterDimsToOperandDims,
      List.idxOf_lt_length_iff.2 (List.mem_singleton.mpr rfl)⟩ = col e := by
    funext b; refine Fin.ext ?_
    match b with
    | ⟨0, _⟩ => rfl
    | ⟨1, _⟩ => rfl
  have s0 : (rowScatter N E K wf).start (ix2 e k) idx 0 = (idx (col e)).toInt := by
    unfold ScatterDims.start
    rw [dif_pos (show (0 : Fin 2) ∈ (rowScatter N E K wf).scatterDimsToOperandDims from List.mem_singleton.mpr rfl), hsi]
  have s1 : (rowScatter N E K wf).start (ix2 e k) idx 1 = 0 := by
    unfold ScatterDims.start
    rw [dif_neg (show ¬ (1 : Fin 2) ∈ ([0] : List (Fin 2)) from by decide)]
  have hk : (rowScatter N E K wf).sKept = ([1] : List (Fin 2)) := rfl
  have w0 : (rowScatter N E K wf).window (ix2 e k) 0 = 0 := by
    unfold ScatterDims.window
    rw [dif_neg (show ¬ (0 : Fin 2) ∈ (rowScatter N E K wf).sKept from by rw [hk]; intro h; exact absurd (congrArg Fin.val (List.mem_singleton.mp h)) (by decide))]
  have w1 : (rowScatter N E K wf).window (ix2 e k) 1 = k.val := by
    unfold ScatterDims.window
    rw [dif_pos (show (1 : Fin 2) ∈ (rowScatter N E K wf).sKept from by rw [hk]; exact List.mem_singleton.mpr rfl)]
    rfl
  unfold ScatterDims.resultIdx? at h
  split at h
  · have hi := Option.some.inj h
    have h0 := congrArg (fun g : (⟨2, ![N, K]⟩ : Shape).Idx => (g 0).val) hi
    have h1 := congrArg (fun g : (⟨2, ![N, K]⟩ : Shape).Idx => (g 1).val) hi
    rename_i hc
    have c0 := hc 0
    simp only [s0, w0, s1, w1] at h0 h1 c0
    refine ⟨?_, Fin.ext ?_⟩
    · have : ((idx (col e)).toInt + ((0 : Nat) : Int)).toNat = n.val := h0
      omega
    · have : ((0 : Int) + ((k.val : Nat) : Int)).toNat = f.val := h1
      omega
  · exact absurd h (by simp)

end RowsAt
-- ==== Proof.Degree.lean ====
/-
  The inverse root of a degree is a nonnegative real number.

  A node's degree is zero plus a sum of ones over the edges that end at it, plus one for its self loop: a real number,
  at least one.  The ideal inverse square root of a positive real `r` is the real `1 / √r`, which is nonnegative and
  is not `+∞`.
-/
import Idealize.ShloMosaic.PureOps.Ideal
import Idealize.ShloMosaic.PureOps.Contract
import Mathlib.Data.EReal.Operations

open scoped BigOperators

namespace Gcn

open Idealize.ShloMosaic

/-- An accumulating scatter, at the ideal values, read at an index: the operand's entry plus the sum of the update
    entries that land there. -/
theorem scatterAdd_apply {s si u : Shape} {w : Nat} (d : ScatterDims s si u) (Z : s.Idx → EReal) (idx : IVec si w)
    (upd : u.Idx → EReal) (i : s.Idx) :
    Host.scatterAdd (F := Ideal) (φ := .f32) d Z idx upd i
      = Z i + ∑ j ∈ Finset.univ.filter (fun j => d.resultIdx? j idx = some i), upd j := rfl

/-- A finite sum of ones is a nonnegative real. -/
theorem sum_ones_real {ι : Type*} (S : Finset ι) (u : ι → EReal) (hu : ∀ j, u j = 1) :
    ∃ r : ℝ, 0 ≤ r ∧ ∑ j ∈ S, u j = (r : EReal) := by
  classical
  induction S using Finset.induction_on with
  | empty => exact ⟨0, le_refl _, by simp⟩
  | insert a S ha ih =>
    obtain ⟨r, hr, hs⟩ := ih
    refine ⟨1 + r, by positivity, ?_⟩
    rw [Finset.sum_insert ha, hs, hu a, EReal.coe_add, EReal.coe_one]

/-- The ideal inverse square root of a positive real is nonnegative and is not `+∞`. -/
theorem rsqrt_pos_real (r : ℝ) (hr : 0 < r) : 0 ≤ Ideal.rsqrt (r : EReal) ∧ Ideal.rsqrt (r : EReal) ≠ ⊤ := by
  have e : Ideal.rsqrt (r : EReal) = (((Real.sqrt r)⁻¹ : ℝ) : EReal) := by
    show (if r < 0 then (⊥ : EReal) else if r = 0 then ⊤ else (((Real.sqrt r)⁻¹ : ℝ) : EReal)) = _
    rw [if_neg (not_lt.mpr hr.le), if_neg hr.ne']
  rw [e]
  exact ⟨by exact_mod_cast inv_nonneg.mpr (Real.sqrt_nonneg r), EReal.coe_ne_top _⟩

/-- The inverse root of `(z + ∑ ones) + one` with `z = 0` and `one = 1`: nonnegative and not `+∞`. -/
theorem inv_root_degree {ι : Type*} (S : Finset ι) (u : ι → EReal) (hu : ∀ j, u j = 1) (z one : EReal) (hz : z = 0)
    (h1 : one = 1) :
    0 ≤ Ideal.rsqrt ((z + ∑ j ∈ S, u j) + one) ∧ Ideal.rsqrt ((z + ∑ j ∈ S, u j) + one) ≠ ⊤ := by
  obtain ⟨r, hr, hs⟩ := sum_ones_real S u hu
  have e : (z + ∑ j ∈ S, u j) + one = ((r + 1 : ℝ) : EReal) := by
    rw [hz, h1, hs, zero_add, EReal.coe_add, EReal.coe_one]
  rw [e]
  exact rsqrt_pos_real (r + 1) (by positivity)

end Gcn
-- ==== Proof.IdxWrap.lean ====
/-
  An index that is not negative is left alone by the wrap of negative indices: `if x < 0 then x + n else x` is `x`.
-/
import Idealize.ShloMosaic.PureOps.Float

namespace Gcn

open Idealize.ShloMosaic

/-- The signed "less than zero" bit of a word that is not negative is the zero bit. -/
theorem slt_zero_of_nonneg (x : BitVec 32) (h : 0 ≤ x.toInt) : IntOp.cmpi .slt x 0#32 = 0#1 := by
  unfold IntOp.cmpi
  have : x.slt 0#32 = false := by
    rw [BitVec.slt_eq_decide]
    simp only [BitVec.toInt_zero, decide_eq_false_iff_not, not_lt]
    exact h
  simp only [this]
  rfl

/-- So the wrap selects the word itself. -/
theorem wrap_of_nonneg (x y : BitVec 32) (h : 0 ≤ x.toInt) :
    Scalar.select (IntOp.cmpi .slt x 0#32) y x = x := by
  rw [slt_zero_of_nonneg x h]
  exact if_neg (by decide)

end Gcn
-- ==== Proof.RefDegree.lean ====
/-
  The reference's inverse root degrees are nonnegative reals, and the target it looks an edge's degree up at is the
  edge's own target whenever that target is not negative.
-/
import proofs.«147570_j43654047596706_2_alg».proof.Proof.RefReadP
import proofs.«147570_j43654047596706_2_alg».proof.Proof.Spec
import proofs.«147570_j43654047596706_2_alg».proof.Proof.LibRowsAt
import proofs.«147570_j43654047596706_2_alg».proof.Proof.Degree
import proofs.«147570_j43654047596706_2_alg».proof.Proof.IdxWrap
import Idealize.ShloMosaic.Lib.IdealHost
import Idealize.ShloMosaic.PureOps.Ideal.Laws

noncomputable section

open scoped BigOperators

namespace Cert.ReferenceIdeal.Hand

open Cert.ReferenceIdeal Cert.ReferenceIdeal.Gen Cert.ReferenceIdeal.Read
open Idealize.ShloMosaic Idealize.ShloMosaic.ValueIdx RowsAt

variable (x1 : (⟨S2x800000, .i32⟩ : BufTy).Contents (Elt Ideal))

/-! ## The inverse root degrees -/

/-- Every inverse root degree is nonnegative and is not `+∞`: the degree is zero plus a sum of ones plus one. -/
theorem dinv_ok (n : Fin 50000) :
    0 ≤ val_main_v22 (F := Ideal) x1 (ix1 n) ∧ val_main_v22 (F := Ideal) x1 (ix1 n) ≠ ⊤ := by
  have hones : ∀ j, val_main_v16 (F := Ideal) j = 1 := fun j => by
    rw [val_main_v16_apply, val_main_cst_0_apply]; exact Ideal.ofBits_one_f32
  have hz : val_main_v17 (F := Ideal) (ix1 n) = 0 := by
    rw [val_main_v17_apply, val_main_cst_1_apply]; exact Ideal.ofBits_zero_f32
  have h1 : val_main_v20 (F := Ideal) (ix1 n) = 1 := by
    rw [val_main_v20_apply, val_main_cst_2_apply]; exact Ideal.ofBits_one_f32
  rw [val_main_v22_apply, val_main_v21_apply, Ideal.hostUnary_rsqrt_def]
  unfold val_main_v19
  rw [Gcn.scatterAdd_apply]
  exact Gcn.inv_root_degree _ _ hones _ _ hz h1

/-! ## The start indices -/

/-- Where an edge's raw target is not negative, the normalised target is the raw one. -/
theorem dstn_of_nonneg (e : Fin 800000) (h : 0 ≤ (val_main_v49 (F := Ideal) x1 (col e)).toInt) :
    val_main_v35 (F := Ideal) x1 (col e) = val_main_v49 (F := Ideal) x1 (col e) := by
  rw [val_main_v49_apply] at h
  rw [val_main_v35_apply, val_main_v49_apply, val_main_v34_apply, val_main_v31_apply, val_main_v30_apply,
    val_main_c_5_apply]
  exact Gcn.wrap_of_nonneg _ _ h

end Cert.ReferenceIdeal.Hand

end
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.RefStages.lean ====
/-
  The reference program read one operation at a time, on coordinates.

  Each value of the reference is read at an index written by its coordinates and identified with the
  corresponding function of the shared specification: the two projections are matrix products, the two
  weight matrices are `(W − Wᵀ) − damping`, each convolution followed by the rectifier is `refConv` of its
  operands, the linear layer is `refLin`, and the last value is the logarithm of the softmax of `refLogits`
  along each row.  The values whose element depends on the edge list (the gathered and scattered arrays)
  stay as they are named.
-/
import proofs.«147570_j43654047596706_2_alg».proof.Proof.RefReadP
import proofs.«147570_j43654047596706_2_alg».proof.Proof.Spec
import proofs.«147570_j43654047596706_2_alg».proof.Proof.LibHostLayout
import proofs.«147570_j43654047596706_2_alg».proof.Proof.LibDotRows
import Idealize.ShloMosaic.Lib.ValueLayout
import Idealize.ShloMosaic.PureOps.Ideal.Laws
import Idealize.ShloMosaic.Lib.IdealHost

noncomputable section

open scoped BigOperators

namespace Cert.ReferenceIdeal.Hand

open Cert.ReferenceIdeal Cert.ReferenceIdeal.Gen Cert.ReferenceIdeal.Read Idealize.ShloMosaic Idealize.ShloMosaic.ValueIdx

/-! ## The two projections -/

/-- The first projection is the matrix product of the node features with the first projection weight. -/
theorem ref_xw1 (x0 : (⟨S50000x128, .f32⟩ : BufTy).Contents (Elt Ideal)) (x4 : (⟨S128x128, .f32⟩ : BufTy).Contents (Elt Ideal)) (n : Fin 50000) (f : Fin 128) :
    val_main_v15 (F := Ideal) x0 x4 (ix2 n f) = Gcn.rowdot x0 x4 n f := by
  have e1 : ∀ k : Fin 128, lidx_main_v15 (ix2 n f) k = ix2 n k := fun k =>
    funext fun a => Fin.ext (by match a with | ⟨0, _⟩ => rfl | ⟨1, _⟩ => rfl)
  have e2 : ∀ k : Fin 128, ridx_main_v15 (ix2 n f) k = ix2 k f := fun k =>
    funext fun a => Fin.ext (by match a with | ⟨0, _⟩ => rfl | ⟨1, _⟩ => rfl)
  rw [val_main_v15_apply]
  simp only [e1, e2]
  rfl

/-! ## The antisymmetric weight matrices -/

/-- The first weight matrix: `(W − Wᵀ)` minus the damping on the diagonal. -/
theorem ref_M1 (x2 : (⟨S128x128, .f32⟩ : BufTy).Contents (Elt Ideal)) (a b : Fin 128) :
    val_main_v14 (F := Ideal) x2 (ix2 a b)
      = (x2 (ix2 a b) - x2 (ix2 b a)) - val_main_v13 (F := Ideal) (ix2 a b) := by
  have e : idx_main_v4 (ix2 a b) = ix2 b a :=
    funext fun c => Fin.ext (by match c with | ⟨0, _⟩ => rfl | ⟨1, _⟩ => rfl)
  rw [val_main_v14_apply, val_main_v5_apply, val_main_v4_apply, e]
  simp only [Ideal.subf_def]

/-! ## The edge weights and the messages -/

/-- The weight of an edge is the product of the two gathered inverse root degrees. -/
theorem ref_norm1 (x1 : (⟨S2x800000, .i32⟩ : BufTy).Contents (Elt Ideal)) (e : Fin 800000) :
    val_main_v37 (F := Ideal) x1 (ix1 e)
      = val_main_v29 (F := Ideal) x1 (ix1 e) * val_main_v36 (F := Ideal) x1 (ix1 e) := by
  rw [val_main_v37_apply]
  simp only [Ideal.mulf_def]

/-- The message along an edge is the gathered projected row times the edge's weight. -/
theorem ref_msg1 (x0 : (⟨S50000x128, .f32⟩ : BufTy).Contents (Elt Ideal)) (x1 : (⟨S2x800000, .i32⟩ : BufTy).Contents (Elt Ideal)) (x4 : (⟨S128x128, .f32⟩ : BufTy).Contents (Elt Ideal)) (e : Fin 800000) (f : Fin 128) :
    val_main_v47 (F := Ideal) x0 x1 x4 (ix2 e f)
      = val_main_v44 (F := Ideal) x0 x1 x4 (ix2 e f) * val_main_v37 (F := Ideal) x1 (ix1 e) := by
  have h : idx_main_v45 (idx_main_v46 (ix2 e f)) = ix1 e :=
    funext fun c => Fin.ext (by match c with | ⟨0, _⟩ => rfl)
  rw [val_main_v47_apply, val_main_v46_apply, val_main_v45_apply, h]
  simp only [Ideal.mulf_def]

/-! ## The damping matrix -/

/-- Equality of two 32-bit words is symmetric. -/
private theorem cmpi_eq_comm (x y : BitVec 32) : IntOp.cmpi .eq x y = IntOp.cmpi .eq y x := by
  show BitVec.ofBool (x == y) = BitVec.ofBool (y == x)
  rw [show (x == y) = (y == x) from Bool.eq_iff_iff.mpr (by simp only [beq_iff_eq]; exact eq_comm)]

/-- Adding the zero word changes nothing. -/
private theorem addi_zero32 (x : BitVec 32) : IntOp.addi x 0#32 = x := BitVec.add_zero x

/-- The damping matrix is symmetric: its entry is the step times the indicator of `a = b`. -/
theorem ref_damp_symm (a b : Fin 128) :
    val_main_v13 (F := Ideal) (ix2 a b) = val_main_v13 (F := Ideal) (ix2 b a) := by
  have h : val_main_v10 (F := Ideal) (ix2 a b) = val_main_v10 (F := Ideal) (ix2 b a) := by
    rw [val_main_v10_apply, val_main_v10_apply, val_main_v9_apply, val_main_v9_apply, val_main_v8_apply,
      val_main_v8_apply, val_main_c_apply, addi_zero32, addi_zero32]
    exact cmpi_eq_comm _ _
  rw [val_main_v13_apply, val_main_v13_apply, val_main_v12_apply, val_main_v12_apply, val_main_cst_apply,
    val_main_v11_apply, val_main_v11_apply, h]

/-- The two layers' damping matrices are the same matrix. -/
theorem ref_damp_eq : val_main_v82 (F := Ideal) = val_main_v13 (F := Ideal) := rfl

/-- The second layer's damping matrix is symmetric. -/
theorem ref_damp2_symm (a b : Fin 128) :
    val_main_v82 (F := Ideal) (ix2 a b) = val_main_v82 (F := Ideal) (ix2 b a) := by
  rw [ref_damp_eq]
  exact ref_damp_symm a b

/-! ## The first convolution and the linear layer -/

/-- The first antisymmetric convolution followed by the rectifier. -/
theorem ref_out1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (n : Fin 50000) (f : Fin 128) :
    val_main_v66 (F := Ideal) x0 x1 x2 x3 x4 (ix2 n f)
      = Gcn.refConv (a := 50000) (k := 128) x0 (val_main_v14 (F := Ideal) x2) (val_main_v50 (F := Ideal) x0 x1 x4)
          (val_main_v15 (F := Ideal) x0 x4) (val_main_v22 (F := Ideal) x1) x3 n f := by
  have e1 : ∀ k : Fin 128, lidx_main_v57 (ix2 n f) k = ix2 n k := fun k =>
    funext fun a => Fin.ext (by match a with | ⟨0, _⟩ => rfl | ⟨1, _⟩ => rfl)
  have e2 : ∀ k : Fin 128, idx_main_v56 (ridx_main_v57 (ix2 n f) k) = ix2 f k := fun k =>
    funext fun a => Fin.ext (by match a with | ⟨0, _⟩ => rfl | ⟨1, _⟩ => rfl)
  have e3 : idx_main_v52 (idx_main_v53 (ix2 n f)) = ix1 n :=
    funext fun a => Fin.ext (by match a with | ⟨0, _⟩ => rfl)
  have e4 : idx_main_v59 (idx_main_v60 (ix2 n f)) = ix1 f :=
    funext fun a => Fin.ext (by match a with | ⟨0, _⟩ => rfl)
  rw [val_main_v66_apply, val_main_v65_apply, val_main_v64_apply, val_main_v63_apply, val_main_cst_10_apply,
    val_main_v62_apply, val_main_v61_apply, val_main_v58_apply, val_main_v57_apply, val_main_v55_apply,
    val_main_v54_apply, val_main_v53_apply, val_main_v52_apply, val_main_v51_apply, val_main_v60_apply,
    val_main_v59_apply, val_main_call0_v0_apply, val_main_call0_cst_apply, e3, e4]
  simp only [val_main_v56_apply, e1, e2, Ideal.maximumf_def, Ideal.addf_def, Ideal.mulf_def, Ideal.hostUnary_tanh_def,
    Ideal.ofBits_def]
  rfl

/-- The linear layer between the two convolutions, with the rectifier. -/
theorem ref_lin1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x8 : (⟨S128x128, .f32⟩ : BufTy).Contents (Elt Ideal)) (x9 : (⟨S128, .f32⟩ : BufTy).Contents (Elt Ideal)) (n : Fin 50000) (f : Fin 128) :
    val_main_v72 (F := Ideal) x0 x1 x2 x3 x4 x8 x9 (ix2 n f)
      = Gcn.refLin (a := 50000) (k := 128) (b := 128) (val_main_v66 (F := Ideal) x0 x1 x2 x3 x4) x8 x9 n f := by
  have e1 : ∀ k : Fin 128, lidx_main_v68 (ix2 n f) k = ix2 n k := fun k => funext fun a => Fin.ext (by match a with | ⟨0, _⟩ => rfl | ⟨1, _⟩ => rfl)
  have e2 : ∀ k : Fin 128, idx_main_v67 (ridx_main_v68 (ix2 n f) k) = ix2 f k := fun k => funext fun a => Fin.ext (by match a with | ⟨0, _⟩ => rfl | ⟨1, _⟩ => rfl)
  have e3 : idx_main_v69 (idx_main_v70 (ix2 n f)) = ix1 f := funext fun a => Fin.ext (by match a with | ⟨0, _⟩ => rfl)
  rw [val_main_v72_apply, val_main_v71_apply, val_main_v68_apply, val_main_v70_apply, val_main_v69_apply,
    val_main_call1_v0_apply, val_main_call1_cst_apply, e3]
  simp only [val_main_v67_apply, e1, e2, Ideal.maximumf_def, Ideal.addf_def, Ideal.ofBits_def]
  rfl

/-! ## The second layer -/

/-- The second projection is the matrix product of the linear layer's rows with the second projection weight. -/
theorem ref_xw2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x7 x8 : (⟨S128x128, .f32⟩ : BufTy).Contents (Elt Ideal)) (x9 : (⟨S128, .f32⟩ : BufTy).Contents (Elt Ideal)) (n : Fin 50000) (f : Fin 128) :
    val_main_v84 (F := Ideal) x0 x1 x2 x3 x4 x7 x8 x9 (ix2 n f)
      = Gcn.rowdot (a := 50000) (k := 128) (b := 128) (val_main_v72 (F := Ideal) x0 x1 x2 x3 x4 x8 x9) x7 n f := by
  have e1 : ∀ k : Fin 128, lidx_main_v84 (ix2 n f) k = ix2 n k := fun k => funext fun a => Fin.ext (by match a with | ⟨0, _⟩ => rfl | ⟨1, _⟩ => rfl)
  have e2 : ∀ k : Fin 128, ridx_main_v84 (ix2 n f) k = ix2 k f := fun k => funext fun a => Fin.ext (by match a with | ⟨0, _⟩ => rfl | ⟨1, _⟩ => rfl)
  rw [val_main_v84_apply]
  simp only [e1, e2]
  rfl

/-- The second weight matrix: `(W − Wᵀ)` minus the damping on the diagonal. -/
theorem ref_M2 (x5 : (⟨S128x128, .f32⟩ : BufTy).Contents (Elt Ideal)) (a b : Fin 128) :
    val_main_v83 (F := Ideal) x5 (ix2 a b)
      = (x5 (ix2 a b) - x5 (ix2 b a)) - val_main_v82 (F := Ideal) (ix2 a b) := by
  have e : idx_main_v73 (ix2 a b) = ix2 b a :=
    funext fun c => Fin.ext (by match c with | ⟨0, _⟩ => rfl | ⟨1, _⟩ => rfl)
  rw [val_main_v83_apply, val_main_v74_apply, val_main_v73_apply, e]
  simp only [Ideal.subf_def]

/-- The weight of an edge in the second layer. -/
theorem ref_norm2 (x1 : (⟨S2x800000, .i32⟩ : BufTy).Contents (Elt Ideal)) (e : Fin 800000) :
    val_main_v106 (F := Ideal) x1 (ix1 e)
      = val_main_v98 (F := Ideal) x1 (ix1 e) * val_main_v105 (F := Ideal) x1 (ix1 e) := by
  rw [val_main_v106_apply]
  simp only [Ideal.mulf_def]

/-- The message along an edge in the second layer. -/
theorem ref_msg2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x7 x8 : (⟨S128x128, .f32⟩ : BufTy).Contents (Elt Ideal)) (x9 : (⟨S128, .f32⟩ : BufTy).Contents (Elt Ideal)) (e : Fin 800000) (f : Fin 128) :
    val_main_v116 (F := Ideal) x0 x1 x2 x3 x4 x7 x8 x9 (ix2 e f)
      = val_main_v113 (F := Ideal) x0 x1 x2 x3 x4 x7 x8 x9 (ix2 e f) * val_main_v106 (F := Ideal) x1 (ix1 e) := by
  have h : idx_main_v114 (idx_main_v115 (ix2 e f)) = ix1 e :=
    funext fun c => Fin.ext (by match c with | ⟨0, _⟩ => rfl)
  rw [val_main_v116_apply, val_main_v115_apply, val_main_v114_apply, h]
  simp only [Ideal.mulf_def]

/-- The second antisymmetric convolution followed by the rectifier. -/
theorem ref_x1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (n : Fin 50000) (f : Fin 128) :
    val_main_v135 (F := Ideal) x0 x1 x2 x3 x4 x5 x6 x7 x8 x9 (ix2 n f)
      = Gcn.refConv (a := 50000) (k := 128) (val_main_v72 (F := Ideal) x0 x1 x2 x3 x4 x8 x9) (val_main_v83 (F := Ideal) x5)
          (val_main_v119 (F := Ideal) x0 x1 x2 x3 x4 x7 x8 x9) (val_main_v84 (F := Ideal) x0 x1 x2 x3 x4 x7 x8 x9) (val_main_v91 (F := Ideal) x1) x6 n f := by
  have e1 : ∀ k : Fin 128, lidx_main_v126 (ix2 n f) k = ix2 n k := fun k => funext fun a => Fin.ext (by match a with | ⟨0, _⟩ => rfl | ⟨1, _⟩ => rfl)
  have e2 : ∀ k : Fin 128, idx_main_v125 (ridx_main_v126 (ix2 n f) k) = ix2 f k := fun k => funext fun a => Fin.ext (by match a with | ⟨0, _⟩ => rfl | ⟨1, _⟩ => rfl)
  have e3 : idx_main_v121 (idx_main_v122 (ix2 n f)) = ix1 n := funext fun a => Fin.ext (by match a with | ⟨0, _⟩ => rfl)
  have e4 : idx_main_v128 (idx_main_v129 (ix2 n f)) = ix1 f := funext fun a => Fin.ext (by match a with | ⟨0, _⟩ => rfl)
  rw [val_main_v135_apply, val_main_v134_apply, val_main_v133_apply, val_main_v132_apply, val_main_cst_23_apply,
    val_main_v131_apply, val_main_v130_apply, val_main_v127_apply, val_main_v126_apply, val_main_v124_apply,
    val_main_v123_apply, val_main_v122_apply, val_main_v121_apply, val_main_v120_apply, val_main_v129_apply,
    val_main_v128_apply, val_main_call2_v0_apply, val_main_call2_cst_apply, e3, e4]
  simp only [val_main_v125_apply, e1, e2, Ideal.maximumf_def, Ideal.addf_def, Ideal.mulf_def, Ideal.hostUnary_tanh_def,
    Ideal.ofBits_def]
  rfl

/-! ## The last linear layer and the logarithm of the softmax -/

/-- The last linear layer, without rectifier. -/
theorem ref_logits (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S40x128, .f32⟩ : BufTy).Contents (Elt Ideal)) (x11 : (⟨S40, .f32⟩ : BufTy).Contents (Elt Ideal)) (n : Fin 50000) (g : Fin 40) :
    val_main_v140 (F := Ideal) x0 x1 x2 x3 x4 x5 x6 x7 x8 x9 x10 x11 (ix2 n g) = Gcn.refLogits (a := 50000) (k := 128) (b := 40) (val_main_v135 (F := Ideal) x0 x1 x2 x3 x4 x5 x6 x7 x8 x9) x10 x11 n g := by
  have e1 : ∀ k : Fin 128, lidx_main_v137 (ix2 n g) k = ix2 n k := fun k => funext fun a => Fin.ext (by match a with | ⟨0, _⟩ => rfl | ⟨1, _⟩ => rfl)
  have e2 : ∀ k : Fin 128, idx_main_v136 (ridx_main_v137 (ix2 n g) k) = ix2 g k := fun k => funext fun a => Fin.ext (by match a with | ⟨0, _⟩ => rfl | ⟨1, _⟩ => rfl)
  have e3 : idx_main_v138 (idx_main_v139 (ix2 n g)) = ix1 g := funext fun a => Fin.ext (by match a with | ⟨0, _⟩ => rfl)
  rw [val_main_v140_apply, val_main_v137_apply, val_main_v139_apply, val_main_v138_apply, e3]
  simp only [val_main_v136_apply, e1, e2, Ideal.addf_def]
  rfl

/-- A value is not above the fold of the maximum that starts from it. -/
private theorem max_fold_max_self {b : ℕ} (c : EReal) (z : Fin b → EReal) :
    max c ((Finset.univ : Finset (Fin b)).fold max c z) = (Finset.univ : Finset (Fin b)).fold max c z :=
  max_eq_right ((Finset.le_fold_max c).mpr (Or.inl le_rfl))

/-- The row maximum the reference subtracts, at row `n`: the maximum of the row of logits from minus infinity
    (the further maximum with minus infinity changes nothing). -/
theorem ref_rowmax (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S40x128, .f32⟩ : BufTy).Contents (Elt Ideal)) (x11 : (⟨S40, .f32⟩ : BufTy).Contents (Elt Ideal)) (n : Fin 50000) :
    val_main_call3_v2 (F := Ideal) x0 x1 x2 x3 x4 x5 x6 x7 x8 x9 x10 x11 (ix1 n) = Gcn.rowmax (Gcn.refLogits (a := 50000) (k := 128) (b := 40) (val_main_v135 (F := Ideal) x0 x1 x2 x3 x4 x5 x6 x7 x8 x9) x10 x11 n) := by
  have h : S50000x40.Reduces [1] S50000 := by decide
  have hz : (val_main_v140 (F := Ideal) x0 x1 x2 x3 x4 x5 x6 x7 x8 x9 x10 x11 ∘ h.lift (ix1 n)) = Gcn.refLogits (a := 50000) (k := 128) (b := 40) (val_main_v135 (F := Ideal) x0 x1 x2 x3 x4 x5 x6 x7 x8 x9) x10 x11 n :=
    funext fun g => (congrArg (val_main_v140 (F := Ideal) x0 x1 x2 x3 x4 x5 x6 x7 x8 x9 x10 x11)
      (funext fun c => Fin.ext (by match c with | ⟨0, _⟩ => rfl | ⟨1, _⟩ => rfl))).trans
      (ref_logits x0 x1 x2 x3 x4 x5 x6 x7 x8 x9 x10 x11 n g)
  rw [val_main_call3_v2_apply, val_main_call3_v1_apply, val_main_call3_cst_0_apply]
  unfold val_main_call3_v0
  rw [Host.reduce_eq_fold_single FloatOps.maximumf _ _ reducesTo_S50000x40_S50000_d1 h h_S_, hz]
  exact max_fold_max_self _ _

/-- The logits less their row maximum. -/
theorem ref_shift (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S40x128, .f32⟩ : BufTy).Contents (Elt Ideal)) (x11 : (⟨S40, .f32⟩ : BufTy).Contents (Elt Ideal)) (n : Fin 50000) (g : Fin 40) :
    val_main_call3_v5 (F := Ideal) x0 x1 x2 x3 x4 x5 x6 x7 x8 x9 x10 x11 (ix2 n g) = Gcn.refLogits (a := 50000) (k := 128) (b := 40) (val_main_v135 (F := Ideal) x0 x1 x2 x3 x4 x5 x6 x7 x8 x9) x10 x11 n g - Gcn.rowmax (Gcn.refLogits (a := 50000) (k := 128) (b := 40) (val_main_v135 (F := Ideal) x0 x1 x2 x3 x4 x5 x6 x7 x8 x9) x10 x11 n) := by
  have e : idx_main_call3_v3 (idx_main_call3_v4 (ix2 n g)) = ix1 n := funext fun a => Fin.ext (by match a with | ⟨0, _⟩ => rfl)
  rw [val_main_call3_v5_apply, val_main_call3_v4_apply, val_main_call3_v3_apply, e, ref_logits, ref_rowmax]
  simp only [Ideal.subf_def]

/-- The reference's first result: the logarithm of the softmax of each row of logits. -/
theorem ref_logp (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S40x128, .f32⟩ : BufTy).Contents (Elt Ideal)) (x11 : (⟨S40, .f32⟩ : BufTy).Contents (Elt Ideal)) (n : Fin 50000) (f : Fin 40) :
    val_main_v141 (F := Ideal) x0 x1 x2 x3 x4 x5 x6 x7 x8 x9 x10 x11 (ix2 n f) = Gcn.lsm (Gcn.refLogits (a := 50000) (k := 128) (b := 40) (val_main_v135 (F := Ideal) x0 x1 x2 x3 x4 x5 x6 x7 x8 x9) x10 x11 n) f := by
  have e1 : idx_main_call3_v8 (idx_main_call3_v10 (ix2 n f)) = ix1 n := funext fun a => Fin.ext (by match a with | ⟨0, _⟩ => rfl)
  have e2 : ∀ k : Fin 40, idx_main_call3_v7 (ix1 n) k = ix2 n k := fun k => funext fun a => Fin.ext (by match a with | ⟨0, _⟩ => rfl | ⟨1, _⟩ => rfl)
  rw [val_main_v141_apply, val_main_call3_v10_apply, val_main_call3_v9_apply, val_main_call3_v8_apply, e1,
    val_main_call3_v7_apply, val_main_call3_cst_1_apply, ref_shift]
  simp only [val_main_call3_v6_apply, e2, ref_shift, Ideal.subf_def, Ideal.hostUnary_log_def, Ideal.hostUnary_exp_def,
    Ideal.ofBits_def, Ideal.ofBits_zero_f32, zero_add]
  rfl

end Cert.ReferenceIdeal.Hand

end
-- ==== Proof.ConvAlgebra.lean ====
/-
  The algebra that joins the two arrangements of one graph convolution, over the extended reals.

  A factor `r` that is nonnegative and not `+∞` distributes over a sum of two extended reals, hence over a finite sum.
  So with `r` the inverse root degree of the target node, `r · ((0 + ∑ⱼ uⱼ) + x · r)`, the kernel's arrangement — the
  scaled rows `uⱼ` summed over the edges into the node, the node's own scaled row `x · r` added, the whole multiplied by
  `r` —, equals `(0 + ∑ⱼ vⱼ · wⱼ) + x · (r · r)`, the reference's — each gathered row `vⱼ` multiplied by its edge weight `wⱼ`
  before the sum, the node's own row times `r · r` —, as soon as `vⱼ · wⱼ = r · uⱼ` edge by edge.
-/
import Mathlib.Data.EReal.Operations
import Mathlib.Data.EReal.Inv
import Mathlib.Algebra.BigOperators.Group.Finset.Basic

open scoped BigOperators

namespace Gcn

/-- A nonnegative factor that is not `+∞` distributes over a finite sum of extended reals. -/
theorem mul_sum_of_nonneg {ι : Type*} (s : Finset ι) (r : EReal) (h0 : 0 ≤ r) (ht : r ≠ ⊤) (u : ι → EReal) :
    r * ∑ j ∈ s, u j = ∑ j ∈ s, r * u j := by
  classical
  induction s using Finset.induction_on with
  | empty => simp
  | insert a s ha ih => rw [Finset.sum_insert ha, Finset.sum_insert ha, EReal.left_distrib_of_nonneg_of_ne_top h0 ht, ih]

/-- The kernel's arrangement of the aggregate equals the reference's, entry by entry. -/
theorem conv_law {ι : Type*} (s : Finset ι) (r : EReal) (h0 : 0 ≤ r) (ht : r ≠ ⊤) (u v w : ι → EReal) (x : EReal)
    (h : ∀ j ∈ s, v j * w j = r * u j) :
    r * ((0 + ∑ j ∈ s, u j) + x * r) = (0 + ∑ j ∈ s, v j * w j) + x * (r * r) := by
  rw [EReal.left_distrib_of_nonneg_of_ne_top h0 ht, zero_add, zero_add, mul_sum_of_nonneg s r h0 ht,
    Finset.sum_congr rfl h, mul_left_comm r x r]

end Gcn
-- ==== Proof.ConvGraph.lean ====
/-
  One entry of the graph aggregate, in the kernel's arrangement and in the reference's.

  Adding rows into the zero matrix at a column of targets leaves, at `(n, f)`, zero plus the sum of the update entries
  `(e, f)` over the edges `e` whose target is `n`.  In the kernel's arrangement the update row of edge `e` is the
  source's projected row already scaled by the source's inverse root degree `d`, and the sum plus the node's own scaled
  row is multiplied by `d n` afterwards.  In the reference's arrangement the update row of `e` is the source's projected
  row times `d (source) · d (target)`, the target looked up through the start-index clamp, and the node's own row times
  `d n · d n` is added.  For an edge that lands in row `n` the looked-up target IS `n` (its index is a row number, so
  neither the wrap of negative indices nor the clamp moves it), and `d n`, nonnegative and finite, distributes over
  the sum: the two entries are equal.
-/
import Idealize.ShloMosaic.PureOps.Ideal
import Idealize.ShloMosaic.PureOps.Contract
import proofs.«147570_j43654047596706_2_alg».proof.Proof.Spec
import proofs.«147570_j43654047596706_2_alg».proof.Proof.ConvAlgebra
import proofs.«147570_j43654047596706_2_alg».proof.Proof.LibRowsAt

noncomputable section

open scoped BigOperators

namespace Gcn

open Idealize.ShloMosaic Idealize.ShloMosaic.ValueIdx RowsAt

variable {N E K w : Nat}

/-- Rows added into a matrix, at the ideal values, read at an index: the operand's entry plus the sum of the update
    entries that land there. -/
theorem rowScatterAdd_apply (wfS : ScatterDims.WF ⟨2, ![N, K]⟩ ⟨2, ![E, 1]⟩ ⟨2, ![E, K]⟩ [1] [0] [0] 1)
    (Z : Mat N K) (idx : IVec ⟨2, ![E, 1]⟩ w) (upd : Mat E K) (i : (⟨2, ![N, K]⟩ : Shape).Idx) :
    Host.scatterAdd (F := Ideal) (φ := .f32) (rowScatter N E K wfS) Z idx upd i
      = Z i + ∑ j ∈ Finset.univ.filter (fun j => (rowScatter N E K wfS).resultIdx? j idx = some i), upd j := rfl

/-- THE TWO ARRANGEMENTS AGREE at `(n, f)`. `idxD` holds the raw targets, `idxDn` the targets as the reference looks
    them up (equal to the raw one wherever that is nonnegative), `idxS` the sources; `xws` is `xw` with row `n` scaled by
    `d n`; `msg` is the reference's update matrix. -/
theorem conv_entry (hN : 0 < N)
    (wfS : ScatterDims.WF ⟨2, ![N, K]⟩ ⟨2, ![E, 1]⟩ ⟨2, ![E, K]⟩ [1] [0] [0] 1)
    (wfG : GatherDims.WF ⟨2, ![N, K]⟩ ⟨2, ![E, 1]⟩ ⟨2, ![E, K]⟩ [1] [0] [] [0] [] 1 ![1, K])
    (wfg : GatherDims.WF ⟨1, ![N]⟩ ⟨2, ![E, 1]⟩ ⟨1, ![E]⟩ [] [0] [] [0] [] 1 ![1])
    (idxD idxS idxDn : IVec ⟨2, ![E, 1]⟩ w)
    (hDn : ∀ e : Fin E, 0 ≤ (idxD (col e)).toInt → idxDn (col e) = idxD (col e))
    (Z : Mat N K) (hZ : ∀ i, Z i = 0)
    (xw xws : Mat N K) (d : Vc N) (hd0 : ∀ n, 0 ≤ d (ix1 n)) (hdt : ∀ n, d (ix1 n) ≠ ⊤)
    (hxws : ∀ n f, xws (ix2 n f) = xw (ix2 n f) * d (ix1 n))
    (msg : Mat E K)
    (hmsg : ∀ e f, msg (ix2 e f) = Host.gather (rowGather N E K wfG) xw idxS (ix2 e f)
      * (Host.gather (vecGather N E wfg) d idxS (ix1 e) * Host.gather (vecGather N E wfg) d idxDn (ix1 e)))
    (n : Fin N) (f : Fin K) :
    d (ix1 n) * (Host.scatterAdd (F := Ideal) (φ := .f32) (rowScatter N E K wfS) Z idxD
        (Host.gather (rowGather N E K wfG) xws idxS) (ix2 n f) + xws (ix2 n f))
      = Host.scatterAdd (F := Ideal) (φ := .f32) (rowScatter N E K wfS) Z idxD msg (ix2 n f)
        + xw (ix2 n f) * (d (ix1 n) * d (ix1 n)) := by
  rw [rowScatterAdd_apply, rowScatterAdd_apply, hZ, hxws]
  refine conv_law _ (d (ix1 n)) (hd0 n) (hdt n) _
    (fun j => Host.gather (rowGather N E K wfG) xw idxS j)
    (fun j => Host.gather (vecGather N E wfg) d idxS (ix1 (j 0)) * Host.gather (vecGather N E wfg) d idxDn (ix1 (j 0)))
    (xw (ix2 n f)) ?_ |>.trans ?_
  · intro j hj
    obtain ⟨e, k, rfl⟩ : ∃ (e : Fin E) (k : Fin K), j = ix2 e k := ⟨j 0, j 1, eq_ix2 j⟩
    have hl := (Finset.mem_filter.mp hj).2
    obtain ⟨ht, rfl⟩ := rowScatter_result wfS idxD e k n f hl
    have hnn : 0 ≤ (idxD (col e)).toInt := by rw [ht]; exact Int.natCast_nonneg _
    have hc : clamp N (idxDn (col e)) = n.val := by
      rw [hDn e hnn]; unfold clamp; rw [ht]; have := n.isLt; omega
    show Host.gather (rowGather N E K wfG) xw idxS (ix2 e k)
        * (Host.gather (vecGather N E wfg) d idxS (ix1 e) * Host.gather (vecGather N E wfg) d idxDn (ix1 e))
      = d (ix1 n) * Host.gather (rowGather N E K wfG) xws idxS (ix2 e k)
    rw [rowGather_apply hN, rowGather_apply hN, vecGather_apply hN, vecGather_apply hN, hxws]
    have hdn : d (ix1 (⟨clamp N (idxDn (col e)), clamp_lt hN _⟩ : Fin N)) = d (ix1 n) :=
      congrArg (fun q : Fin N => d (ix1 q)) (Fin.ext hc)
    rw [hdn, mul_comm (d (ix1 n)), mul_assoc]
  · refine congrArg (fun s => (0 + s) + xw (ix2 n f) * (d (ix1 n) * d (ix1 n))) ?_
    refine Finset.sum_congr rfl fun j _ => ?_
    obtain ⟨e, k, rfl⟩ : ∃ (e : Fin E) (k : Fin K), j = ix2 e k := ⟨j 0, j 1, eq_ix2 j⟩
    exact (hmsg e k).symm

end Gcn

end
-- ==== Proof.RefConv.lean ====
/-
  Each of the reference's two edge aggregates, plus its self-loop term, equals entry by entry the kernel's arrangement
  of the same quantities: the projected rows scaled by the inverse root degree before they are gathered and summed,
  the sum plus the node's own scaled row multiplied by it afterwards.
-/
import proofs.«147570_j43654047596706_2_alg».proof.Proof.RefDegree
import proofs.«147570_j43654047596706_2_alg».proof.Proof.RefStages
import proofs.«147570_j43654047596706_2_alg».proof.Proof.ConvGraph

noncomputable section

open scoped BigOperators

namespace Cert.ReferenceIdeal.Hand

open Cert.ReferenceIdeal Cert.ReferenceIdeal.Gen Cert.ReferenceIdeal.Read
open Idealize.ShloMosaic Idealize.ShloMosaic.ValueIdx RowsAt

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x7 x8 : (⟨S128x128, .f32⟩ : BufTy).Contents (Elt Ideal)) (x9 : (⟨S128, .f32⟩ : BufTy).Contents (Elt Ideal))

/-! ## The gathers, one unfolding each, and the start-index columns that coincide -/

theorem gather_xw1 : val_main_v44 (F := Ideal) x0 x1 x4
    = Host.gather gather_S50000x128_S800000x1_S800000x128_1_0_n_n_0_1_1128 (val_main_v15 (F := Ideal) x0 x4)
        (val_main_v43 (F := Ideal) x1) := rfl
theorem gather_dsrc1 : val_main_v29 (F := Ideal) x1
    = Host.gather gather_S50000_S800000x1_S800000_n_0_n_n_0_1_1 (val_main_v22 (F := Ideal) x1)
        (val_main_v28 (F := Ideal) x1) := rfl
theorem gather_ddst1 : val_main_v36 (F := Ideal) x1
    = Host.gather gather_S50000_S800000x1_S800000_n_0_n_n_0_1_1 (val_main_v22 (F := Ideal) x1)
        (val_main_v35 (F := Ideal) x1) := rfl
/-- The source column is computed three times per layer, to the same array. -/
theorem src_col_28 : val_main_v28 (F := Ideal) x1 = val_main_v43 (F := Ideal) x1 := rfl

/-- The first layer's projected rows, each scaled by its node's inverse root degree. -/
def xws1R : Gcn.Mat 50000 128 :=
  Gcn.arr2 fun n f => (val_main_v15 (F := Ideal) x0 x4 : (⟨S50000x128, .f32⟩ : BufTy).Contents (Elt Ideal)) (ix2 n f) * val_main_v22 (F := Ideal) x1 (ix1 n)

/-- The first layer's update matrix, entry by entry: the gathered projected row times the two looked-up degrees. -/
theorem msg1_apply (e : Fin 800000) (f : Fin 128) :
    val_main_v47 (F := Ideal) x0 x1 x4 (ix2 e f)
      = Host.gather gather_S50000x128_S800000x1_S800000x128_1_0_n_n_0_1_1128 (val_main_v15 (F := Ideal) x0 x4)
          (val_main_v43 (F := Ideal) x1) (ix2 e f)
        * (Host.gather gather_S50000_S800000x1_S800000_n_0_n_n_0_1_1 (val_main_v22 (F := Ideal) x1)
            (val_main_v43 (F := Ideal) x1) (ix1 e)
          * Host.gather gather_S50000_S800000x1_S800000_n_0_n_n_0_1_1 (val_main_v22 (F := Ideal) x1)
            (val_main_v35 (F := Ideal) x1) (ix1 e)) := by
  rw [ref_msg1, ref_norm1, gather_xw1, gather_dsrc1, gather_ddst1, src_col_28]

/-- THE FIRST LAYER'S AGGREGATE, in the kernel's arrangement, is the reference's. -/
theorem conv1 (n : Fin 50000) (f : Fin 128) :
    val_main_v22 (F := Ideal) x1 (ix1 n)
        * (Host.scatterAdd (F := Ideal) (φ := .f32) scatter_S50000x128_S800000x1_S800000x128_1_0_0_1
            (val_main_v48 (F := Ideal)) (val_main_v49 (F := Ideal) x1)
            (Host.gather gather_S50000x128_S800000x1_S800000x128_1_0_n_n_0_1_1128 (xws1R x0 x1 x4)
              (val_main_v43 (F := Ideal) x1)) (ix2 n f)
          + xws1R x0 x1 x4 (ix2 n f))
      = (val_main_v50 (F := Ideal) x0 x1 x4 : (⟨S50000x128, .f32⟩ : BufTy).Contents (Elt Ideal)) (ix2 n f)
        + (val_main_v15 (F := Ideal) x0 x4 : (⟨S50000x128, .f32⟩ : BufTy).Contents (Elt Ideal)) (ix2 n f)
          * (val_main_v22 (F := Ideal) x1 (ix1 n) * val_main_v22 (F := Ideal) x1 (ix1 n)) := by
  have hZ : ∀ i, val_main_v48 (F := Ideal) i = 0 := fun i => by
    rw [val_main_v48_apply, val_main_cst_9_apply]; exact Ideal.ofBits_zero_f32
  have h50 : val_main_v50 (F := Ideal) x0 x1 x4
      = Host.scatterAdd (F := Ideal) (φ := .f32) scatter_S50000x128_S800000x1_S800000x128_1_0_0_1
          (val_main_v48 (F := Ideal)) (val_main_v49 (F := Ideal) x1) (val_main_v47 (F := Ideal) x0 x1 x4) := rfl
  rw [h50]
  exact Gcn.conv_entry (N := 50000) (E := 800000) (K := 128) (by decide)
    scatter_S50000x128_S800000x1_S800000x128_1_0_0_1_wf gather_S50000x128_S800000x1_S800000x128_1_0_n_n_0_1_1128_wf
    gather_S50000_S800000x1_S800000_n_0_n_n_0_1_1_wf
    (val_main_v49 (F := Ideal) x1) (val_main_v43 (F := Ideal) x1) (val_main_v35 (F := Ideal) x1)
    (dstn_of_nonneg x1) (val_main_v48 (F := Ideal)) hZ
    (val_main_v15 (F := Ideal) x0 x4) (xws1R x0 x1 x4) (val_main_v22 (F := Ideal) x1)
    (fun n => (dinv_ok x1 n).1) (fun n => (dinv_ok x1 n).2) (fun n f => rfl)
    (val_main_v47 (F := Ideal) x0 x1 x4) (msg1_apply x0 x1 x4) n f

/-! ## The second layer: the same graph, the same degrees -/

theorem gather_xw2 : val_main_v113 (F := Ideal) x0 x1 x2 x3 x4 x7 x8 x9
    = Host.gather gather_S50000x128_S800000x1_S800000x128_1_0_n_n_0_1_1128 (val_main_v84 (F := Ideal) x0 x1 x2 x3 x4 x7 x8 x9)
        (val_main_v43 (F := Ideal) x1) := rfl
theorem gather_dsrc2 : val_main_v98 (F := Ideal) x1
    = Host.gather gather_S50000_S800000x1_S800000_n_0_n_n_0_1_1 (val_main_v22 (F := Ideal) x1)
        (val_main_v43 (F := Ideal) x1) := rfl
theorem gather_ddst2 : val_main_v105 (F := Ideal) x1
    = Host.gather gather_S50000_S800000x1_S800000_n_0_n_n_0_1_1 (val_main_v22 (F := Ideal) x1)
        (val_main_v35 (F := Ideal) x1) := rfl
/-- The second layer recomputes the same inverse root degrees. -/
theorem dinv2_eq : val_main_v91 (F := Ideal) x1 = val_main_v22 (F := Ideal) x1 := rfl

/-- The second layer's projected rows, each scaled by its node's inverse root degree. -/
def xws2R : Gcn.Mat 50000 128 :=
  Gcn.arr2 fun n f => (val_main_v84 (F := Ideal) x0 x1 x2 x3 x4 x7 x8 x9 : (⟨S50000x128, .f32⟩ : BufTy).Contents (Elt Ideal)) (ix2 n f) * val_main_v22 (F := Ideal) x1 (ix1 n)

/-- The second layer's update matrix, entry by entry. -/
theorem msg2_apply (e : Fin 800000) (f : Fin 128) :
    val_main_v116 (F := Ideal) x0 x1 x2 x3 x4 x7 x8 x9 (ix2 e f)
      = Host.gather gather_S50000x128_S800000x1_S800000x128_1_0_n_n_0_1_1128 (val_main_v84 (F := Ideal) x0 x1 x2 x3 x4 x7 x8 x9)
          (val_main_v43 (F := Ideal) x1) (ix2 e f)
        * (Host.gather gather_S50000_S800000x1_S800000_n_0_n_n_0_1_1 (val_main_v22 (F := Ideal) x1)
            (val_main_v43 (F := Ideal) x1) (ix1 e)
          * Host.gather gather_S50000_S800000x1_S800000_n_0_n_n_0_1_1 (val_main_v22 (F := Ideal) x1)
            (val_main_v35 (F := Ideal) x1) (ix1 e)) := by
  rw [ref_msg2, ref_norm2, gather_xw2, gather_dsrc2, gather_ddst2]

/-- THE SECOND LAYER'S AGGREGATE, in the kernel's arrangement, is the reference's. -/
theorem conv2 (n : Fin 50000) (f : Fin 128) :
    val_main_v22 (F := Ideal) x1 (ix1 n)
        * (Host.scatterAdd (F := Ideal) (φ := .f32) scatter_S50000x128_S800000x1_S800000x128_1_0_0_1
            (val_main_v48 (F := Ideal)) (val_main_v49 (F := Ideal) x1)
            (Host.gather gather_S50000x128_S800000x1_S800000x128_1_0_n_n_0_1_1128 (xws2R x0 x1 x2 x3 x4 x7 x8 x9)
              (val_main_v43 (F := Ideal) x1)) (ix2 n f)
          + xws2R x0 x1 x2 x3 x4 x7 x8 x9 (ix2 n f))
      = (val_main_v119 (F := Ideal) x0 x1 x2 x3 x4 x7 x8 x9 : (⟨S50000x128, .f32⟩ : BufTy).Contents (Elt Ideal)) (ix2 n f)
        + (val_main_v84 (F := Ideal) x0 x1 x2 x3 x4 x7 x8 x9 : (⟨S50000x128, .f32⟩ : BufTy).Contents (Elt Ideal)) (ix2 n f)
          * (val_main_v22 (F := Ideal) x1 (ix1 n) * val_main_v22 (F := Ideal) x1 (ix1 n)) := by
  have hZ : ∀ i, val_main_v48 (F := Ideal) i = 0 := fun i => by
    rw [val_main_v48_apply, val_main_cst_9_apply]; exact Ideal.ofBits_zero_f32
  have h119 : val_main_v119 (F := Ideal) x0 x1 x2 x3 x4 x7 x8 x9
      = Host.scatterAdd (F := Ideal) (φ := .f32) scatter_S50000x128_S800000x1_S800000x128_1_0_0_1
          (val_main_v48 (F := Ideal)) (val_main_v49 (F := Ideal) x1) (val_main_v116 (F := Ideal) x0 x1 x2 x3 x4 x7 x8 x9) := rfl
  rw [h119]
  exact Gcn.conv_entry (N := 50000) (E := 800000) (K := 128) (by decide)
    scatter_S50000x128_S800000x1_S800000x128_1_0_0_1_wf gather_S50000x128_S800000x1_S800000x128_1_0_n_n_0_1_1128_wf
    gather_S50000_S800000x1_S800000_n_0_n_n_0_1_1_wf
    (val_main_v49 (F := Ideal) x1) (val_main_v43 (F := Ideal) x1) (val_main_v35 (F := Ideal) x1)
    (dstn_of_nonneg x1) (val_main_v48 (F := Ideal)) hZ
    (val_main_v84 (F := Ideal) x0 x1 x2 x3 x4 x7 x8 x9) (xws2R x0 x1 x2 x3 x4 x7 x8 x9) (val_main_v22 (F := Ideal) x1)
    (fun n => (dinv_ok x1 n).1) (fun n => (dinv_ok x1 n).2) (fun n f => rfl)
    (val_main_v116 (F := Ideal) x0 x1 x2 x3 x4 x7 x8 x9) (msg2_apply x0 x1 x2 x3 x4 x7 x8 x9) n f

end Cert.ReferenceIdeal.Hand

end
-- ==== Proof.StageBridge.lean ====
/-
  The kernel-shaped and the reference-shaped stage functions agree, entry by entry, once their operands do.

  Each stage of the network is written twice in the specification: as the kernel holds its operands (weights already
  transposed, biases as rows, the inverse root degrees as a column) and as the reference does (weights read transposed
  inside the contraction, biases and degrees as vectors).  When the operands correspond — the transposed weight is the
  transpose, the row is the vector, the column is the vector — the matrix products are the same sums term by term,
  and the only arithmetic left is the aggregate's two arrangements, taken as a hypothesis here.
-/
import proofs.«147570_j43654047596706_2_alg».proof.Proof.Spec

noncomputable section

open scoped BigOperators

namespace Gcn

open Idealize.ShloMosaic Idealize.ShloMosaic.ValueIdx

variable {a k b : ℕ}

/-- A product with a transposed weight is the contraction against the weight's rows. -/
theorem rowdot_transposed (x : Mat a k) (lwT : Mat k b) (lw : Mat b k) (h : ∀ c f, lwT (ix2 c f) = lw (ix2 f c))
    (n : Fin a) (f : Fin b) : rowdot x lwT n f = ∑ c : Fin k, x (ix2 n c) * lw (ix2 f c) := by
  unfold rowdot
  exact Finset.sum_congr rfl fun c _ => by rw [h]

/-- One convolution stage: the kernel's arrangement is the reference's. -/
theorem combine_eq_refConv (x : Mat a k) (MT M : Mat k k) (scat xws agg xw : Mat a k) (dcol : Mat a 1) (d : Vc a)
    (brow : Mat 1 k) (bv : Vc k)
    (hM : ∀ c f, MT (ix2 c f) = M (ix2 f c)) (hd : ∀ n, dcol (ix2 n 0) = d (ix1 n))
    (hb : ∀ f, brow (ix2 0 f) = bv (ix1 f))
    (hconv : ∀ n f, d (ix1 n) * (scat (ix2 n f) + xws (ix2 n f)) = agg (ix2 n f) + xw (ix2 n f) * (d (ix1 n) * d (ix1 n)))
    (n : Fin a) (f : Fin k) : combine x MT scat xws dcol brow n f = refConv x M agg xw d bv n f := by
  unfold combine refConv
  rw [rowdot_transposed x MT M hM, hd, hb, hconv]

/-- The linear stage with rectifier. -/
theorem lin_eq_refLin (x : Mat a k) (lwT : Mat k b) (lw : Mat b k) (brow : Mat 1 b) (bv : Vc b)
    (h : ∀ c f, lwT (ix2 c f) = lw (ix2 f c)) (hb : ∀ f, brow (ix2 0 f) = bv (ix1 f)) (n : Fin a) (f : Fin b) :
    lin x lwT brow n f = refLin x lw bv n f := by
  unfold lin refLin
  rw [rowdot_transposed x lwT lw h, hb]

/-- The last linear stage. -/
theorem logits_eq_refLogits (x : Mat a k) (lwT : Mat k b) (lw : Mat b k) (brow : Mat 1 b) (bv : Vc b)
    (h : ∀ c f, lwT (ix2 c f) = lw (ix2 f c)) (hb : ∀ f, brow (ix2 0 f) = bv (ix1 f)) (n : Fin a) (f : Fin b) :
    logits x lwT brow n f = refLogits x lw bv n f := by
  unfold logits refLogits
  rw [rowdot_transposed x lwT lw h, hb]

end Gcn

end
-- ==== Proof.Bridge.lean ====
/-
  The idealized kernel program's two results are the reference's two results, as functions of the argument arrays.

  Stage by stage the kernel's arrays are the reference's: the small arrays of the kernel's first host stretch are the
  reference's (the edge lists and the inverse root degrees are the same printed operations; the kernel's
  antisymmetrised weight is the transpose of the reference's, the damping matrix being symmetric; a transposed linear
  weight read at `(c, f)` is the weight at `(f, c)`; a bias row is the bias vector); the first scaled projection is the
  reference's projection times the inverse root degree; the first convolution's rectified output is the
  reference's, by the agreement of the two arrangements of the aggregate; then the linear layer, the second scaled
  projection, the second convolution and the log-softmax of the last linear layer follow in the same way.
-/
import proofs.«147570_j43654047596706_2_alg».proof.Proof.KChain
import proofs.«147570_j43654047596706_2_alg».proof.Proof.RefConv
import proofs.«147570_j43654047596706_2_alg».proof.Proof.StageBridge

noncomputable section

namespace Cert.Bridge

open Idealize.ShloMosaic Idealize.ShloMosaic.TcCoe Idealize.SL.Sem Idealize.ShloMosaic.ValueIdx
open Cert.KernelIdeal.Hand Cert.ReferenceIdeal.Hand Cert.ReferenceIdeal.Read

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ## The arguments, at the reference's types -/

abbrev a0 : (⟨Cert.ReferenceIdeal.S50000x128, .f32⟩ : BufTy).Contents (Elt Ideal) := (m ((c : Thread Cert.KernelIdeal.nD Cert.KernelIdeal.τ).loc Cert.KernelIdeal.main_arg0))
abbrev a1 : (⟨Cert.ReferenceIdeal.S2x800000, .i32⟩ : BufTy).Contents (Elt Ideal) := (m ((c : Thread Cert.KernelIdeal.nD Cert.KernelIdeal.τ).loc Cert.KernelIdeal.main_arg1))
abbrev a2 : (⟨Cert.ReferenceIdeal.S128x128, .f32⟩ : BufTy).Contents (Elt Ideal) := (m ((c : Thread Cert.KernelIdeal.nD Cert.KernelIdeal.τ).loc Cert.KernelIdeal.main_arg2))
abbrev a3 : (⟨Cert.ReferenceIdeal.S128, .f32⟩ : BufTy).Contents (Elt Ideal) := (m ((c : Thread Cert.KernelIdeal.nD Cert.KernelIdeal.τ).loc Cert.KernelIdeal.main_arg3))
abbrev a4 : (⟨Cert.ReferenceIdeal.S128x128, .f32⟩ : BufTy).Contents (Elt Ideal) := (m ((c : Thread Cert.KernelIdeal.nD Cert.KernelIdeal.τ).loc Cert.KernelIdeal.main_arg4))
abbrev a5 : (⟨Cert.ReferenceIdeal.S128x128, .f32⟩ : BufTy).Contents (Elt Ideal) := (m ((c : Thread Cert.KernelIdeal.nD Cert.KernelIdeal.τ).loc Cert.KernelIdeal.main_arg5))
abbrev a6 : (⟨Cert.ReferenceIdeal.S128, .f32⟩ : BufTy).Contents (Elt Ideal) := (m ((c : Thread Cert.KernelIdeal.nD Cert.KernelIdeal.τ).loc Cert.KernelIdeal.main_arg6))
abbrev a7 : (⟨Cert.ReferenceIdeal.S128x128, .f32⟩ : BufTy).Contents (Elt Ideal) := (m ((c : Thread Cert.KernelIdeal.nD Cert.KernelIdeal.τ).loc Cert.KernelIdeal.main_arg7))
abbrev a8 : (⟨Cert.ReferenceIdeal.S128x128, .f32⟩ : BufTy).Contents (Elt Ideal) := (m ((c : Thread Cert.KernelIdeal.nD Cert.KernelIdeal.τ).loc Cert.KernelIdeal.main_arg8))
abbrev a9 : (⟨Cert.ReferenceIdeal.S128, .f32⟩ : BufTy).Contents (Elt Ideal) := (m ((c : Thread Cert.KernelIdeal.nD Cert.KernelIdeal.τ).loc Cert.KernelIdeal.main_arg9))
abbrev a10 : (⟨Cert.ReferenceIdeal.S40x128, .f32⟩ : BufTy).Contents (Elt Ideal) := (m ((c : Thread Cert.KernelIdeal.nD Cert.KernelIdeal.τ).loc Cert.KernelIdeal.main_arg10))
abbrev a11 : (⟨Cert.ReferenceIdeal.S40, .f32⟩ : BufTy).Contents (Elt Ideal) := (m ((c : Thread Cert.KernelIdeal.nD Cert.KernelIdeal.τ).loc Cert.KernelIdeal.main_arg11))

/-! ## The small arrays -/

/-- The edge sources and targets are the reference's. -/
theorem src_fact : srcA m ρ c = val_main_v1 (F := Ideal) (a1 m c) := src_eq m ρ c
theorem dst_fact : dstA m ρ c = val_main_v3 (F := Ideal) (a1 m c) := dst_eq m ρ c

/-- The kernel's inverse root degrees are the reference's. -/
theorem dinv_fact : dinvK (val_main_v3 (F := Ideal) (a1 m c)) = val_main_v22 (F := Ideal) (a1 m c) := rfl

/-- The column of inverse root degrees read at a node is the reference's vector entry. -/
theorem dcol_fact (n : Fin 50000) : dcolA m ρ c (ix2 n 0) = val_main_v22 (F := Ideal) (a1 m c) (ix1 n) := by
  have h := dcol_apply m ρ c n
  rw [show Cert.KernelIdeal.Gen.V1 m ρ c Cert.KernelIdeal.main_v3 = val_main_v3 (F := Ideal) (a1 m c) from dst_eq m ρ c, dinv_fact] at h
  exact h

/-- The aggregate along the edges, with the reference's printed operations. -/
theorem agg_fact (U : Gcn.Mat 50000 128) :
    aggK (val_main_v1 (F := Ideal) (a1 m c)) (val_main_v3 (F := Ideal) (a1 m c)) U
      = Host.scatterAdd (F := Ideal) (φ := .f32) Cert.ReferenceIdeal.scatter_S50000x128_S800000x1_S800000x128_1_0_0_1
          (val_main_v48 (F := Ideal)) (val_main_v49 (F := Ideal) (a1 m c))
          (Host.gather Cert.ReferenceIdeal.gather_S50000x128_S800000x1_S800000x128_1_0_n_n_0_1_1128 U
            (val_main_v43 (F := Ideal) (a1 m c))) := rfl

/-- The kernel's first antisymmetrised weight is the transpose of the reference's. -/
theorem MT1_fact (k f : Fin 128) : MT1A m ρ c (ix2 k f) = val_main_v14 (F := Ideal) (a2 m c) (ix2 f k) := by
  show (Cert.KernelIdeal.Gen.V1 m ρ c Cert.KernelIdeal.main_v22 : Gcn.Mat 128 128) (ix2 k f) = _
  rw [MT1_apply m ρ c _ rfl k f, ref_M1 (a2 m c) f k,
    show Cert.KernelIdeal.Gen.V1 m ρ c Cert.KernelIdeal.main_v21 = val_main_v13 (F := Ideal) from damp1_eq m ρ c, ref_damp_symm k f]

/-- The second likewise. -/
theorem MT2_fact (k f : Fin 128) : MT2A m ρ c (ix2 k f) = val_main_v83 (F := Ideal) (a5 m c) (ix2 f k) := by
  show (Cert.KernelIdeal.Gen.V1 m ρ c Cert.KernelIdeal.main_v33 : Gcn.Mat 128 128) (ix2 k f) = _
  rw [MT2_apply m ρ c _ rfl k f, ref_M2 (a5 m c) f k,
    show Cert.KernelIdeal.Gen.V1 m ρ c Cert.KernelIdeal.main_v32 = val_main_v82 (F := Ideal) from damp2_eq m ρ c, ref_damp2_symm k f]

/-! ## The stages -/

/-- The first scaled projection. -/
theorem xws1_fact : xws1K m ρ c = xws1R (a0 m c) (a1 m c) (a4 m c) := by
  unfold xws1K xws1R
  refine congrArg Gcn.arr2 (funext fun n => funext fun f => ?_)
  unfold Gcn.proj
  rw [ref_xw1, dcol_fact]

/-- The first convolution's rectified output. -/
theorem out1_fact : out1K m ρ c = val_main_v66 (F := Ideal) (a0 m c) (a1 m c) (a2 m c) (a3 m c) (a4 m c) := by
  refine Gcn.mat_ext fun n f => ?_
  unfold out1K
  rw [Gcn.arr2_apply, ref_out1]
  refine Gcn.combine_eq_refConv _ _ _ _ _ _ _ _ _ _ _ (MT1_fact m ρ c) (dcol_fact m ρ c) (brow1_apply m ρ c) (fun n f => ?_) n f
  rw [src_fact, dst_fact, xws1_fact, agg_fact]
  exact conv1 (a0 m c) (a1 m c) (a4 m c) n f

/-- The linear layer's rectified output. -/
theorem lin1_fact : lin1K m ρ c
    = val_main_v72 (F := Ideal) (a0 m c) (a1 m c) (a2 m c) (a3 m c) (a4 m c) (a8 m c) (a9 m c) := by
  refine Gcn.mat_ext fun n f => ?_
  unfold lin1K
  rw [Gcn.arr2_apply, ref_lin1, out1_fact]
  exact Gcn.lin_eq_refLin _ _ _ _ _ (lw1T_apply m ρ c) (brow3_apply m ρ c) n f

/-- The second scaled projection. -/
theorem xws2_fact : xws2K m ρ c = xws2R (a0 m c) (a1 m c) (a2 m c) (a3 m c) (a4 m c) (a7 m c) (a8 m c) (a9 m c) := by
  unfold xws2K xws2R
  refine congrArg Gcn.arr2 (funext fun n => funext fun f => ?_)
  unfold Gcn.proj
  rw [ref_xw2, dcol_fact, lin1_fact]

/-- The second convolution's rectified output: the second result. -/
theorem x1_fact : x1K m ρ c = val_main_v135 (F := Ideal) (a0 m c) (a1 m c) (a2 m c) (a3 m c) (a4 m c) (a5 m c)
    (a6 m c) (a7 m c) (a8 m c) (a9 m c) := by
  refine Gcn.mat_ext fun n f => ?_
  unfold x1K
  rw [Gcn.arr2_apply, ref_x1, lin1_fact]
  refine Gcn.combine_eq_refConv _ _ _ _ _ _ _ _ _ _ _ (MT2_fact m ρ c) (dcol_fact m ρ c) (brow2_apply m ρ c) (fun n f => ?_) n f
  rw [src_fact, dst_fact, xws2_fact, agg_fact]
  exact conv2 (a0 m c) (a1 m c) (a2 m c) (a3 m c) (a4 m c) (a7 m c) (a8 m c) (a9 m c) n f

/-- The log-softmax of the last linear layer: the first result. -/
theorem logp_fact : logpK m ρ c = val_main_v141 (F := Ideal) (a0 m c) (a1 m c) (a2 m c) (a3 m c) (a4 m c) (a5 m c)
    (a6 m c) (a7 m c) (a8 m c) (a9 m c) (a10 m c) (a11 m c) := by
  refine Gcn.mat_ext fun n f => ?_
  unfold logpK
  rw [Gcn.arr2_apply, ref_logp, x1_fact]
  refine congrArg (fun z => Gcn.lsm z f) (funext fun g => ?_)
  exact Gcn.logits_eq_refLogits _ _ _ _ _ (lw2T_apply m ρ c) (brow4_apply m ρ c) n g

end Cert.Bridge

end
-- ==== Proof.LibLineCall.lean ====
/- One more stage for a straight line of host operations in single-assignment form: a THREE-operand operation of an
   inlined function (a select called through jnp.where), whose values are carried to and from its buffers along
   equations between types that are reflexivity for a literal buffer. What the written buffer holds after the whole
   line is the operation's function of what its three operands hold after the whole line. General; no program is
   imported. -/
import proofs.«147570_j43654047596706_2_alg».proof.Proof.LibLineTernary

namespace Cert.LibLine

open Idealize.ShloMosaic Idealize.ShloMosaic.TcCoe Idealize.ShloMosaic.StableHlo

/-- The stage of a three-operand operation of an inlined function: its values are carried to and from the buffers along
    equations between types that are reflexivity, so its stage reads like any other three-operand operation's. -/
theorem stage_tternary {τ : Topo} {sig : RefSig} {Val : EltTy → Type} {ops : List (HloOp τ sig Val)} {outs : List (Ref sig .tc)}
    (h : WritesAre ops outs) (k : Nat) (c a b y : Ref sig .tc) {hc2 hc3 ha2 ha3 hb2 hb3 hy2 hy3}
    (f : c.ty.Contents Val → a.ty.Contents Val → b.ty.Contents Val → y.ty.Contents Val)
    (hk : ops[k]? = some (TRef.ternary (⟨c, rfl, hc2, hc3⟩ : TRef sig c.ty) (⟨a, rfl, ha2, ha3⟩ : TRef sig a.ty)
      (⟨b, rfl, hb2, hb3⟩ : TRef sig b.ty) (⟨y, rfl, hy2, hy3⟩ : TRef sig y.ty) f))
    (hy' : y ∉ outs.drop (k + 1)) (hc' : c ∉ outs.drop k) (ha' : a ∉ outs.drop k) (hb' : b ∉ outs.drop k)
    (V : Valuation τ sig Val) :
    after ops V (Proc.devRef .tc y)
      = f (after ops V (Proc.devRef .tc c)) (after ops V (Proc.devRef .tc a)) (after ops V (Proc.devRef .tc b)) :=
  stage_ternary h k c a b y f hk hy' hc' ha' hb' V

end Cert.LibLine
-- ==== Proof.LibLineCallUnary.lean ====
/- One more stage for a straight line of host operations in single-assignment form: a ONE-operand operation of an
   inlined function (a convert or a broadcast inside a function jax outlined, such as jnp.where), whose values are carried
   to and from its buffers along equations between types that are reflexivity for a literal buffer. What the written buffer
   holds after the whole line is the operation's function of what its operand holds after the whole line. General; no
   program is imported. -/
import proofs.«147570_j43654047596706_2_alg».proof.Proof.LibLine

namespace Cert.LibLine

open Idealize.ShloMosaic Idealize.ShloMosaic.TcCoe Idealize.ShloMosaic.StableHlo

/-- The stage of a one-operand operation of an inlined function: its values are carried to and from the buffers along
    equations between types that are reflexivity, so its stage reads like any other one-operand operation's. -/
theorem stage_tunary {τ : Topo} {sig : RefSig} {Val : EltTy → Type} {ops : List (HloOp τ sig Val)} {outs : List (Ref sig .tc)}
    (h : WritesAre ops outs) (k : Nat) (x y : Ref sig .tc) {hx2 hx3 hy2 hy3}
    (f : x.ty.Contents Val → y.ty.Contents Val)
    (hk : ops[k]? = some (TRef.unary (⟨x, rfl, hx2, hx3⟩ : TRef sig x.ty) (⟨y, rfl, hy2, hy3⟩ : TRef sig y.ty) f))
    (hy' : y ∉ outs.drop (k + 1)) (hx' : x ∉ outs.drop k) (V : Valuation τ sig Val) :
    after ops V (Proc.devRef .tc y) = f (after ops V (Proc.devRef .tc x)) :=
  stage_unary h k x y f hk hy' hx' V

end Cert.LibLine
-- ==== Proof.RefRun0.lean ====
/- The reference program is a straight line of 188 host operations in single-assignment form. Here: the buffers the line
   writes, in order; that operation by operation it writes exactly those; and that each argument, which no operation
   writes, holds after the whole line what it held at launch. Also the stage of a constant of an inlined function. -/
import proofs.«147570_j43654047596706_2_alg».proof.Proof.RefRunP
import proofs.«147570_j43654047596706_2_alg».proof.Proof.RefReadP
import proofs.«147570_j43654047596706_2_alg».proof.Proof.LibLine
import proofs.«147570_j43654047596706_2_alg».proof.Proof.LibLineTernary
import proofs.«147570_j43654047596706_2_alg».proof.Proof.LibLineCall
import proofs.«147570_j43654047596706_2_alg».proof.Proof.LibLineCallUnary

namespace Cert.LibLine

open Idealize.ShloMosaic Idealize.ShloMosaic.TcCoe Idealize.ShloMosaic.StableHlo

/-- The stage of a constant of an inlined function: its value is carried to its buffer along an equation between types
    that is reflexivity, so its stage reads like any other constant's. -/
theorem stage_tnullary {τ : Topo} {sig : RefSig} {Val : EltTy → Type} {ops : List (HloOp τ sig Val)} {outs : List (Ref sig .tc)}
    (h : WritesAre ops outs) (k : Nat) (y : Ref sig .tc) {hy2 hy3} (v : y.ty.Contents Val)
    (hk : ops[k]? = some (TRef.nullary (⟨y, rfl, hy2, hy3⟩ : TRef sig y.ty) v))
    (hy' : y ∉ outs.drop (k + 1)) (V : Valuation τ sig Val) :
    after ops V (Proc.devRef .tc y) = v :=
  stage_nullary h k y v hk hy' V

end Cert.LibLine

noncomputable section

namespace Cert.ReferenceIdeal.Hand

open Cert.ReferenceIdeal Cert.ReferenceIdeal.Gen Cert.ReferenceIdeal.Read Cert.ReferenceIdeal.Value Idealize.ShloMosaic
  Idealize.ShloMosaic.TcCoe Idealize.SL.Sem Idealize.ShloMosaic.StableHlo Cert.LibLine

/-- The buffers the line writes, in order. -/
abbrev outsR : List (Ref sig .tc) :=
  [main_v0, main_v1, main_v2, main_v3, main_v4, main_v5, main_v6, main_v7, main_c, main_v8, main_v9, main_v10,
    main_v11, main_cst, main_v12, main_v13, main_v14, main_v15, main_cst_0, main_v16, main_cst_1, main_v17,
    main_v18, main_v19, main_cst_2, main_v20, main_v21, main_v22, main_c_3, main_v23, main_v24, main_c_4, main_v25,
    main_v26, main_v27, main_v28, main_v29, main_c_5, main_v30, main_v31, main_c_6, main_v32, main_v33, main_v34,
    main_v35, main_v36, main_v37, main_c_7, main_v38, main_v39, main_c_8, main_v40, main_v41, main_v42, main_v43,
    main_v44, main_v45, main_v46, main_v47, main_cst_9, main_v48, main_v49, main_v50, main_v51, main_v52, main_v53,
    main_v54, main_v55, main_v56, main_v57, main_v58, main_v59, main_v60, main_v61, main_v62, main_cst_10,
    main_v63, main_v64, main_v65, main_call0_cst, main_call0_v0, main_v66, main_v67, main_v68, main_v69, main_v70,
    main_v71, main_call1_cst, main_call1_v0, main_v72, main_v73, main_v74, main_v75, main_v76, main_c_11, main_v77,
    main_v78, main_v79, main_v80, main_cst_12, main_v81, main_v82, main_v83, main_v84, main_cst_13, main_v85,
    main_cst_14, main_v86, main_v87, main_v88, main_cst_15, main_v89, main_v90, main_v91, main_c_16, main_v92,
    main_v93, main_c_17, main_v94, main_v95, main_v96, main_v97, main_v98, main_c_18, main_v99, main_v100,
    main_c_19, main_v101, main_v102, main_v103, main_v104, main_v105, main_v106, main_c_20, main_v107, main_v108,
    main_c_21, main_v109, main_v110, main_v111, main_v112, main_v113, main_v114, main_v115, main_v116, main_cst_22,
    main_v117, main_v118, main_v119, main_v120, main_v121, main_v122, main_v123, main_v124, main_v125, main_v126,
    main_v127, main_v128, main_v129, main_v130, main_v131, main_cst_23, main_v132, main_v133, main_v134,
    main_call2_cst, main_call2_v0, main_v135, main_v136, main_v137, main_v138, main_v139, main_v140,
    main_call3_cst, main_call3_v0, main_call3_cst_0, main_call3_v1, main_call3_v2, main_call3_v3, main_call3_v4,
    main_call3_v5, main_call3_v6, main_call3_cst_1, main_call3_v7, main_call3_v8, main_call3_v9, main_call3_v10,
    main_v141]

/-- Operation by operation, the line writes exactly those buffers. -/
theorem writesR : WritesAre (ops (F := Ideal)) outsR := by
  repeat' first | exact List.Forall₂.nil | apply List.Forall₂.cons
  all_goals rfl

variable (m : (ℓ : Loc nD τ sig) → Buf (Elt Ideal) ℓ) (c : Dev nD)

/-- What a buffer holds after the whole line, from the launch contents of device `c`. -/
abbrev A (b : Ref sig .tc) := after (ops (F := Ideal)) (launchContents m c) (Proc.devRef .tc b)

/-! ## The arguments: no operation writes them -/

theorem st_main_arg0 :
    after (ops (F := Ideal)) (launchContents m c) (Proc.devRef .tc main_arg0) = m ((c.tc : Thread nD τ).loc main_arg0) :=
  after_of_writesAre writesR _ (by decide)
theorem st_main_arg1 :
    after (ops (F := Ideal)) (launchContents m c) (Proc.devRef .tc main_arg1) = m ((c.tc : Thread nD τ).loc main_arg1) :=
  after_of_writesAre writesR _ (by decide)
theorem st_main_arg2 :
    after (ops (F := Ideal)) (launchContents m c) (Proc.devRef .tc main_arg2) = m ((c.tc : Thread nD τ).loc main_arg2) :=
  after_of_writesAre writesR _ (by decide)
theorem st_main_arg3 :
    after (ops (F := Ideal)) (launchContents m c) (Proc.devRef .tc main_arg3) = m ((c.tc : Thread nD τ).loc main_arg3) :=
  after_of_writesAre writesR _ (by decide)
theorem st_main_arg4 :
    after (ops (F := Ideal)) (launchContents m c) (Proc.devRef .tc main_arg4) = m ((c.tc : Thread nD τ).loc main_arg4) :=
  after_of_writesAre writesR _ (by decide)
theorem st_main_arg5 :
    after (ops (F := Ideal)) (launchContents m c) (Proc.devRef .tc main_arg5) = m ((c.tc : Thread nD τ).loc main_arg5) :=
  after_of_writesAre writesR _ (by decide)
theorem st_main_arg6 :
    after (ops (F := Ideal)) (launchContents m c) (Proc.devRef .tc main_arg6) = m ((c.tc : Thread nD τ).loc main_arg6) :=
  after_of_writesAre writesR _ (by decide)
theorem st_main_arg7 :
    after (ops (F := Ideal)) (launchContents m c) (Proc.devRef .tc main_arg7) = m ((c.tc : Thread nD τ).loc main_arg7) :=
  after_of_writesAre writesR _ (by decide)
theorem st_main_arg8 :
    after (ops (F := Ideal)) (launchContents m c) (Proc.devRef .tc main_arg8) = m ((c.tc : Thread nD τ).loc main_arg8) :=
  after_of_writesAre writesR _ (by decide)
theorem st_main_arg9 :
    after (ops (F := Ideal)) (launchContents m c) (Proc.devRef .tc main_arg9) = m ((c.tc : Thread nD τ).loc main_arg9) :=
  after_of_writesAre writesR _ (by decide)
theorem st_main_arg10 :
    after (ops (F := Ideal)) (launchContents m c) (Proc.devRef .tc main_arg10) = m ((c.tc : Thread nD τ).loc main_arg10) :=
  after_of_writesAre writesR _ (by decide)
theorem st_main_arg11 :
    after (ops (F := Ideal)) (launchContents m c) (Proc.devRef .tc main_arg11) = m ((c.tc : Thread nD τ).loc main_arg11) :=
  after_of_writesAre writesR _ (by decide)

end Cert.ReferenceIdeal.Hand

end
-- ==== Proof.RefRunA.lean ====
/- The stages of the reference program's line of host operations, from the first operation up to the one that writes main_v72: after the whole line, the
   buffer an operation writes holds that operation's stage value of the arguments' launch contents. Each is the same
   argument: the operation's own stage, its operands' stages, and one unfolding of the stage value's definition. -/
import proofs.«147570_j43654047596706_2_alg».proof.Proof.RefRun0

noncomputable section

namespace Cert.ReferenceIdeal.Hand

open Cert.ReferenceIdeal Cert.ReferenceIdeal.Gen Cert.ReferenceIdeal.Read Cert.ReferenceIdeal.Value Idealize.ShloMosaic
  Idealize.ShloMosaic.TcCoe Idealize.SL.Sem Idealize.ShloMosaic.StableHlo Cert.LibLine

variable (m : (ℓ : Loc nD τ sig) → Buf (Elt Ideal) ℓ) (c : Dev nD)

theorem st_main_v0 :
    after (ops (F := Ideal)) (launchContents m c) (Proc.devRef .tc main_v0)
      = val_main_v0 (F := Ideal) (m ((c.tc : Thread nD τ).loc main_arg1)) :=
  (stage_unary writesR 0 main_arg1 main_v0 _ rfl (by decide) (by decide) (launchContents m c)).trans
    (by rw [st_main_arg1 m c]; rfl)

theorem st_main_v1 :
    after (ops (F := Ideal)) (launchContents m c) (Proc.devRef .tc main_v1)
      = val_main_v1 (F := Ideal) (m ((c.tc : Thread nD τ).loc main_arg1)) :=
  (stage_reshape writesR 1 main_v0 main_v1 _ _ rfl (by decide) (by decide) (launchContents m c)).trans
    (by rw [st_main_v0 m c]; rfl)

theorem st_main_v2 :
    after (ops (F := Ideal)) (launchContents m c) (Proc.devRef .tc main_v2)
      = val_main_v2 (F := Ideal) (m ((c.tc : Thread nD τ).loc main_arg1)) :=
  (stage_unary writesR 2 main_arg1 main_v2 _ rfl (by decide) (by decide) (launchContents m c)).trans
    (by rw [st_main_arg1 m c]; rfl)

theorem st_main_v3 :
    after (ops (F := Ideal)) (launchContents m c) (Proc.devRef .tc main_v3)
      = val_main_v3 (F := Ideal) (m ((c.tc : Thread nD τ).loc main_arg1)) :=
  (stage_reshape writesR 3 main_v2 main_v3 _ _ rfl (by decide) (by decide) (launchContents m c)).trans
    (by rw [st_main_v2 m c]; rfl)

theorem st_main_v4 :
    after (ops (F := Ideal)) (launchContents m c) (Proc.devRef .tc main_v4)
      = val_main_v4 (F := Ideal) (m ((c.tc : Thread nD τ).loc main_arg2)) :=
  (stage_unary writesR 4 main_arg2 main_v4 _ rfl (by decide) (by decide) (launchContents m c)).trans
    (by rw [st_main_arg2 m c]; rfl)

theorem st_main_v5 :
    after (ops (F := Ideal)) (launchContents m c) (Proc.devRef .tc main_v5)
      = val_main_v5 (F := Ideal) (m ((c.tc : Thread nD τ).loc main_arg2)) :=
  (stage_binary writesR 5 main_arg2 main_v4 main_v5 _ rfl (by decide) (by decide) (by decide) (launchContents m c)).trans
    (by rw [st_main_arg2 m c, st_main_v4 m c]; rfl)

theorem st_main_v6 :
    after (ops (F := Ideal)) (launchContents m c) (Proc.devRef .tc main_v6)
      = val_main_v6 (F := Ideal) :=
  (stage_nullary writesR 6 main_v6 _ rfl (by decide) (launchContents m c)).trans
    (by rfl)

theorem st_main_v7 :
    after (ops (F := Ideal)) (launchContents m c) (Proc.devRef .tc main_v7)
      = val_main_v7 (F := Ideal) :=
  (stage_nullary writesR 7 main_v7 _ rfl (by decide) (launchContents m c)).trans
    (by rfl)

theorem st_main_c :
    after (ops (F := Ideal)) (launchContents m c) (Proc.devRef .tc main_c)
      = val_main_c (F := Ideal) :=
  (stage_nullary writesR 8 main_c _ rfl (by decide) (launchContents m c)).trans
    (by rfl)

theorem st_main_v8 :
    after (ops (F := Ideal)) (launchContents m c) (Proc.devRef .tc main_v8)
      = val_main_v8 (F := Ideal) :=
  (stage_unary writesR 9 main_c main_v8 _ rfl (by decide) (by decide) (launchContents m c)).trans
    (by rw [st_main_c m c]; rfl)

theorem st_main_v9 :
    after (ops (F := Ideal)) (launchContents m c) (Proc.devRef .tc main_v9)
      = val_main_v9 (F := Ideal) :=
  (stage_binary writesR 10 main_v6 main_v8 main_v9 _ rfl (by decide) (by decide) (by decide) (launchContents m c)).trans
    (by rw [st_main_v6 m c, st_main_v8 m c]; rfl)

theorem st_main_v10 :
    after (ops (F := Ideal)) (launchContents m c) (Proc.devRef .tc main_v10)
      = val_main_v10 (F := Ideal) :=
  (stage_binary writesR 11 main_v9 main_v7 main_v10 _ rfl (by decide) (by decide) (by decide) (launchContents m c)).trans
    (by rw [st_main_v9 m c, st_main_v7 m c]; rfl)

theorem st_main_v11 :
    after (ops (F := Ideal)) (launchContents m c) (Proc.devRef .tc main_v11)
      = val_main_v11 (F := Ideal) :=
  (stage_unary writesR 12 main_v10 main_v11 _ rfl (by decide) (by decide) (launchContents m c)).trans
    (by rw [st_main_v10 m c]; rfl)

theorem st_main_cst :
    after (ops (F := Ideal)) (launchContents m c) (Proc.devRef .tc main_cst)
      = val_main_cst (F := Ideal) :=
  (stage_nullary writesR 13 main_cst _ rfl (by decide) (launchContents m c)).trans
    (by rfl)

theorem st_main_v12 :
    after (ops (F := Ideal)) (launchContents m c) (Proc.devRef .tc main_v12)
      = val_main_v12 (F := Ideal) :=
  (stage_unary writesR 14 main_cst main_v12 _ rfl (by decide) (by decide) (launchContents m c)).trans
    (by rw [st_main_cst m c]; rfl)

theorem st_main_v13 :
    after (ops (F := Ideal)) (launchContents m c) (Proc.devRef .tc main_v13)
      = val_main_v13 (F := Ideal) :=
  (stage_binary writesR 15 main_v12 main_v11 main_v13 _ rfl (by decide) (by decide) (by decide) (launchContents m c)).trans
    (by rw [st_main_v12 m c, st_main_v11 m c]; rfl)

theorem st_main_v14 :
    after (ops (F := Ideal)) (launchContents m c) (Proc.devRef .tc main_v14)
      = val_main_v14 (F := Ideal) (m ((c.tc : Thread nD τ).loc main_arg2)) :=
  (stage_binary writesR 16 main_v5 main_v13 main_v14 _ rfl (by decide) (by decide) (by decide) (launchContents m c)).trans
    (by rw [st_main_v5 m c, st_main_v13 m c]; rfl)

theorem st_main_v15 :
    after (ops (F := Ideal)) (launchContents m c) (Proc.devRef .tc main_v15)
      = val_main_v15 (F := Ideal) (m ((c.tc : Thread nD τ).loc main_arg0)) (m ((c.tc : Thread nD τ).loc main_arg4)) :=
  (stage_binary writesR 17 main_arg0 main_arg4 main_v15 _ rfl (by decide) (by decide) (by decide) (launchContents m c)).trans
    (by rw [st_main_arg0 m c, st_main_arg4 m c]; rfl)

theorem st_main_cst_0 :
    after (ops (F := Ideal)) (launchContents m c) (Proc.devRef .tc main_cst_0)
      = val_main_cst_0 (F := Ideal) :=
  (stage_nullary writesR 18 main_cst_0 _ rfl (by decide) (launchContents m c)).trans
    (by rfl)

theorem st_main_v16 :
    after (ops (F := Ideal)) (launchContents m c) (Proc.devRef .tc main_v16)
      = val_main_v16 (F := Ideal) :=
  (stage_unary writesR 19 main_cst_0 main_v16 _ rfl (by decide) (by decide) (launchContents m c)).trans
    (by rw [st_main_cst_0 m c]; rfl)

theorem st_main_cst_1 :
    after (ops (F := Ideal)) (launchContents m c) (Proc.devRef .tc main_cst_1)
      = val_main_cst_1 (F := Ideal) :=
  (stage_nullary writesR 20 main_cst_1 _ rfl (by decide) (launchContents m c)).trans
    (by rfl)

theorem st_main_v17 :
    after (ops (F := Ideal)) (launchContents m c) (Proc.devRef .tc main_v17)
      = val_main_v17 (F := Ideal) :=
  (stage_unary writesR 21 main_cst_1 main_v17 _ rfl (by decide) (by decide) (launchContents m c)).trans
    (by rw [st_main_cst_1 m c]; rfl)

theorem st_main_v18 :
    after (ops (F := Ideal)) (launchContents m c) (Proc.devRef .tc main_v18)
      = val_main_v18 (F := Ideal) (m ((c.tc : Thread nD τ).loc main_arg1)) :=
  (stage_unary writesR 22 main_v3 main_v18 _ rfl (by decide) (by decide) (launchContents m c)).trans
    (by rw [st_main_v3 m c]; rfl)

theorem st_main_v19 :
    after (ops (F := Ideal)) (launchContents m c) (Proc.devRef .tc main_v19)
      = val_main_v19 (F := Ideal) (m ((c.tc : Thread nD τ).loc main_arg1)) :=
  (stage_ternary writesR 23 main_v17 main_v18 main_v16 main_v19 _ rfl (by decide) (by decide) (by decide) (by decide) (launchContents m c)).trans
    (by rw [st_main_v17 m c, st_main_v18 m c, st_main_v16 m c]; rfl)

theorem st_main_cst_2 :
    after (ops (F := Ideal)) (launchContents m c) (Proc.devRef .tc main_cst_2)
      = val_main_cst_2 (F := Ideal) :=
  (stage_nullary writesR 24 main_cst_2 _ rfl (by decide) (launchContents m c)).trans
    (by rfl)

theorem st_main_v20 :
    after (ops (F := Ideal)) (launchContents m c) (Proc.devRef .tc main_v20)
      = val_main_v20 (F := Ideal) :=
  (stage_unary writesR 25 main_cst_2 main_v20 _ rfl (by decide) (by decide) (launchContents m c)).trans
    (by rw [st_main_cst_2 m c]; rfl)

theorem st_main_v21 :
    after (ops (F := Ideal)) (launchContents m c) (Proc.devRef .tc main_v21)
      = val_main_v21 (F := Ideal) (m ((c.tc : Thread nD τ).loc main_arg1)) :=
  (stage_binary writesR 26 main_v19 main_v20 main_v21 _ rfl (by decide) (by decide) (by decide) (launchContents m c)).trans
    (by rw [st_main_v19 m c, st_main_v20 m c]; rfl)

theorem st_main_v22 :
    after (ops (F := Ideal)) (launchContents m c) (Proc.devRef .tc main_v22)
      = val_main_v22 (F := Ideal) (m ((c.tc : Thread nD τ).loc main_arg1)) :=
  (stage_unary writesR 27 main_v21 main_v22 _ rfl (by decide) (by decide) (launchContents m c)).trans
    (by rw [st_main_v21 m c]; rfl)

theorem st_main_c_3 :
    after (ops (F := Ideal)) (launchContents m c) (Proc.devRef .tc main_c_3)
      = val_main_c_3 (F := Ideal) :=
  (stage_nullary writesR 28 main_c_3 _ rfl (by decide) (launchContents m c)).trans
    (by rfl)

theorem st_main_v23 :
    after (ops (F := Ideal)) (launchContents m c) (Proc.devRef .tc main_v23)
      = val_main_v23 (F := Ideal) :=
  (stage_unary writesR 29 main_c_3 main_v23 _ rfl (by decide) (by decide) (launchContents m c)).trans
    (by rw [st_main_c_3 m c]; rfl)

theorem st_main_v24 :
    after (ops (F := Ideal)) (launchContents m c) (Proc.devRef .tc main_v24)
      = val_main_v24 (F := Ideal) (m ((c.tc : Thread nD τ).loc main_arg1)) :=
  (stage_binary writesR 30 main_v1 main_v23 main_v24 _ rfl (by decide) (by decide) (by decide) (launchContents m c)).trans
    (by rw [st_main_v1 m c, st_main_v23 m c]; rfl)

theorem st_main_c_4 :
    after (ops (F := Ideal)) (launchContents m c) (Proc.devRef .tc main_c_4)
      = val_main_c_4 (F := Ideal) :=
  (stage_nullary writesR 31 main_c_4 _ rfl (by decide) (launchContents m c)).trans
    (by rfl)

theorem st_main_v25 :
    after (ops (F := Ideal)) (launchContents m c) (Proc.devRef .tc main_v25)
      = val_main_v25 (F := Ideal) :=
  (stage_unary writesR 32 main_c_4 main_v25 _ rfl (by decide) (by decide) (launchContents m c)).trans
    (by rw [st_main_c_4 m c]; rfl)

theorem st_main_v26 :
    after (ops (F := Ideal)) (launchContents m c) (Proc.devRef .tc main_v26)
      = val_main_v26 (F := Ideal) (m ((c.tc : Thread nD τ).loc main_arg1)) :=
  (stage_binary writesR 33 main_v1 main_v25 main_v26 _ rfl (by decide) (by decide) (by decide) (launchContents m c)).trans
    (by rw [st_main_v1 m c, st_main_v25 m c]; rfl)

theorem st_main_v27 :
    after (ops (F := Ideal)) (launchContents m c) (Proc.devRef .tc main_v27)
      = val_main_v27 (F := Ideal) (m ((c.tc : Thread nD τ).loc main_arg1)) :=
  (stage_ternary writesR 34 main_v24 main_v26 main_v1 main_v27 _ rfl (by decide) (by decide) (by decide) (by decide) (launchContents m c)).trans
    (by rw [st_main_v24 m c, st_main_v26 m c, st_main_v1 m c]; rfl)

theorem st_main_v28 :
    after (ops (F := Ideal)) (launchContents m c) (Proc.devRef .tc main_v28)
      = val_main_v28 (F := Ideal) (m ((c.tc : Thread nD τ).loc main_arg1)) :=
  (stage_unary writesR 35 main_v27 main_v28 _ rfl (by decide) (by decide) (launchContents m c)).trans
    (by rw [st_main_v27 m c]; rfl)

theorem st_main_v29 :
    after (ops (F := Ideal)) (launchContents m c) (Proc.devRef .tc main_v29)
      = val_main_v29 (F := Ideal) (m ((c.tc : Thread nD τ).loc main_arg1)) :=
  (stage_binary writesR 36 main_v22 main_v28 main_v29 _ rfl (by decide) (by decide) (by decide) (launchContents m c)).trans
    (by rw [st_main_v22 m c, st_main_v28 m c]; rfl)

theorem st_main_c_5 :
    after (ops (F := Ideal)) (launchContents m c) (Proc.devRef .tc main_c_5)
      = val_main_c_5 (F := Ideal) :=
  (stage_nullary writesR 37 main_c_5 _ rfl (by decide) (launchContents m c)).trans
    (by rfl)

theorem st_main_v30 :
    after (ops (F := Ideal)) (launchContents m c) (Proc.devRef .tc main_v30)
      = val_main_v30 (F := Ideal) :=
  (stage_unary writesR 38 main_c_5 main_v30 _ rfl (by decide) (by decide) (launchContents m c)).trans
    (by rw [st_main_c_5 m c]; rfl)

theorem st_main_v31 :
    after (ops (F := Ideal)) (launchContents m c) (Proc.devRef .tc main_v31)
      = val_main_v31 (F := Ideal) (m ((c.tc : Thread nD τ).loc main_arg1)) :=
  (stage_binary writesR 39 main_v3 main_v30 main_v31 _ rfl (by decide) (by decide) (by decide) (launchContents m c)).trans
    (by rw [st_main_v3 m c, st_main_v30 m c]; rfl)

theorem st_main_c_6 :
    after (ops (F := Ideal)) (launchContents m c) (Proc.devRef .tc main_c_6)
      = val_main_c_6 (F := Ideal) :=
  (stage_nullary writesR 40 main_c_6 _ rfl (by decide) (launchContents m c)).trans
    (by rfl)

theorem st_main_v32 :
    after (ops (F := Ideal)) (launchContents m c) (Proc.devRef .tc main_v32)
      = val_main_v32 (F := Ideal) :=
  (stage_unary writesR 41 main_c_6 main_v32 _ rfl (by decide) (by decide) (launchContents m c)).trans
    (by rw [st_main_c_6 m c]; rfl)

theorem st_main_v33 :
    after (ops (F := Ideal)) (launchContents m c) (Proc.devRef .tc main_v33)
      = val_main_v33 (F := Ideal) (m ((c.tc : Thread nD τ).loc main_arg1)) :=
  (stage_binary writesR 42 main_v3 main_v32 main_v33 _ rfl (by decide) (by decide) (by decide) (launchContents m c)).trans
    (by rw [st_main_v3 m c, st_main_v32 m c]; rfl)

theorem st_main_v34 :
    after (ops (F := Ideal)) (launchContents m c) (Proc.devRef .tc main_v34)
      = val_main_v34 (F := Ideal) (m ((c.tc : Thread nD τ).loc main_arg1)) :=
  (stage_ternary writesR 43 main_v31 main_v33 main_v3 main_v34 _ rfl (by decide) (by decide) (by decide) (by decide) (launchContents m c)).trans
    (by rw [st_main_v31 m c, st_main_v33 m c, st_main_v3 m c]; rfl)

theorem st_main_v35 :
    after (ops (F := Ideal)) (launchContents m c) (Proc.devRef .tc main_v35)
      = val_main_v35 (F := Ideal) (m ((c.tc : Thread nD τ).loc main_arg1)) :=
  (stage_unary writesR 44 main_v34 main_v35 _ rfl (by decide) (by decide) (launchContents m c)).trans
    (by rw [st_main_v34 m c]; rfl)

theorem st_main_v36 :
    after (ops (F := Ideal)) (launchContents m c) (Proc.devRef .tc main_v36)
      = val_main_v36 (F := Ideal) (m ((c.tc : Thread nD τ).loc main_arg1)) :=
  (stage_binary writesR 45 main_v22 main_v35 main_v36 _ rfl (by decide) (by decide) (by decide) (launchContents m c)).trans
    (by rw [st_main_v22 m c, st_main_v35 m c]; rfl)

theorem st_main_v37 :
    after (ops (F := Ideal)) (launchContents m c) (Proc.devRef .tc main_v37)
      = val_main_v37 (F := Ideal) (m ((c.tc : Thread nD τ).loc main_arg1)) :=
  (stage_binary writesR 46 main_v29 main_v36 main_v37 _ rfl (by decide) (by decide) (by decide) (launchContents m c)).trans
    (by rw [st_main_v29 m c, st_main_v36 m c]; rfl)

theorem st_main_c_7 :
    after (ops (F := Ideal)) (launchContents m c) (Proc.devRef .tc main_c_7)
      = val_main_c_7 (F := Ideal) :=
  (stage_nullary writesR 47 main_c_7 _ rfl (by decide) (launchContents m c)).trans
    (by rfl)

theorem st_main_v38 :
    after (ops (F := Ideal)) (launchContents m c) (Proc.devRef .tc main_v38)
      = val_main_v38 (F := Ideal) :=
  (stage_unary writesR 48 main_c_7 main_v38 _ rfl (by decide) (by decide) (launchContents m c)).trans
    (by rw [st_main_c_7 m c]; rfl)

theorem st_main_v39 :
    after (ops (F := Ideal)) (launchContents m c) (Proc.devRef .tc main_v39)
      = val_main_v39 (F := Ideal) (m ((c.tc : Thread nD τ).loc main_arg1)) :=
  (stage_binary writesR 49 main_v1 main_v38 main_v39 _ rfl (by decide) (by decide) (by decide) (launchContents m c)).trans
    (by rw [st_main_v1 m c, st_main_v38 m c]; rfl)

theorem st_main_c_8 :
    after (ops (F := Ideal)) (launchContents m c) (Proc.devRef .tc main_c_8)
      = val_main_c_8 (F := Ideal) :=
  (stage_nullary writesR 50 main_c_8 _ rfl (by decide) (launchContents m c)).trans
    (by rfl)

theorem st_main_v40 :
    after (ops (F := Ideal)) (launchContents m c) (Proc.devRef .tc main_v40)
      = val_main_v40 (F := Ideal) :=
  (stage_unary writesR 51 main_c_8 main_v40 _ rfl (by decide) (by decide) (launchContents m c)).trans
    (by rw [st_main_c_8 m c]; rfl)

theorem st_main_v41 :
    after (ops (F := Ideal)) (launchContents m c) (Proc.devRef .tc main_v41)
      = val_main_v41 (F := Ideal) (m ((c.tc : Thread nD τ).loc main_arg1)) :=
  (stage_binary writesR 52 main_v1 main_v40 main_v41 _ rfl (by decide) (by decide) (by decide) (launchContents m c)).trans
    (by rw [st_main_v1 m c, st_main_v40 m c]; rfl)

theorem st_main_v42 :
    after (ops (F := Ideal)) (launchContents m c) (Proc.devRef .tc main_v42)
      = val_main_v42 (F := Ideal) (m ((c.tc : Thread nD τ).loc main_arg1)) :=
  (stage_ternary writesR 53 main_v39 main_v41 main_v1 main_v42 _ rfl (by decide) (by decide) (by decide) (by decide) (launchContents m c)).trans
    (by rw [st_main_v39 m c, st_main_v41 m c, st_main_v1 m c]; rfl)

theorem st_main_v43 :
    after (ops (F := Ideal)) (launchContents m c) (Proc.devRef .tc main_v43)
      = val_main_v43 (F := Ideal) (m ((c.tc : Thread nD τ).loc main_arg1)) :=
  (stage_unary writesR 54 main_v42 main_v43 _ rfl (by decide) (by decide) (launchContents m c)).trans
    (by rw [st_main_v42 m c]; rfl)

theorem st_main_v44 :
    after (ops (F := Ideal)) (launchContents m c) (Proc.devRef .tc main_v44)
      = val_main_v44 (F := Ideal) (m ((c.tc : Thread nD τ).loc main_arg0)) (m ((c.tc : Thread nD τ).loc main_arg1)) (m ((c.tc : Thread nD τ).loc main_arg4)) :=
  (stage_binary writesR 55 main_v15 main_v43 main_v44 _ rfl (by decide) (by decide) (by decide) (launchContents m c)).trans
    (by rw [st_main_v15 m c, st_main_v43 m c]; rfl)

theorem st_main_v45 :
    after (ops (F := Ideal)) (launchContents m c) (Proc.devRef .tc main_v45)
      = val_main_v45 (F := Ideal) (m ((c.tc : Thread nD τ).loc main_arg1)) :=
  (stage_unary writesR 56 main_v37 main_v45 _ rfl (by decide) (by decide) (launchContents m c)).trans
    (by rw [st_main_v37 m c]; rfl)

theorem st_main_v46 :
    after (ops (F := Ideal)) (launchContents m c) (Proc.devRef .tc main_v46)
      = val_main_v46 (F := Ideal) (m ((c.tc : Thread nD τ).loc main_arg1)) :=
  (stage_unary writesR 57 main_v45 main_v46 _ rfl (by decide) (by decide) (launchContents m c)).trans
    (by rw [st_main_v45 m c]; rfl)

theorem st_main_v47 :
    after (ops (F := Ideal)) (launchContents m c) (Proc.devRef .tc main_v47)
      = val_main_v47 (F := Ideal) (m ((c.tc : Thread nD τ).loc main_arg0)) (m ((c.tc : Thread nD τ).loc main_arg1)) (m ((c.tc : Thread nD τ).loc main_arg4)) :=
  (stage_binary writesR 58 main_v44 main_v46 main_v47 _ rfl (by decide) (by decide) (by decide) (launchContents m c)).trans
    (by rw [st_main_v44 m c, st_main_v46 m c]; rfl)

theorem st_main_cst_9 :
    after (ops (F := Ideal)) (launchContents m c) (Proc.devRef .tc main_cst_9)
      = val_main_cst_9 (F := Ideal) :=
  (stage_nullary writesR 59 main_cst_9 _ rfl (by decide) (launchContents m c)).trans
    (by rfl)

theorem st_main_v48 :
    after (ops (F := Ideal)) (launchContents m c) (Proc.devRef .tc main_v48)
      = val_main_v48 (F := Ideal) :=
  (stage_unary writesR 60 main_cst_9 main_v48 _ rfl (by decide) (by decide) (launchContents m c)).trans
    (by rw [st_main_cst_9 m c]; rfl)

theorem st_main_v49 :
    after (ops (F := Ideal)) (launchContents m c) (Proc.devRef .tc main_v49)
      = val_main_v49 (F := Ideal) (m ((c.tc : Thread nD τ).loc main_arg1)) :=
  (stage_unary writesR 61 main_v3 main_v49 _ rfl (by decide) (by decide) (launchContents m c)).trans
    (by rw [st_main_v3 m c]; rfl)

theorem st_main_v50 :
    after (ops (F := Ideal)) (launchContents m c) (Proc.devRef .tc main_v50)
      = val_main_v50 (F := Ideal) (m ((c.tc : Thread nD τ).loc main_arg0)) (m ((c.tc : Thread nD τ).loc main_arg1)) (m ((c.tc : Thread nD τ).loc main_arg4)) :=
  (stage_ternary writesR 62 main_v48 main_v49 main_v47 main_v50 _ rfl (by decide) (by decide) (by decide) (by decide) (launchContents m c)).trans
    (by rw [st_main_v48 m c, st_main_v49 m c, st_main_v47 m c]; rfl)

theorem st_main_v51 :
    after (ops (F := Ideal)) (launchContents m c) (Proc.devRef .tc main_v51)
      = val_main_v51 (F := Ideal) (m ((c.tc : Thread nD τ).loc main_arg1)) :=
  (stage_binary writesR 63 main_v22 main_v22 main_v51 _ rfl (by decide) (by decide) (by decide) (launchContents m c)).trans
    (by rw [st_main_v22 m c]; rfl)

theorem st_main_v52 :
    after (ops (F := Ideal)) (launchContents m c) (Proc.devRef .tc main_v52)
      = val_main_v52 (F := Ideal) (m ((c.tc : Thread nD τ).loc main_arg1)) :=
  (stage_unary writesR 64 main_v51 main_v52 _ rfl (by decide) (by decide) (launchContents m c)).trans
    (by rw [st_main_v51 m c]; rfl)

theorem st_main_v53 :
    after (ops (F := Ideal)) (launchContents m c) (Proc.devRef .tc main_v53)
      = val_main_v53 (F := Ideal) (m ((c.tc : Thread nD τ).loc main_arg1)) :=
  (stage_unary writesR 65 main_v52 main_v53 _ rfl (by decide) (by decide) (launchContents m c)).trans
    (by rw [st_main_v52 m c]; rfl)

theorem st_main_v54 :
    after (ops (F := Ideal)) (launchContents m c) (Proc.devRef .tc main_v54)
      = val_main_v54 (F := Ideal) (m ((c.tc : Thread nD τ).loc main_arg0)) (m ((c.tc : Thread nD τ).loc main_arg1)) (m ((c.tc : Thread nD τ).loc main_arg4)) :=
  (stage_binary writesR 66 main_v15 main_v53 main_v54 _ rfl (by decide) (by decide) (by decide) (launchContents m c)).trans
    (by rw [st_main_v15 m c, st_main_v53 m c]; rfl)

theorem st_main_v55 :
    after (ops (F := Ideal)) (launchContents m c) (Proc.devRef .tc main_v55)
      = val_main_v55 (F := Ideal) (m ((c.tc : Thread nD τ).loc main_arg0)) (m ((c.tc : Thread nD τ).loc main_arg1)) (m ((c.tc : Thread nD τ).loc main_arg4)) :=
  (stage_binary writesR 67 main_v50 main_v54 main_v55 _ rfl (by decide) (by decide) (by decide) (launchContents m c)).trans
    (by rw [st_main_v50 m c, st_main_v54 m c]; rfl)

theorem st_main_v56 :
    after (ops (F := Ideal)) (launchContents m c) (Proc.devRef .tc main_v56)
      = val_main_v56 (F := Ideal) (m ((c.tc : Thread nD τ).loc main_arg2)) :=
  (stage_unary writesR 68 main_v14 main_v56 _ rfl (by decide) (by decide) (launchContents m c)).trans
    (by rw [st_main_v14 m c]; rfl)

theorem st_main_v57 :
    after (ops (F := Ideal)) (launchContents m c) (Proc.devRef .tc main_v57)
      = val_main_v57 (F := Ideal) (m ((c.tc : Thread nD τ).loc main_arg0)) (m ((c.tc : Thread nD τ).loc main_arg2)) :=
  (stage_binary writesR 69 main_arg0 main_v56 main_v57 _ rfl (by decide) (by decide) (by decide) (launchContents m c)).trans
    (by rw [st_main_arg0 m c, st_main_v56 m c]; rfl)

theorem st_main_v58 :
    after (ops (F := Ideal)) (launchContents m c) (Proc.devRef .tc main_v58)
      = val_main_v58 (F := Ideal) (m ((c.tc : Thread nD τ).loc main_arg0)) (m ((c.tc : Thread nD τ).loc main_arg1)) (m ((c.tc : Thread nD τ).loc main_arg2)) (m ((c.tc : Thread nD τ).loc main_arg4)) :=
  (stage_binary writesR 70 main_v57 main_v55 main_v58 _ rfl (by decide) (by decide) (by decide) (launchContents m c)).trans
    (by rw [st_main_v57 m c, st_main_v55 m c]; rfl)

theorem st_main_v59 :
    after (ops (F := Ideal)) (launchContents m c) (Proc.devRef .tc main_v59)
      = val_main_v59 (F := Ideal) (m ((c.tc : Thread nD τ).loc main_arg3)) :=
  (stage_unary writesR 71 main_arg3 main_v59 _ rfl (by decide) (by decide) (launchContents m c)).trans
    (by rw [st_main_arg3 m c]; rfl)

theorem st_main_v60 :
    after (ops (F := Ideal)) (launchContents m c) (Proc.devRef .tc main_v60)
      = val_main_v60 (F := Ideal) (m ((c.tc : Thread nD τ).loc main_arg3)) :=
  (stage_unary writesR 72 main_v59 main_v60 _ rfl (by decide) (by decide) (launchContents m c)).trans
    (by rw [st_main_v59 m c]; rfl)

theorem st_main_v61 :
    after (ops (F := Ideal)) (launchContents m c) (Proc.devRef .tc main_v61)
      = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (stage_binary writesR 73 main_v58 main_v60 main_v61 _ rfl (by decide) (by decide) (by decide) (launchContents m c)).trans
    (by rw [st_main_v58 m c, st_main_v60 m c]; rfl)

theorem st_main_v62 :
    after (ops (F := Ideal)) (launchContents m c) (Proc.devRef .tc main_v62)
      = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (stage_unary writesR 74 main_v61 main_v62 _ rfl (by decide) (by decide) (launchContents m c)).trans
    (by rw [st_main_v61 m c]; rfl)

theorem st_main_cst_10 :
    after (ops (F := Ideal)) (launchContents m c) (Proc.devRef .tc main_cst_10)
      = val_main_cst_10 (F := Ideal) :=
  (stage_nullary writesR 75 main_cst_10 _ rfl (by decide) (launchContents m c)).trans
    (by rfl)

theorem st_main_v63 :
    after (ops (F := Ideal)) (launchContents m c) (Proc.devRef .tc main_v63)
      = val_main_v63 (F := Ideal) :=
  (stage_unary writesR 76 main_cst_10 main_v63 _ rfl (by decide) (by decide) (launchContents m c)).trans
    (by rw [st_main_cst_10 m c]; rfl)

theorem st_main_v64 :
    after (ops (F := Ideal)) (launchContents m c) (Proc.devRef .tc main_v64)
      = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (stage_binary writesR 77 main_v63 main_v62 main_v64 _ rfl (by decide) (by decide) (by decide) (launchContents m c)).trans
    (by rw [st_main_v63 m c, st_main_v62 m c]; rfl)

theorem st_main_v65 :
    after (ops (F := Ideal)) (launchContents m c) (Proc.devRef .tc main_v65)
      = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (stage_binary writesR 78 main_arg0 main_v64 main_v65 _ rfl (by decide) (by decide) (by decide) (launchContents m c)).trans
    (by rw [st_main_arg0 m c, st_main_v64 m c]; rfl)

theorem st_main_call0_cst :
    after (ops (F := Ideal)) (launchContents m c) (Proc.devRef .tc main_call0_cst)
      = val_main_call0_cst (F := Ideal) :=
  (stage_tnullary writesR 79 main_call0_cst _ rfl (by decide) (launchContents m c)).trans
    (by rfl)

theorem st_main_call0_v0 :
    after (ops (F := Ideal)) (launchContents m c) (Proc.devRef .tc main_call0_v0)
      = val_main_call0_v0 (F := Ideal) :=
  (stage_tunary writesR 80 main_call0_cst main_call0_v0 _ rfl (by decide) (by decide) (launchContents m c)).trans
    (by rw [st_main_call0_cst m c]; rfl)

theorem st_main_v66 :
    after (ops (F := Ideal)) (launchContents m c) (Proc.devRef .tc main_v66)
      = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (stage_tbinary writesR 81 main_v65 main_call0_v0 main_v66 _ rfl (by decide) (by decide) (by decide) (launchContents m c)).trans
    (by rw [st_main_v65 m c, st_main_call0_v0 m c]; rfl)

theorem st_main_v67 :
    after (ops (F := Ideal)) (launchContents m c) (Proc.devRef .tc main_v67)
      = val_main_v67 (F := Ideal) (m ((c.tc : Thread nD τ).loc main_arg8)) :=
  (stage_unary writesR 82 main_arg8 main_v67 _ rfl (by decide) (by decide) (launchContents m c)).trans
    (by rw [st_main_arg8 m c]; rfl)

theorem st_main_v68 :
    after (ops (F := Ideal)) (launchContents m c) (Proc.devRef .tc main_v68)
      = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) :=
  (stage_binary writesR 83 main_v66 main_v67 main_v68 _ rfl (by decide) (by decide) (by decide) (launchContents m c)).trans
    (by rw [st_main_v66 m c, st_main_v67 m c]; rfl)

theorem st_main_v69 :
    after (ops (F := Ideal)) (launchContents m c) (Proc.devRef .tc main_v69)
      = val_main_v69 (F := Ideal) (m ((c.tc : Thread nD τ).loc main_arg9)) :=
  (stage_unary writesR 84 main_arg9 main_v69 _ rfl (by decide) (by decide) (launchContents m c)).trans
    (by rw [st_main_arg9 m c]; rfl)

theorem st_main_v70 :
    after (ops (F := Ideal)) (launchContents m c) (Proc.devRef .tc main_v70)
      = val_main_v70 (F := Ideal) (m ((c.tc : Thread nD τ).loc main_arg9)) :=
  (stage_unary writesR 85 main_v69 main_v70 _ rfl (by decide) (by decide) (launchContents m c)).trans
    (by rw [st_main_v69 m c]; rfl)

theorem st_main_v71 :
    after (ops (F := Ideal)) (launchContents m c) (Proc.devRef .tc main_v71)
      = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) :=
  (stage_binary writesR 86 main_v68 main_v70 main_v71 _ rfl (by decide) (by decide) (by decide) (launchContents m c)).trans
    (by rw [st_main_v68 m c, st_main_v70 m c]; rfl)

theorem st_main_call1_cst :
    after (ops (F := Ideal)) (launchContents m c) (Proc.devRef .tc main_call1_cst)
      = val_main_call1_cst (F := Ideal) :=
  (stage_tnullary writesR 87 main_call1_cst _ rfl (by decide) (launchContents m c)).trans
    (by rfl)

theorem st_main_call1_v0 :
    after (ops (F := Ideal)) (launchContents m c) (Proc.devRef .tc main_call1_v0)
      = val_main_call1_v0 (F := Ideal) :=
  (stage_tunary writesR 88 main_call1_cst main_call1_v0 _ rfl (by decide) (by decide) (launchContents m c)).trans
    (by rw [st_main_call1_cst m c]; rfl)

theorem st_main_v72 :
    after (ops (F := Ideal)) (launchContents m c) (Proc.devRef .tc main_v72)
      = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) :=
  (stage_tbinary writesR 89 main_v71 main_call1_v0 main_v72 _ rfl (by decide) (by decide) (by decide) (launchContents m c)).trans
    (by rw [st_main_v71 m c, st_main_call1_v0 m c]; rfl)

end Cert.ReferenceIdeal.Hand

end
-- ==== Proof.RefRunB.lean ====
/- The second half of the reference program's straight line of 188 host operations, and its run.  After the whole line
   each buffer the line writes holds the folded stage value of the arguments (one theorem per operation, here from the
   second convolution's weights to the logarithm of the softmax); with the library's run of a straight line this gives,
   in every final state, the two results as folded stage values of the launch contents and the arguments unchanged. -/
import proofs.«147570_j43654047596706_2_alg».proof.Proof.RefRunA

noncomputable section

namespace Cert.ReferenceIdeal.Hand

open Cert.ReferenceIdeal Cert.ReferenceIdeal.Gen Cert.ReferenceIdeal.Read Cert.ReferenceIdeal.Value Idealize.ShloMosaic
  Idealize.ShloMosaic.TcCoe Idealize.SL.Sem Idealize.ShloMosaic.StableHlo Cert.LibLine

variable (m : (ℓ : Loc nD τ sig) → Buf (Elt Ideal) ℓ) (c : Dev nD)

/-- A function of three arguments takes equal arguments to equal values. -/
theorem congrArg3 {α β γ δ : Sort _} (f : α → β → γ → δ) {a a' : α} {b b' : β} {d d' : γ}
    (ha : a = a') (hb : b = b') (hd : d = d') : f a b d = f a' b' d' := by
  subst ha hb hd; rfl

/-! # The stages of the second half of the line

One theorem per operation, in the program's order: after the whole line, the buffer the operation writes holds the
folded stage value of the arguments.  Each is the stage lemma of the operation's kind at its position — the buffer
holds the operation's function of what its operands hold after the whole line — followed by the operands' own stage
theorems under that function; the folded value is that function of the operands' folded values by definition. -/

theorem st_main_v73 :
    after (ops (F := Ideal)) (launchContents m c) (Proc.devRef .tc main_v73) = val_main_v73 (F := Ideal) (m ((c.tc : Thread nD τ).loc main_arg5)) :=
  (stage_unary writesR 90 main_arg5 main_v73
      ((transpose S128x128 [1, 0] · transposes_S128x128_S128x128_1_0) : (⟨S128x128, .f32⟩ : BufTy).Contents (Elt Ideal) → (⟨S128x128, .f32⟩ : BufTy).Contents (Elt Ideal))
      rfl (by decide) (by decide) (launchContents m c)).trans
    (congrArg ((transpose S128x128 [1, 0] · transposes_S128x128_S128x128_1_0) : (⟨S128x128, .f32⟩ : BufTy).Contents (Elt Ideal) → (⟨S128x128, .f32⟩ : BufTy).Contents (Elt Ideal))
      (st_main_arg5 m c))

theorem st_main_v74 :
    after (ops (F := Ideal)) (launchContents m c) (Proc.devRef .tc main_v74) = val_main_v74 (F := Ideal) (m ((c.tc : Thread nD τ).loc main_arg5)) :=
  (stage_binary writesR 91 main_arg5 main_v73 main_v74
      (subf (F := Ideal) : (⟨S128x128, .f32⟩ : BufTy).Contents (Elt Ideal) → (⟨S128x128, .f32⟩ : BufTy).Contents (Elt Ideal) → (⟨S128x128, .f32⟩ : BufTy).Contents (Elt Ideal))
      rfl (by decide) (by decide) (by decide) (launchContents m c)).trans
    (congrArg₂ (subf (F := Ideal) : (⟨S128x128, .f32⟩ : BufTy).Contents (Elt Ideal) → (⟨S128x128, .f32⟩ : BufTy).Contents (Elt Ideal) → (⟨S128x128, .f32⟩ : BufTy).Contents (Elt Ideal))
      (st_main_arg5 m c) (st_main_v73 m c))

theorem st_main_v75 :
    after (ops (F := Ideal)) (launchContents m c) (Proc.devRef .tc main_v75) = val_main_v75 (F := Ideal) :=
  stage_nullary writesR 92 main_v75
      ((iotaInDim S128x128 32 0) : (⟨S128x128, .i32⟩ : BufTy).Contents (Elt Ideal))
      rfl (by decide) (launchContents m c)

theorem st_main_v76 :
    after (ops (F := Ideal)) (launchContents m c) (Proc.devRef .tc main_v76) = val_main_v76 (F := Ideal) :=
  stage_nullary writesR 93 main_v76
      ((iotaInDim S128x128 32 1) : (⟨S128x128, .i32⟩ : BufTy).Contents (Elt Ideal))
      rfl (by decide) (launchContents m c)

theorem st_main_c_11 :
    after (ops (F := Ideal)) (launchContents m c) (Proc.devRef .tc main_c_11) = val_main_c_11 (F := Ideal) :=
  stage_nullary writesR 94 main_c_11
      ((constantI S_ 32 0#32) : (⟨S_, .i32⟩ : BufTy).Contents (Elt Ideal))
      rfl (by decide) (launchContents m c)

theorem st_main_v77 :
    after (ops (F := Ideal)) (launchContents m c) (Proc.devRef .tc main_v77) = val_main_v77 (F := Ideal) :=
  (stage_unary writesR 95 main_c_11 main_v77
      (broadcastInDim S128x128 ![] bcast_S_S128x128 : (⟨S_, .i32⟩ : BufTy).Contents (Elt Ideal) → (⟨S128x128, .i32⟩ : BufTy).Contents (Elt Ideal))
      rfl (by decide) (by decide) (launchContents m c)).trans
    (congrArg (broadcastInDim S128x128 ![] bcast_S_S128x128 : (⟨S_, .i32⟩ : BufTy).Contents (Elt Ideal) → (⟨S128x128, .i32⟩ : BufTy).Contents (Elt Ideal))
      (st_main_c_11 m c))

theorem st_main_v78 :
    after (ops (F := Ideal)) (launchContents m c) (Proc.devRef .tc main_v78) = val_main_v78 (F := Ideal) :=
  (stage_binary writesR 96 main_v75 main_v77 main_v78
      (addi : (⟨S128x128, .i32⟩ : BufTy).Contents (Elt Ideal) → (⟨S128x128, .i32⟩ : BufTy).Contents (Elt Ideal) → (⟨S128x128, .i32⟩ : BufTy).Contents (Elt Ideal))
      rfl (by decide) (by decide) (by decide) (launchContents m c)).trans
    (congrArg₂ (addi : (⟨S128x128, .i32⟩ : BufTy).Contents (Elt Ideal) → (⟨S128x128, .i32⟩ : BufTy).Contents (Elt Ideal) → (⟨S128x128, .i32⟩ : BufTy).Contents (Elt Ideal))
      (st_main_v75 m c) (st_main_v77 m c))

theorem st_main_v79 :
    after (ops (F := Ideal)) (launchContents m c) (Proc.devRef .tc main_v79) = val_main_v79 (F := Ideal) :=
  (stage_binary writesR 97 main_v78 main_v76 main_v79
      (cmpi .eq : (⟨S128x128, .i32⟩ : BufTy).Contents (Elt Ideal) → (⟨S128x128, .i32⟩ : BufTy).Contents (Elt Ideal) → (⟨S128x128, .i1⟩ : BufTy).Contents (Elt Ideal))
      rfl (by decide) (by decide) (by decide) (launchContents m c)).trans
    (congrArg₂ (cmpi .eq : (⟨S128x128, .i32⟩ : BufTy).Contents (Elt Ideal) → (⟨S128x128, .i32⟩ : BufTy).Contents (Elt Ideal) → (⟨S128x128, .i1⟩ : BufTy).Contents (Elt Ideal))
      (st_main_v78 m c) (st_main_v76 m c))

theorem st_main_v80 :
    after (ops (F := Ideal)) (launchContents m c) (Proc.devRef .tc main_v80) = val_main_v80 (F := Ideal) :=
  (stage_unary writesR 98 main_v79 main_v80
      (uitofp (F := Ideal) .f32 : (⟨S128x128, .i1⟩ : BufTy).Contents (Elt Ideal) → (⟨S128x128, .f32⟩ : BufTy).Contents (Elt Ideal))
      rfl (by decide) (by decide) (launchContents m c)).trans
    (congrArg (uitofp (F := Ideal) .f32 : (⟨S128x128, .i1⟩ : BufTy).Contents (Elt Ideal) → (⟨S128x128, .f32⟩ : BufTy).Contents (Elt Ideal))
      (st_main_v79 m c))

theorem st_main_cst_12 :
    after (ops (F := Ideal)) (launchContents m c) (Proc.devRef .tc main_cst_12) = val_main_cst_12 (F := Ideal) :=
  stage_nullary writesR 99 main_cst_12
      ((constant (F := Ideal) S_ .f32 0x3DCCCCCD#32) : (⟨S_, .f32⟩ : BufTy).Contents (Elt Ideal))
      rfl (by decide) (launchContents m c)

theorem st_main_v81 :
    after (ops (F := Ideal)) (launchContents m c) (Proc.devRef .tc main_v81) = val_main_v81 (F := Ideal) :=
  (stage_unary writesR 100 main_cst_12 main_v81
      (broadcastInDim S128x128 ![] bcast_S_S128x128 : (⟨S_, .f32⟩ : BufTy).Contents (Elt Ideal) → (⟨S128x128, .f32⟩ : BufTy).Contents (Elt Ideal))
      rfl (by decide) (by decide) (launchContents m c)).trans
    (congrArg (broadcastInDim S128x128 ![] bcast_S_S128x128 : (⟨S_, .f32⟩ : BufTy).Contents (Elt Ideal) → (⟨S128x128, .f32⟩ : BufTy).Contents (Elt Ideal))
      (st_main_cst_12 m c))

theorem st_main_v82 :
    after (ops (F := Ideal)) (launchContents m c) (Proc.devRef .tc main_v82) = val_main_v82 (F := Ideal) :=
  (stage_binary writesR 101 main_v81 main_v80 main_v82
      (mulf (F := Ideal) : (⟨S128x128, .f32⟩ : BufTy).Contents (Elt Ideal) → (⟨S128x128, .f32⟩ : BufTy).Contents (Elt Ideal) → (⟨S128x128, .f32⟩ : BufTy).Contents (Elt Ideal))
      rfl (by decide) (by decide) (by decide) (launchContents m c)).trans
    (congrArg₂ (mulf (F := Ideal) : (⟨S128x128, .f32⟩ : BufTy).Contents (Elt Ideal) → (⟨S128x128, .f32⟩ : BufTy).Contents (Elt Ideal) → (⟨S128x128, .f32⟩ : BufTy).Contents (Elt Ideal))
      (st_main_v81 m c) (st_main_v80 m c))

theorem st_main_v83 :
    after (ops (F := Ideal)) (launchContents m c) (Proc.devRef .tc main_v83) = val_main_v83 (F := Ideal) (m ((c.tc : Thread nD τ).loc main_arg5)) :=
  (stage_binary writesR 102 main_v74 main_v82 main_v83
      (subf (F := Ideal) : (⟨S128x128, .f32⟩ : BufTy).Contents (Elt Ideal) → (⟨S128x128, .f32⟩ : BufTy).Contents (Elt Ideal) → (⟨S128x128, .f32⟩ : BufTy).Contents (Elt Ideal))
      rfl (by decide) (by decide) (by decide) (launchContents m c)).trans
    (congrArg₂ (subf (F := Ideal) : (⟨S128x128, .f32⟩ : BufTy).Contents (Elt Ideal) → (⟨S128x128, .f32⟩ : BufTy).Contents (Elt Ideal) → (⟨S128x128, .f32⟩ : BufTy).Contents (Elt Ideal))
      (st_main_v74 m c) (st_main_v82 m c))

theorem st_main_v84 :
    after (ops (F := Ideal)) (launchContents m c) (Proc.devRef .tc main_v84) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) :=
  (stage_binary writesR 103 main_v72 main_arg7 main_v84
      ((fun l r => Host.dotGeneral (F := Ideal) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))
      rfl (by decide) (by decide) (by decide) (launchContents m c)).trans
    (congrArg₂ ((fun l r => Host.dotGeneral (F := Ideal) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))
      (st_main_v72 m c) (st_main_arg7 m c))

theorem st_main_cst_13 :
    after (ops (F := Ideal)) (launchContents m c) (Proc.devRef .tc main_cst_13) = val_main_cst_13 (F := Ideal) :=
  stage_nullary writesR 104 main_cst_13
      ((constant (F := Ideal) S_ .f32 0x3F800000#32) : (⟨S_, .f32⟩ : BufTy).Contents (Elt Ideal))
      rfl (by decide) (launchContents m c)

theorem st_main_v85 :
    after (ops (F := Ideal)) (launchContents m c) (Proc.devRef .tc main_v85) = val_main_v85 (F := Ideal) :=
  (stage_unary writesR 105 main_cst_13 main_v85
      (broadcastInDim S800000 ![] bcast_S_S800000 : (⟨S_, .f32⟩ : BufTy).Contents (Elt Ideal) → (⟨S800000, .f32⟩ : BufTy).Contents (Elt Ideal))
      rfl (by decide) (by decide) (launchContents m c)).trans
    (congrArg (broadcastInDim S800000 ![] bcast_S_S800000 : (⟨S_, .f32⟩ : BufTy).Contents (Elt Ideal) → (⟨S800000, .f32⟩ : BufTy).Contents (Elt Ideal))
      (st_main_cst_13 m c))

theorem st_main_cst_14 :
    after (ops (F := Ideal)) (launchContents m c) (Proc.devRef .tc main_cst_14) = val_main_cst_14 (F := Ideal) :=
  stage_nullary writesR 106 main_cst_14
      ((constant (F := Ideal) S_ .f32 0x00000000#32) : (⟨S_, .f32⟩ : BufTy).Contents (Elt Ideal))
      rfl (by decide) (launchContents m c)

theorem st_main_v86 :
    after (ops (F := Ideal)) (launchContents m c) (Proc.devRef .tc main_v86) = val_main_v86 (F := Ideal) :=
  (stage_unary writesR 107 main_cst_14 main_v86
      (broadcastInDim S50000 ![] bcast_S_S50000 : (⟨S_, .f32⟩ : BufTy).Contents (Elt Ideal) → (⟨S50000, .f32⟩ : BufTy).Contents (Elt Ideal))
      rfl (by decide) (by decide) (launchContents m c)).trans
    (congrArg (broadcastInDim S50000 ![] bcast_S_S50000 : (⟨S_, .f32⟩ : BufTy).Contents (Elt Ideal) → (⟨S50000, .f32⟩ : BufTy).Contents (Elt Ideal))
      (st_main_cst_14 m c))

theorem st_main_v87 :
    after (ops (F := Ideal)) (launchContents m c) (Proc.devRef .tc main_v87) = val_main_v87 (F := Ideal) (m ((c.tc : Thread nD τ).loc main_arg1)) :=
  (stage_unary writesR 108 main_v3 main_v87
      (broadcastInDim S800000x1 ![0] bcast_S800000_S800000x1_0 : (⟨S800000, .i32⟩ : BufTy).Contents (Elt Ideal) → (⟨S800000x1, .i32⟩ : BufTy).Contents (Elt Ideal))
      rfl (by decide) (by decide) (launchContents m c)).trans
    (congrArg (broadcastInDim S800000x1 ![0] bcast_S800000_S800000x1_0 : (⟨S800000, .i32⟩ : BufTy).Contents (Elt Ideal) → (⟨S800000x1, .i32⟩ : BufTy).Contents (Elt Ideal))
      (st_main_v3 m c))

theorem st_main_v88 :
    after (ops (F := Ideal)) (launchContents m c) (Proc.devRef .tc main_v88) = val_main_v88 (F := Ideal) (m ((c.tc : Thread nD τ).loc main_arg1)) :=
  (stage_ternary writesR 109 main_v86 main_v87 main_v85 main_v88
      ((fun x i u => Host.scatterAdd (F := Ideal) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal))
      rfl (by decide) (by decide) (by decide) (by decide) (launchContents m c)).trans
    (congrArg3 ((fun x i u => Host.scatterAdd (F := Ideal) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal))
      (st_main_v86 m c) (st_main_v87 m c) (st_main_v85 m c))

theorem st_main_cst_15 :
    after (ops (F := Ideal)) (launchContents m c) (Proc.devRef .tc main_cst_15) = val_main_cst_15 (F := Ideal) :=
  stage_nullary writesR 110 main_cst_15
      ((constant (F := Ideal) S_ .f32 0x3F800000#32) : (⟨S_, .f32⟩ : BufTy).Contents (Elt Ideal))
      rfl (by decide) (launchContents m c)

theorem st_main_v89 :
    after (ops (F := Ideal)) (launchContents m c) (Proc.devRef .tc main_v89) = val_main_v89 (F := Ideal) :=
  (stage_unary writesR 111 main_cst_15 main_v89
      (broadcastInDim S50000 ![] bcast_S_S50000 : (⟨S_, .f32⟩ : BufTy).Contents (Elt Ideal) → (⟨S50000, .f32⟩ : BufTy).Contents (Elt Ideal))
      rfl (by decide) (by decide) (launchContents m c)).trans
    (congrArg (broadcastInDim S50000 ![] bcast_S_S50000 : (⟨S_, .f32⟩ : BufTy).Contents (Elt Ideal) → (⟨S50000, .f32⟩ : BufTy).Contents (Elt Ideal))
      (st_main_cst_15 m c))

theorem st_main_v90 :
    after (ops (F := Ideal)) (launchContents m c) (Proc.devRef .tc main_v90) = val_main_v90 (F := Ideal) (m ((c.tc : Thread nD τ).loc main_arg1)) :=
  (stage_binary writesR 112 main_v88 main_v89 main_v90
      (addf (F := Ideal) : (⟨S50000, .f32⟩ : BufTy).Contents (Elt Ideal) → (⟨S50000, .f32⟩ : BufTy).Contents (Elt Ideal) → (⟨S50000, .f32⟩ : BufTy).Contents (Elt Ideal))
      rfl (by decide) (by decide) (by decide) (launchContents m c)).trans
    (congrArg₂ (addf (F := Ideal) : (⟨S50000, .f32⟩ : BufTy).Contents (Elt Ideal) → (⟨S50000, .f32⟩ : BufTy).Contents (Elt Ideal) → (⟨S50000, .f32⟩ : BufTy).Contents (Elt Ideal))
      (st_main_v88 m c) (st_main_v89 m c))

theorem st_main_v91 :
    after (ops (F := Ideal)) (launchContents m c) (Proc.devRef .tc main_v91) = val_main_v91 (F := Ideal) (m ((c.tc : Thread nD τ).loc main_arg1)) :=
  (stage_unary writesR 113 main_v90 main_v91
      (Host.rsqrt (F := Ideal) : (⟨S50000, .f32⟩ : BufTy).Contents (Elt Ideal) → (⟨S50000, .f32⟩ : BufTy).Contents (Elt Ideal))
      rfl (by decide) (by decide) (launchContents m c)).trans
    (congrArg (Host.rsqrt (F := Ideal) : (⟨S50000, .f32⟩ : BufTy).Contents (Elt Ideal) → (⟨S50000, .f32⟩ : BufTy).Contents (Elt Ideal))
      (st_main_v90 m c))

theorem st_main_c_16 :
    after (ops (F := Ideal)) (launchContents m c) (Proc.devRef .tc main_c_16) = val_main_c_16 (F := Ideal) :=
  stage_nullary writesR 114 main_c_16
      ((constantI S_ 32 0#32) : (⟨S_, .i32⟩ : BufTy).Contents (Elt Ideal))
      rfl (by decide) (launchContents m c)

theorem st_main_v92 :
    after (ops (F := Ideal)) (launchContents m c) (Proc.devRef .tc main_v92) = val_main_v92 (F := Ideal) :=
  (stage_unary writesR 115 main_c_16 main_v92
      (broadcastInDim S800000 ![] bcast_S_S800000 : (⟨S_, .i32⟩ : BufTy).Contents (Elt Ideal) → (⟨S800000, .i32⟩ : BufTy).Contents (Elt Ideal))
      rfl (by decide) (by decide) (launchContents m c)).trans
    (congrArg (broadcastInDim S800000 ![] bcast_S_S800000 : (⟨S_, .i32⟩ : BufTy).Contents (Elt Ideal) → (⟨S800000, .i32⟩ : BufTy).Contents (Elt Ideal))
      (st_main_c_16 m c))

theorem st_main_v93 :
    after (ops (F := Ideal)) (launchContents m c) (Proc.devRef .tc main_v93) = val_main_v93 (F := Ideal) (m ((c.tc : Thread nD τ).loc main_arg1)) :=
  (stage_binary writesR 116 main_v1 main_v92 main_v93
      (cmpi .slt : (⟨S800000, .i32⟩ : BufTy).Contents (Elt Ideal) → (⟨S800000, .i32⟩ : BufTy).Contents (Elt Ideal) → (⟨S800000, .i1⟩ : BufTy).Contents (Elt Ideal))
      rfl (by decide) (by decide) (by decide) (launchContents m c)).trans
    (congrArg₂ (cmpi .slt : (⟨S800000, .i32⟩ : BufTy).Contents (Elt Ideal) → (⟨S800000, .i32⟩ : BufTy).Contents (Elt Ideal) → (⟨S800000, .i1⟩ : BufTy).Contents (Elt Ideal))
      (st_main_v1 m c) (st_main_v92 m c))

theorem st_main_c_17 :
    after (ops (F := Ideal)) (launchContents m c) (Proc.devRef .tc main_c_17) = val_main_c_17 (F := Ideal) :=
  stage_nullary writesR 117 main_c_17
      ((constantI S_ 32 50000#32) : (⟨S_, .i32⟩ : BufTy).Contents (Elt Ideal))
      rfl (by decide) (launchContents m c)

theorem st_main_v94 :
    after (ops (F := Ideal)) (launchContents m c) (Proc.devRef .tc main_v94) = val_main_v94 (F := Ideal) :=
  (stage_unary writesR 118 main_c_17 main_v94
      (broadcastInDim S800000 ![] bcast_S_S800000 : (⟨S_, .i32⟩ : BufTy).Contents (Elt Ideal) → (⟨S800000, .i32⟩ : BufTy).Contents (Elt Ideal))
      rfl (by decide) (by decide) (launchContents m c)).trans
    (congrArg (broadcastInDim S800000 ![] bcast_S_S800000 : (⟨S_, .i32⟩ : BufTy).Contents (Elt Ideal) → (⟨S800000, .i32⟩ : BufTy).Contents (Elt Ideal))
      (st_main_c_17 m c))

theorem st_main_v95 :
    after (ops (F := Ideal)) (launchContents m c) (Proc.devRef .tc main_v95) = val_main_v95 (F := Ideal) (m ((c.tc : Thread nD τ).loc main_arg1)) :=
  (stage_binary writesR 119 main_v1 main_v94 main_v95
      (addi : (⟨S800000, .i32⟩ : BufTy).Contents (Elt Ideal) → (⟨S800000, .i32⟩ : BufTy).Contents (Elt Ideal) → (⟨S800000, .i32⟩ : BufTy).Contents (Elt Ideal))
      rfl (by decide) (by decide) (by decide) (launchContents m c)).trans
    (congrArg₂ (addi : (⟨S800000, .i32⟩ : BufTy).Contents (Elt Ideal) → (⟨S800000, .i32⟩ : BufTy).Contents (Elt Ideal) → (⟨S800000, .i32⟩ : BufTy).Contents (Elt Ideal))
      (st_main_v1 m c) (st_main_v94 m c))

theorem st_main_v96 :
    after (ops (F := Ideal)) (launchContents m c) (Proc.devRef .tc main_v96) = val_main_v96 (F := Ideal) (m ((c.tc : Thread nD τ).loc main_arg1)) :=
  (stage_ternary writesR 120 main_v93 main_v95 main_v1 main_v96
      (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
      rfl (by decide) (by decide) (by decide) (by decide) (launchContents m c)).trans
    (congrArg3 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
      (st_main_v93 m c) (st_main_v95 m c) (st_main_v1 m c))

theorem st_main_v97 :
    after (ops (F := Ideal)) (launchContents m c) (Proc.devRef .tc main_v97) = val_main_v97 (F := Ideal) (m ((c.tc : Thread nD τ).loc main_arg1)) :=
  (stage_unary writesR 121 main_v96 main_v97
      (broadcastInDim S800000x1 ![0] bcast_S800000_S800000x1_0 : (⟨S800000, .i32⟩ : BufTy).Contents (Elt Ideal) → (⟨S800000x1, .i32⟩ : BufTy).Contents (Elt Ideal))
      rfl (by decide) (by decide) (launchContents m c)).trans
    (congrArg (broadcastInDim S800000x1 ![0] bcast_S800000_S800000x1_0 : (⟨S800000, .i32⟩ : BufTy).Contents (Elt Ideal) → (⟨S800000x1, .i32⟩ : BufTy).Contents (Elt Ideal))
      (st_main_v96 m c))

theorem st_main_v98 :
    after (ops (F := Ideal)) (launchContents m c) (Proc.devRef .tc main_v98) = val_main_v98 (F := Ideal) (m ((c.tc : Thread nD τ).loc main_arg1)) :=
  (stage_binary writesR 122 main_v91 main_v97 main_v98
      ((fun x i => Host.gather gather_S50000_S800000x1_S800000_n_0_n_n_0_1_1 x i) : (⟨S50000, .f32⟩ : BufTy).Contents (Elt Ideal) → (⟨S800000x1, .i32⟩ : BufTy).Contents (Elt Ideal) → (⟨S800000, .f32⟩ : BufTy).Contents (Elt Ideal))
      rfl (by decide) (by decide) (by decide) (launchContents m c)).trans
    (congrArg₂ ((fun x i => Host.gather gather_S50000_S800000x1_S800000_n_0_n_n_0_1_1 x i) : (⟨S50000, .f32⟩ : BufTy).Contents (Elt Ideal) → (⟨S800000x1, .i32⟩ : BufTy).Contents (Elt Ideal) → (⟨S800000, .f32⟩ : BufTy).Contents (Elt Ideal))
      (st_main_v91 m c) (st_main_v97 m c))

theorem st_main_c_18 :
    after (ops (F := Ideal)) (launchContents m c) (Proc.devRef .tc main_c_18) = val_main_c_18 (F := Ideal) :=
  stage_nullary writesR 123 main_c_18
      ((constantI S_ 32 0#32) : (⟨S_, .i32⟩ : BufTy).Contents (Elt Ideal))
      rfl (by decide) (launchContents m c)

theorem st_main_v99 :
    after (ops (F := Ideal)) (launchContents m c) (Proc.devRef .tc main_v99) = val_main_v99 (F := Ideal) :=
  (stage_unary writesR 124 main_c_18 main_v99
      (broadcastInDim S800000 ![] bcast_S_S800000 : (⟨S_, .i32⟩ : BufTy).Contents (Elt Ideal) → (⟨S800000, .i32⟩ : BufTy).Contents (Elt Ideal))
      rfl (by decide) (by decide) (launchContents m c)).trans
    (congrArg (broadcastInDim S800000 ![] bcast_S_S800000 : (⟨S_, .i32⟩ : BufTy).Contents (Elt Ideal) → (⟨S800000, .i32⟩ : BufTy).Contents (Elt Ideal))
      (st_main_c_18 m c))

theorem st_main_v100 :
    after (ops (F := Ideal)) (launchContents m c) (Proc.devRef .tc main_v100) = val_main_v100 (F := Ideal) (m ((c.tc : Thread nD τ).loc main_arg1)) :=
  (stage_binary writesR 125 main_v3 main_v99 main_v100
      (cmpi .slt : (⟨S800000, .i32⟩ : BufTy).Contents (Elt Ideal) → (⟨S800000, .i32⟩ : BufTy).Contents (Elt Ideal) → (⟨S800000, .i1⟩ : BufTy).Contents (Elt Ideal))
      rfl (by decide) (by decide) (by decide) (launchContents m c)).trans
    (congrArg₂ (cmpi .slt : (⟨S800000, .i32⟩ : BufTy).Contents (Elt Ideal) → (⟨S800000, .i32⟩ : BufTy).Contents (Elt Ideal) → (⟨S800000, .i1⟩ : BufTy).Contents (Elt Ideal))
      (st_main_v3 m c) (st_main_v99 m c))

theorem st_main_c_19 :
    after (ops (F := Ideal)) (launchContents m c) (Proc.devRef .tc main_c_19) = val_main_c_19 (F := Ideal) :=
  stage_nullary writesR 126 main_c_19
      ((constantI S_ 32 50000#32) : (⟨S_, .i32⟩ : BufTy).Contents (Elt Ideal))
      rfl (by decide) (launchContents m c)

theorem st_main_v101 :
    after (ops (F := Ideal)) (launchContents m c) (Proc.devRef .tc main_v101) = val_main_v101 (F := Ideal) :=
  (stage_unary writesR 127 main_c_19 main_v101
      (broadcastInDim S800000 ![] bcast_S_S800000 : (⟨S_, .i32⟩ : BufTy).Contents (Elt Ideal) → (⟨S800000, .i32⟩ : BufTy).Contents (Elt Ideal))
      rfl (by decide) (by decide) (launchContents m c)).trans
    (congrArg (broadcastInDim S800000 ![] bcast_S_S800000 : (⟨S_, .i32⟩ : BufTy).Contents (Elt Ideal) → (⟨S800000, .i32⟩ : BufTy).Contents (Elt Ideal))
      (st_main_c_19 m c))

theorem st_main_v102 :
    after (ops (F := Ideal)) (launchContents m c) (Proc.devRef .tc main_v102) = val_main_v102 (F := Ideal) (m ((c.tc : Thread nD τ).loc main_arg1)) :=
  (stage_binary writesR 128 main_v3 main_v101 main_v102
      (addi : (⟨S800000, .i32⟩ : BufTy).Contents (Elt Ideal) → (⟨S800000, .i32⟩ : BufTy).Contents (Elt Ideal) → (⟨S800000, .i32⟩ : BufTy).Contents (Elt Ideal))
      rfl (by decide) (by decide) (by decide) (launchContents m c)).trans
    (congrArg₂ (addi : (⟨S800000, .i32⟩ : BufTy).Contents (Elt Ideal) → (⟨S800000, .i32⟩ : BufTy).Contents (Elt Ideal) → (⟨S800000, .i32⟩ : BufTy).Contents (Elt Ideal))
      (st_main_v3 m c) (st_main_v101 m c))

theorem st_main_v103 :
    after (ops (F := Ideal)) (launchContents m c) (Proc.devRef .tc main_v103) = val_main_v103 (F := Ideal) (m ((c.tc : Thread nD τ).loc main_arg1)) :=
  (stage_ternary writesR 129 main_v100 main_v102 main_v3 main_v103
      (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
      rfl (by decide) (by decide) (by decide) (by decide) (launchContents m c)).trans
    (congrArg3 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
      (st_main_v100 m c) (st_main_v102 m c) (st_main_v3 m c))

theorem st_main_v104 :
    after (ops (F := Ideal)) (launchContents m c) (Proc.devRef .tc main_v104) = val_main_v104 (F := Ideal) (m ((c.tc : Thread nD τ).loc main_arg1)) :=
  (stage_unary writesR 130 main_v103 main_v104
      (broadcastInDim S800000x1 ![0] bcast_S800000_S800000x1_0 : (⟨S800000, .i32⟩ : BufTy).Contents (Elt Ideal) → (⟨S800000x1, .i32⟩ : BufTy).Contents (Elt Ideal))
      rfl (by decide) (by decide) (launchContents m c)).trans
    (congrArg (broadcastInDim S800000x1 ![0] bcast_S800000_S800000x1_0 : (⟨S800000, .i32⟩ : BufTy).Contents (Elt Ideal) → (⟨S800000x1, .i32⟩ : BufTy).Contents (Elt Ideal))
      (st_main_v103 m c))

theorem st_main_v105 :
    after (ops (F := Ideal)) (launchContents m c) (Proc.devRef .tc main_v105) = val_main_v105 (F := Ideal) (m ((c.tc : Thread nD τ).loc main_arg1)) :=
  (stage_binary writesR 131 main_v91 main_v104 main_v105
      ((fun x i => Host.gather gather_S50000_S800000x1_S800000_n_0_n_n_0_1_1 x i) : (⟨S50000, .f32⟩ : BufTy).Contents (Elt Ideal) → (⟨S800000x1, .i32⟩ : BufTy).Contents (Elt Ideal) → (⟨S800000, .f32⟩ : BufTy).Contents (Elt Ideal))
      rfl (by decide) (by decide) (by decide) (launchContents m c)).trans
    (congrArg₂ ((fun x i => Host.gather gather_S50000_S800000x1_S800000_n_0_n_n_0_1_1 x i) : (⟨S50000, .f32⟩ : BufTy).Contents (Elt Ideal) → (⟨S800000x1, .i32⟩ : BufTy).Contents (Elt Ideal) → (⟨S800000, .f32⟩ : BufTy).Contents (Elt Ideal))
      (st_main_v91 m c) (st_main_v104 m c))

theorem st_main_v106 :
    after (ops (F := Ideal)) (launchContents m c) (Proc.devRef .tc main_v106) = val_main_v106 (F := Ideal) (m ((c.tc : Thread nD τ).loc main_arg1)) :=
  (stage_binary writesR 132 main_v98 main_v105 main_v106
      (mulf (F := Ideal) : (⟨S800000, .f32⟩ : BufTy).Contents (Elt Ideal) → (⟨S800000, .f32⟩ : BufTy).Contents (Elt Ideal) → (⟨S800000, .f32⟩ : BufTy).Contents (Elt Ideal))
      rfl (by decide) (by decide) (by decide) (launchContents m c)).trans
    (congrArg₂ (mulf (F := Ideal) : (⟨S800000, .f32⟩ : BufTy).Contents (Elt Ideal) → (⟨S800000, .f32⟩ : BufTy).Contents (Elt Ideal) → (⟨S800000, .f32⟩ : BufTy).Contents (Elt Ideal))
      (st_main_v98 m c) (st_main_v105 m c))

theorem st_main_c_20 :
    after (ops (F := Ideal)) (launchContents m c) (Proc.devRef .tc main_c_20) = val_main_c_20 (F := Ideal) :=
  stage_nullary writesR 133 main_c_20
      ((constantI S_ 32 0#32) : (⟨S_, .i32⟩ : BufTy).Contents (Elt Ideal))
      rfl (by decide) (launchContents m c)

theorem st_main_v107 :
    after (ops (F := Ideal)) (launchContents m c) (Proc.devRef .tc main_v107) = val_main_v107 (F := Ideal) :=
  (stage_unary writesR 134 main_c_20 main_v107
      (broadcastInDim S800000 ![] bcast_S_S800000 : (⟨S_, .i32⟩ : BufTy).Contents (Elt Ideal) → (⟨S800000, .i32⟩ : BufTy).Contents (Elt Ideal))
      rfl (by decide) (by decide) (launchContents m c)).trans
    (congrArg (broadcastInDim S800000 ![] bcast_S_S800000 : (⟨S_, .i32⟩ : BufTy).Contents (Elt Ideal) → (⟨S800000, .i32⟩ : BufTy).Contents (Elt Ideal))
      (st_main_c_20 m c))

theorem st_main_v108 :
    after (ops (F := Ideal)) (launchContents m c) (Proc.devRef .tc main_v108) = val_main_v108 (F := Ideal) (m ((c.tc : Thread nD τ).loc main_arg1)) :=
  (stage_binary writesR 135 main_v1 main_v107 main_v108
      (cmpi .slt : (⟨S800000, .i32⟩ : BufTy).Contents (Elt Ideal) → (⟨S800000, .i32⟩ : BufTy).Contents (Elt Ideal) → (⟨S800000, .i1⟩ : BufTy).Contents (Elt Ideal))
      rfl (by decide) (by decide) (by decide) (launchContents m c)).trans
    (congrArg₂ (cmpi .slt : (⟨S800000, .i32⟩ : BufTy).Contents (Elt Ideal) → (⟨S800000, .i32⟩ : BufTy).Contents (Elt Ideal) → (⟨S800000, .i1⟩ : BufTy).Contents (Elt Ideal))
      (st_main_v1 m c) (st_main_v107 m c))

theorem st_main_c_21 :
    after (ops (F := Ideal)) (launchContents m c) (Proc.devRef .tc main_c_21) = val_main_c_21 (F := Ideal) :=
  stage_nullary writesR 136 main_c_21
      ((constantI S_ 32 50000#32) : (⟨S_, .i32⟩ : BufTy).Contents (Elt Ideal))
      rfl (by decide) (launchContents m c)

theorem st_main_v109 :
    after (ops (F := Ideal)) (launchContents m c) (Proc.devRef .tc main_v109) = val_main_v109 (F := Ideal) :=
  (stage_unary writesR 137 main_c_21 main_v109
      (broadcastInDim S800000 ![] bcast_S_S800000 : (⟨S_, .i32⟩ : BufTy).Contents (Elt Ideal) → (⟨S800000, .i32⟩ : BufTy).Contents (Elt Ideal))
      rfl (by decide) (by decide) (launchContents m c)).trans
    (congrArg (broadcastInDim S800000 ![] bcast_S_S800000 : (⟨S_, .i32⟩ : BufTy).Contents (Elt Ideal) → (⟨S800000, .i32⟩ : BufTy).Contents (Elt Ideal))
      (st_main_c_21 m c))

theorem st_main_v110 :
    after (ops (F := Ideal)) (launchContents m c) (Proc.devRef .tc main_v110) = val_main_v110 (F := Ideal) (m ((c.tc : Thread nD τ).loc main_arg1)) :=
  (stage_binary writesR 138 main_v1 main_v109 main_v110
      (addi : (⟨S800000, .i32⟩ : BufTy).Contents (Elt Ideal) → (⟨S800000, .i32⟩ : BufTy).Contents (Elt Ideal) → (⟨S800000, .i32⟩ : BufTy).Contents (Elt Ideal))
      rfl (by decide) (by decide) (by decide) (launchContents m c)).trans
    (congrArg₂ (addi : (⟨S800000, .i32⟩ : BufTy).Contents (Elt Ideal) → (⟨S800000, .i32⟩ : BufTy).Contents (Elt Ideal) → (⟨S800000, .i32⟩ : BufTy).Contents (Elt Ideal))
      (st_main_v1 m c) (st_main_v109 m c))

theorem st_main_v111 :
    after (ops (F := Ideal)) (launchContents m c) (Proc.devRef .tc main_v111) = val_main_v111 (F := Ideal) (m ((c.tc : Thread nD τ).loc main_arg1)) :=
  (stage_ternary writesR 139 main_v108 main_v110 main_v1 main_v111
      (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
      rfl (by decide) (by decide) (by decide) (by decide) (launchContents m c)).trans
    (congrArg3 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal))
      (st_main_v108 m c) (st_main_v110 m c) (st_main_v1 m c))

theorem st_main_v112 :
    after (ops (F := Ideal)) (launchContents m c) (Proc.devRef .tc main_v112) = val_main_v112 (F := Ideal) (m ((c.tc : Thread nD τ).loc main_arg1)) :=
  (stage_unary writesR 140 main_v111 main_v112
      (broadcastInDim S800000x1 ![0] bcast_S800000_S800000x1_0 : (⟨S800000, .i32⟩ : BufTy).Contents (Elt Ideal) → (⟨S800000x1, .i32⟩ : BufTy).Contents (Elt Ideal))
      rfl (by decide) (by decide) (launchContents m c)).trans
    (congrArg (broadcastInDim S800000x1 ![0] bcast_S800000_S800000x1_0 : (⟨S800000, .i32⟩ : BufTy).Contents (Elt Ideal) → (⟨S800000x1, .i32⟩ : BufTy).Contents (Elt Ideal))
      (st_main_v111 m c))

theorem st_main_v113 :
    after (ops (F := Ideal)) (launchContents m c) (Proc.devRef .tc main_v113) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) :=
  (stage_binary writesR 141 main_v84 main_v112 main_v113
      ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal))
      rfl (by decide) (by decide) (by decide) (launchContents m c)).trans
    (congrArg₂ ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal))
      (st_main_v84 m c) (st_main_v112 m c))

theorem st_main_v114 :
    after (ops (F := Ideal)) (launchContents m c) (Proc.devRef .tc main_v114) = val_main_v114 (F := Ideal) (m ((c.tc : Thread nD τ).loc main_arg1)) :=
  (stage_unary writesR 142 main_v106 main_v114
      (broadcastInDim S800000x1 ![0] bcast_S800000_S800000x1_0 : (⟨S800000, .f32⟩ : BufTy).Contents (Elt Ideal) → (⟨S800000x1, .f32⟩ : BufTy).Contents (Elt Ideal))
      rfl (by decide) (by decide) (launchContents m c)).trans
    (congrArg (broadcastInDim S800000x1 ![0] bcast_S800000_S800000x1_0 : (⟨S800000, .f32⟩ : BufTy).Contents (Elt Ideal) → (⟨S800000x1, .f32⟩ : BufTy).Contents (Elt Ideal))
      (st_main_v106 m c))

theorem st_main_v115 :
    after (ops (F := Ideal)) (launchContents m c) (Proc.devRef .tc main_v115) = val_main_v115 (F := Ideal) (m ((c.tc : Thread nD τ).loc main_arg1)) :=
  (stage_unary writesR 143 main_v114 main_v115
      (broadcastInDim S800000x128 ![0, 1] bcast_S800000x1_S800000x128_0_1 : (⟨S800000x1, .f32⟩ : BufTy).Contents (Elt Ideal) → (⟨S800000x128, .f32⟩ : BufTy).Contents (Elt Ideal))
      rfl (by decide) (by decide) (launchContents m c)).trans
    (congrArg (broadcastInDim S800000x128 ![0, 1] bcast_S800000x1_S800000x128_0_1 : (⟨S800000x1, .f32⟩ : BufTy).Contents (Elt Ideal) → (⟨S800000x128, .f32⟩ : BufTy).Contents (Elt Ideal))
      (st_main_v114 m c))

theorem st_main_v116 :
    after (ops (F := Ideal)) (launchContents m c) (Proc.devRef .tc main_v116) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) :=
  (stage_binary writesR 144 main_v113 main_v115 main_v116
      (mulf (F := Ideal) : (⟨S800000x128, .f32⟩ : BufTy).Contents (Elt Ideal) → (⟨S800000x128, .f32⟩ : BufTy).Contents (Elt Ideal) → (⟨S800000x128, .f32⟩ : BufTy).Contents (Elt Ideal))
      rfl (by decide) (by decide) (by decide) (launchContents m c)).trans
    (congrArg₂ (mulf (F := Ideal) : (⟨S800000x128, .f32⟩ : BufTy).Contents (Elt Ideal) → (⟨S800000x128, .f32⟩ : BufTy).Contents (Elt Ideal) → (⟨S800000x128, .f32⟩ : BufTy).Contents (Elt Ideal))
      (st_main_v113 m c) (st_main_v115 m c))

theorem st_main_cst_22 :
    after (ops (F := Ideal)) (launchContents m c) (Proc.devRef .tc main_cst_22) = val_main_cst_22 (F := Ideal) :=
  stage_nullary writesR 145 main_cst_22
      ((constant (F := Ideal) S_ .f32 0x00000000#32) : (⟨S_, .f32⟩ : BufTy).Contents (Elt Ideal))
      rfl (by decide) (launchContents m c)

theorem st_main_v117 :
    after (ops (F := Ideal)) (launchContents m c) (Proc.devRef .tc main_v117) = val_main_v117 (F := Ideal) :=
  (stage_unary writesR 146 main_cst_22 main_v117
      (broadcastInDim S50000x128 ![] bcast_S_S50000x128 : (⟨S_, .f32⟩ : BufTy).Contents (Elt Ideal) → (⟨S50000x128, .f32⟩ : BufTy).Contents (Elt Ideal))
      rfl (by decide) (by decide) (launchContents m c)).trans
    (congrArg (broadcastInDim S50000x128 ![] bcast_S_S50000x128 : (⟨S_, .f32⟩ : BufTy).Contents (Elt Ideal) → (⟨S50000x128, .f32⟩ : BufTy).Contents (Elt Ideal))
      (st_main_cst_22 m c))

theorem st_main_v118 :
    after (ops (F := Ideal)) (launchContents m c) (Proc.devRef .tc main_v118) = val_main_v118 (F := Ideal) (m ((c.tc : Thread nD τ).loc main_arg1)) :=
  (stage_unary writesR 147 main_v3 main_v118
      (broadcastInDim S800000x1 ![0] bcast_S800000_S800000x1_0 : (⟨S800000, .i32⟩ : BufTy).Contents (Elt Ideal) → (⟨S800000x1, .i32⟩ : BufTy).Contents (Elt Ideal))
      rfl (by decide) (by decide) (launchContents m c)).trans
    (congrArg (broadcastInDim S800000x1 ![0] bcast_S800000_S800000x1_0 : (⟨S800000, .i32⟩ : BufTy).Contents (Elt Ideal) → (⟨S800000x1, .i32⟩ : BufTy).Contents (Elt Ideal))
      (st_main_v3 m c))

theorem st_main_v119 :
    after (ops (F := Ideal)) (launchContents m c) (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) :=
  (stage_ternary writesR 148 main_v117 main_v118 main_v116 main_v119
      ((fun x i u => Host.scatterAdd (F := Ideal) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal))
      rfl (by decide) (by decide) (by decide) (by decide) (launchContents m c)).trans
    (congrArg3 ((fun x i u => Host.scatterAdd (F := Ideal) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal))
      (st_main_v117 m c) (st_main_v118 m c) (st_main_v116 m c))

theorem st_main_v120 :
    after (ops (F := Ideal)) (launchContents m c) (Proc.devRef .tc main_v120) = val_main_v120 (F := Ideal) (m ((c.tc : Thread nD τ).loc main_arg1)) :=
  (stage_binary writesR 149 main_v91 main_v91 main_v120
      (mulf (F := Ideal) : (⟨S50000, .f32⟩ : BufTy).Contents (Elt Ideal) → (⟨S50000, .f32⟩ : BufTy).Contents (Elt Ideal) → (⟨S50000, .f32⟩ : BufTy).Contents (Elt Ideal))
      rfl (by decide) (by decide) (by decide) (launchContents m c)).trans
    (congrArg₂ (mulf (F := Ideal) : (⟨S50000, .f32⟩ : BufTy).Contents (Elt Ideal) → (⟨S50000, .f32⟩ : BufTy).Contents (Elt Ideal) → (⟨S50000, .f32⟩ : BufTy).Contents (Elt Ideal))
      (st_main_v91 m c) (st_main_v91 m c))

theorem st_main_v121 :
    after (ops (F := Ideal)) (launchContents m c) (Proc.devRef .tc main_v121) = val_main_v121 (F := Ideal) (m ((c.tc : Thread nD τ).loc main_arg1)) :=
  (stage_unary writesR 150 main_v120 main_v121
      (broadcastInDim S50000x1 ![0] bcast_S50000_S50000x1_0 : (⟨S50000, .f32⟩ : BufTy).Contents (Elt Ideal) → (⟨S50000x1, .f32⟩ : BufTy).Contents (Elt Ideal))
      rfl (by decide) (by decide) (launchContents m c)).trans
    (congrArg (broadcastInDim S50000x1 ![0] bcast_S50000_S50000x1_0 : (⟨S50000, .f32⟩ : BufTy).Contents (Elt Ideal) → (⟨S50000x1, .f32⟩ : BufTy).Contents (Elt Ideal))
      (st_main_v120 m c))

theorem st_main_v122 :
    after (ops (F := Ideal)) (launchContents m c) (Proc.devRef .tc main_v122) = val_main_v122 (F := Ideal) (m ((c.tc : Thread nD τ).loc main_arg1)) :=
  (stage_unary writesR 151 main_v121 main_v122
      (broadcastInDim S50000x128 ![0, 1] bcast_S50000x1_S50000x128_0_1 : (⟨S50000x1, .f32⟩ : BufTy).Contents (Elt Ideal) → (⟨S50000x128, .f32⟩ : BufTy).Contents (Elt Ideal))
      rfl (by decide) (by decide) (launchContents m c)).trans
    (congrArg (broadcastInDim S50000x128 ![0, 1] bcast_S50000x1_S50000x128_0_1 : (⟨S50000x1, .f32⟩ : BufTy).Contents (Elt Ideal) → (⟨S50000x128, .f32⟩ : BufTy).Contents (Elt Ideal))
      (st_main_v121 m c))

theorem st_main_v123 :
    after (ops (F := Ideal)) (launchContents m c) (Proc.devRef .tc main_v123) = val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) :=
  (stage_binary writesR 152 main_v84 main_v122 main_v123
      (mulf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (mulf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v84 m c) (st_main_v122 m c))

theorem st_main_v124 :
    after (ops (F := Ideal)) (launchContents m c) (Proc.devRef .tc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) :=
  (stage_binary writesR 153 main_v119 main_v123 main_v124
      (addf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (addf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v119 m c) (st_main_v123 m c))

theorem st_main_v125 :
    after (ops (F := Ideal)) (launchContents m c) (Proc.devRef .tc main_v125) = val_main_v125 (F := Ideal) (m ((c.tc : Thread nD τ).loc main_arg5)) :=
  (stage_unary writesR 154 main_v83 main_v125
      ((transpose S128x128 [1, 0] · transposes_S128x128_S128x128_1_0) : (⟨S128x128, .f32⟩ : BufTy).Contents (Elt Ideal) → (⟨S128x128, .f32⟩ : BufTy).Contents (Elt Ideal))
      rfl (by decide) (by decide) (launchContents m c)).trans
    (congrArg ((transpose S128x128 [1, 0] · transposes_S128x128_S128x128_1_0) : (⟨S128x128, .f32⟩ : BufTy).Contents (Elt Ideal) → (⟨S128x128, .f32⟩ : BufTy).Contents (Elt Ideal))
      (st_main_v83 m c))

theorem st_main_v126 :
    after (ops (F := Ideal)) (launchContents m c) (Proc.devRef .tc main_v126) = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
  (stage_binary writesR 155 main_v72 main_v125 main_v126
      ((fun l r => Host.dotGeneral (F := Ideal) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))
      rfl (by decide) (by decide) (by decide) (launchContents m c)).trans
    (congrArg₂ ((fun l r => Host.dotGeneral (F := Ideal) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))
      (st_main_v72 m c) (st_main_v125 m c))

theorem st_main_v127 :
    after (ops (F := Ideal)) (launchContents m c) (Proc.devRef .tc main_v127) = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) :=
  (stage_binary writesR 156 main_v126 main_v124 main_v127
      (addf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (addf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v126 m c) (st_main_v124 m c))

theorem st_main_v128 :
    after (ops (F := Ideal)) (launchContents m c) (Proc.devRef .tc main_v128) = val_main_v128 (F := Ideal) (m ((c.tc : Thread nD τ).loc main_arg6)) :=
  (stage_unary writesR 157 main_arg6 main_v128
      (broadcastInDim S1x128 ![1] bcast_S128_S1x128_1 : (⟨S128, .f32⟩ : BufTy).Contents (Elt Ideal) → (⟨S1x128, .f32⟩ : BufTy).Contents (Elt Ideal))
      rfl (by decide) (by decide) (launchContents m c)).trans
    (congrArg (broadcastInDim S1x128 ![1] bcast_S128_S1x128_1 : (⟨S128, .f32⟩ : BufTy).Contents (Elt Ideal) → (⟨S1x128, .f32⟩ : BufTy).Contents (Elt Ideal))
      (st_main_arg6 m c))

theorem st_main_v129 :
    after (ops (F := Ideal)) (launchContents m c) (Proc.devRef .tc main_v129) = val_main_v129 (F := Ideal) (m ((c.tc : Thread nD τ).loc main_arg6)) :=
  (stage_unary writesR 158 main_v128 main_v129
      (broadcastInDim S50000x128 ![0, 1] bcast_S1x128_S50000x128_0_1 : (⟨S1x128, .f32⟩ : BufTy).Contents (Elt Ideal) → (⟨S50000x128, .f32⟩ : BufTy).Contents (Elt Ideal))
      rfl (by decide) (by decide) (launchContents m c)).trans
    (congrArg (broadcastInDim S50000x128 ![0, 1] bcast_S1x128_S50000x128_0_1 : (⟨S1x128, .f32⟩ : BufTy).Contents (Elt Ideal) → (⟨S50000x128, .f32⟩ : BufTy).Contents (Elt Ideal))
      (st_main_v128 m c))

theorem st_main_v130 :
    after (ops (F := Ideal)) (launchContents m c) (Proc.devRef .tc main_v130) = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (stage_binary writesR 159 main_v127 main_v129 main_v130
      (addf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (addf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v127 m c) (st_main_v129 m c))

theorem st_main_v131 :
    after (ops (F := Ideal)) (launchContents m c) (Proc.devRef .tc main_v131) = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (stage_unary writesR 160 main_v130 main_v131
      (Host.tanh (F := Ideal) : (⟨S50000x128, .f32⟩ : BufTy).Contents (Elt Ideal) → (⟨S50000x128, .f32⟩ : BufTy).Contents (Elt Ideal))
      rfl (by decide) (by decide) (launchContents m c)).trans
    (congrArg (Host.tanh (F := Ideal) : (⟨S50000x128, .f32⟩ : BufTy).Contents (Elt Ideal) → (⟨S50000x128, .f32⟩ : BufTy).Contents (Elt Ideal))
      (st_main_v130 m c))

theorem st_main_cst_23 :
    after (ops (F := Ideal)) (launchContents m c) (Proc.devRef .tc main_cst_23) = val_main_cst_23 (F := Ideal) :=
  stage_nullary writesR 161 main_cst_23
      ((constant (F := Ideal) S_ .f32 0x3DCCCCCD#32) : (⟨S_, .f32⟩ : BufTy).Contents (Elt Ideal))
      rfl (by decide) (launchContents m c)

theorem st_main_v132 :
    after (ops (F := Ideal)) (launchContents m c) (Proc.devRef .tc main_v132) = val_main_v132 (F := Ideal) :=
  (stage_unary writesR 162 main_cst_23 main_v132
      (broadcastInDim S50000x128 ![] bcast_S_S50000x128 : (⟨S_, .f32⟩ : BufTy).Contents (Elt Ideal) → (⟨S50000x128, .f32⟩ : BufTy).Contents (Elt Ideal))
      rfl (by decide) (by decide) (launchContents m c)).trans
    (congrArg (broadcastInDim S50000x128 ![] bcast_S_S50000x128 : (⟨S_, .f32⟩ : BufTy).Contents (Elt Ideal) → (⟨S50000x128, .f32⟩ : BufTy).Contents (Elt Ideal))
      (st_main_cst_23 m c))

theorem st_main_v133 :
    after (ops (F := Ideal)) (launchContents m c) (Proc.devRef .tc main_v133) = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (stage_binary writesR 163 main_v132 main_v131 main_v133
      (mulf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (mulf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v132 m c) (st_main_v131 m c))

theorem st_main_v134 :
    after (ops (F := Ideal)) (launchContents m c) (Proc.devRef .tc main_v134) = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (stage_binary writesR 164 main_v72 main_v133 main_v134
      (addf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (addf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v72 m c) (st_main_v133 m c))

theorem st_main_call2_cst :
    after (ops (F := Ideal)) (launchContents m c) (Proc.devRef .tc main_call2_cst) = val_main_call2_cst (F := Ideal) :=
  stage_tnullary writesR 165 main_call2_cst
      ((constant (F := Ideal) S_ .f32 0x00000000#32) : (⟨S_, .f32⟩ : BufTy).Contents (Elt Ideal))
      rfl (by decide) (launchContents m c)

theorem st_main_call2_v0 :
    after (ops (F := Ideal)) (launchContents m c) (Proc.devRef .tc main_call2_v0) = val_main_call2_v0 (F := Ideal) :=
  (stage_tunary writesR 166 main_call2_cst main_call2_v0
      ((broadcastInDim S50000x128 ![] bcast_S_S50000x128) : (⟨S_, .f32⟩ : BufTy).Contents (Elt Ideal) → (⟨S50000x128, .f32⟩ : BufTy).Contents (Elt Ideal))
      rfl (by decide) (by decide) (launchContents m c)).trans
    (congrArg ((broadcastInDim S50000x128 ![] bcast_S_S50000x128) : (⟨S_, .f32⟩ : BufTy).Contents (Elt Ideal) → (⟨S50000x128, .f32⟩ : BufTy).Contents (Elt Ideal))
      (st_main_call2_cst m c))

theorem st_main_v135 :
    after (ops (F := Ideal)) (launchContents m c) (Proc.devRef .tc main_v135) = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (stage_tbinary writesR 167 main_v134 main_call2_v0 main_v135
      (maximumf (F := Ideal) : (⟨S50000x128, .f32⟩ : BufTy).Contents (Elt Ideal) → (⟨S50000x128, .f32⟩ : BufTy).Contents (Elt Ideal) → (⟨S50000x128, .f32⟩ : BufTy).Contents (Elt Ideal))
      rfl (by decide) (by decide) (by decide) (launchContents m c)).trans
    (congrArg₂ (maximumf (F := Ideal) : (⟨S50000x128, .f32⟩ : BufTy).Contents (Elt Ideal) → (⟨S50000x128, .f32⟩ : BufTy).Contents (Elt Ideal) → (⟨S50000x128, .f32⟩ : BufTy).Contents (Elt Ideal))
      (st_main_v134 m c) (st_main_call2_v0 m c))

theorem st_main_v136 :
    after (ops (F := Ideal)) (launchContents m c) (Proc.devRef .tc main_v136) = val_main_v136 (F := Ideal) (m ((c.tc : Thread nD τ).loc main_arg10)) :=
  (stage_unary writesR 168 main_arg10 main_v136
      ((transpose S128x40 [1, 0] · transposes_S40x128_S128x40_1_0) : (⟨S40x128, .f32⟩ : BufTy).Contents (Elt Ideal) → (⟨S128x40, .f32⟩ : BufTy).Contents (Elt Ideal))
      rfl (by decide) (by decide) (launchContents m c)).trans
    (congrArg ((transpose S128x40 [1, 0] · transposes_S40x128_S128x40_1_0) : (⟨S40x128, .f32⟩ : BufTy).Contents (Elt Ideal) → (⟨S128x40, .f32⟩ : BufTy).Contents (Elt Ideal))
      (st_main_arg10 m c))

theorem st_main_v137 :
    after (ops (F := Ideal)) (launchContents m c) (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (stage_binary writesR 169 main_v135 main_v136 main_v137
      ((fun l r => Host.dotGeneral (F := Ideal) dot_S50000x128_S128x40_S50000x40_1_0_0_1_n_n none l r) : (⟨S50000x128, .f32⟩ : BufTy).Contents (Elt Ideal) → (⟨S128x40, .f32⟩ : BufTy).Contents (Elt Ideal) → (⟨S50000x40, .f32⟩ : BufTy).Contents (Elt Ideal))
      rfl (by decide) (by decide) (by decide) (launchContents m c)).trans
    (congrArg₂ ((fun l r => Host.dotGeneral (F := Ideal) dot_S50000x128_S128x40_S50000x40_1_0_0_1_n_n none l r) : (⟨S50000x128, .f32⟩ : BufTy).Contents (Elt Ideal) → (⟨S128x40, .f32⟩ : BufTy).Contents (Elt Ideal) → (⟨S50000x40, .f32⟩ : BufTy).Contents (Elt Ideal))
      (st_main_v135 m c) (st_main_v136 m c))

theorem st_main_v138 :
    after (ops (F := Ideal)) (launchContents m c) (Proc.devRef .tc main_v138) = val_main_v138 (F := Ideal) (m ((c.tc : Thread nD τ).loc main_arg11)) :=
  (stage_unary writesR 170 main_arg11 main_v138
      (broadcastInDim S1x40 ![1] bcast_S40_S1x40_1 : (⟨S40, .f32⟩ : BufTy).Contents (Elt Ideal) → (⟨S1x40, .f32⟩ : BufTy).Contents (Elt Ideal))
      rfl (by decide) (by decide) (launchContents m c)).trans
    (congrArg (broadcastInDim S1x40 ![1] bcast_S40_S1x40_1 : (⟨S40, .f32⟩ : BufTy).Contents (Elt Ideal) → (⟨S1x40, .f32⟩ : BufTy).Contents (Elt Ideal))
      (st_main_arg11 m c))

theorem st_main_v139 :
    after (ops (F := Ideal)) (launchContents m c) (Proc.devRef .tc main_v139) = val_main_v139 (F := Ideal) (m ((c.tc : Thread nD τ).loc main_arg11)) :=
  (stage_unary writesR 171 main_v138 main_v139
      (broadcastInDim S50000x40 ![0, 1] bcast_S1x40_S50000x40_0_1 : (⟨S1x40, .f32⟩ : BufTy).Contents (Elt Ideal) → (⟨S50000x40, .f32⟩ : BufTy).Contents (Elt Ideal))
      rfl (by decide) (by decide) (launchContents m c)).trans
    (congrArg (broadcastInDim S50000x40 ![0, 1] bcast_S1x40_S50000x40_0_1 : (⟨S1x40, .f32⟩ : BufTy).Contents (Elt Ideal) → (⟨S50000x40, .f32⟩ : BufTy).Contents (Elt Ideal))
      (st_main_v138 m c))

theorem st_main_v140 :
    after (ops (F := Ideal)) (launchContents m c) (Proc.devRef .tc main_v140) = val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_binary writesR 172 main_v137 main_v139 main_v140
      (addf (F := Ideal) : (⟨S50000x40, .f32⟩ : BufTy).Contents (Elt Ideal) → (⟨S50000x40, .f32⟩ : BufTy).Contents (Elt Ideal) → (⟨S50000x40, .f32⟩ : BufTy).Contents (Elt Ideal))
      rfl (by decide) (by decide) (by decide) (launchContents m c)).trans
    (congrArg₂ (addf (F := Ideal) : (⟨S50000x40, .f32⟩ : BufTy).Contents (Elt Ideal) → (⟨S50000x40, .f32⟩ : BufTy).Contents (Elt Ideal) → (⟨S50000x40, .f32⟩ : BufTy).Contents (Elt Ideal))
      (st_main_v137 m c) (st_main_v139 m c))

theorem st_main_call3_cst :
    after (ops (F := Ideal)) (launchContents m c) (Proc.devRef .tc main_call3_cst) = val_main_call3_cst (F := Ideal) :=
  stage_tnullary writesR 173 main_call3_cst
      ((constant (F := Ideal) S_ .f32 0xFF800000#32) : (⟨S_, .f32⟩ : BufTy).Contents (Elt Ideal))
      rfl (by decide) (launchContents m c)

theorem st_main_call3_v0 :
    after (ops (F := Ideal)) (launchContents m c) (Proc.devRef .tc main_call3_v0) = val_main_call3_v0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tbinary writesR 174 main_v140 main_call3_cst main_call3_v0
      ((fun x v => Host.reduce (FloatOps.maximumf (F := Ideal)) x v reducesTo_S50000x40_S50000_d1 h_S_) : (⟨S50000x40, .f32⟩ : BufTy).Contents (Elt Ideal) → (⟨S_, .f32⟩ : BufTy).Contents (Elt Ideal) → (⟨S50000, .f32⟩ : BufTy).Contents (Elt Ideal))
      rfl (by decide) (by decide) (by decide) (launchContents m c)).trans
    (congrArg₂ ((fun x v => Host.reduce (FloatOps.maximumf (F := Ideal)) x v reducesTo_S50000x40_S50000_d1 h_S_) : (⟨S50000x40, .f32⟩ : BufTy).Contents (Elt Ideal) → (⟨S_, .f32⟩ : BufTy).Contents (Elt Ideal) → (⟨S50000, .f32⟩ : BufTy).Contents (Elt Ideal))
      (st_main_v140 m c) (st_main_call3_cst m c))

theorem st_main_call3_cst_0 :
    after (ops (F := Ideal)) (launchContents m c) (Proc.devRef .tc main_call3_cst_0) = val_main_call3_cst_0 (F := Ideal) :=
  stage_tnullary writesR 175 main_call3_cst_0
      ((constant (F := Ideal) S_ .f32 0xFF800000#32) : (⟨S_, .f32⟩ : BufTy).Contents (Elt Ideal))
      rfl (by decide) (launchContents m c)

theorem st_main_call3_v1 :
    after (ops (F := Ideal)) (launchContents m c) (Proc.devRef .tc main_call3_v1) = val_main_call3_v1 (F := Ideal) :=
  (stage_tunary writesR 176 main_call3_cst_0 main_call3_v1
      ((broadcastInDim S50000 ![] bcast_S_S50000) : (⟨S_, .f32⟩ : BufTy).Contents (Elt Ideal) → (⟨S50000, .f32⟩ : BufTy).Contents (Elt Ideal))
      rfl (by decide) (by decide) (launchContents m c)).trans
    (congrArg ((broadcastInDim S50000 ![] bcast_S_S50000) : (⟨S_, .f32⟩ : BufTy).Contents (Elt Ideal) → (⟨S50000, .f32⟩ : BufTy).Contents (Elt Ideal))
      (st_main_call3_cst_0 m c))

theorem st_main_call3_v2 :
    after (ops (F := Ideal)) (launchContents m c) (Proc.devRef .tc main_call3_v2) = val_main_call3_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tbinary writesR 177 main_call3_v1 main_call3_v0 main_call3_v2
      (maximumf (F := Ideal) : (⟨S50000, .f32⟩ : BufTy).Contents (Elt Ideal) → (⟨S50000, .f32⟩ : BufTy).Contents (Elt Ideal) → (⟨S50000, .f32⟩ : BufTy).Contents (Elt Ideal))
      rfl (by decide) (by decide) (by decide) (launchContents m c)).trans
    (congrArg₂ (maximumf (F := Ideal) : (⟨S50000, .f32⟩ : BufTy).Contents (Elt Ideal) → (⟨S50000, .f32⟩ : BufTy).Contents (Elt Ideal) → (⟨S50000, .f32⟩ : BufTy).Contents (Elt Ideal))
      (st_main_call3_v1 m c) (st_main_call3_v0 m c))

theorem st_main_call3_v3 :
    after (ops (F := Ideal)) (launchContents m c) (Proc.devRef .tc main_call3_v3) = val_main_call3_v3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tunary writesR 178 main_call3_v2 main_call3_v3
      ((broadcastInDim S50000x1 ![0] bcast_S50000_S50000x1_0) : (⟨S50000, .f32⟩ : BufTy).Contents (Elt Ideal) → (⟨S50000x1, .f32⟩ : BufTy).Contents (Elt Ideal))
      rfl (by decide) (by decide) (launchContents m c)).trans
    (congrArg ((broadcastInDim S50000x1 ![0] bcast_S50000_S50000x1_0) : (⟨S50000, .f32⟩ : BufTy).Contents (Elt Ideal) → (⟨S50000x1, .f32⟩ : BufTy).Contents (Elt Ideal))
      (st_main_call3_v2 m c))

theorem st_main_call3_v4 :
    after (ops (F := Ideal)) (launchContents m c) (Proc.devRef .tc main_call3_v4) = val_main_call3_v4 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tunary writesR 179 main_call3_v3 main_call3_v4
      ((broadcastInDim S50000x40 ![0, 1] bcast_S50000x1_S50000x40_0_1) : (⟨S50000x1, .f32⟩ : BufTy).Contents (Elt Ideal) → (⟨S50000x40, .f32⟩ : BufTy).Contents (Elt Ideal))
      rfl (by decide) (by decide) (launchContents m c)).trans
    (congrArg ((broadcastInDim S50000x40 ![0, 1] bcast_S50000x1_S50000x40_0_1) : (⟨S50000x1, .f32⟩ : BufTy).Contents (Elt Ideal) → (⟨S50000x40, .f32⟩ : BufTy).Contents (Elt Ideal))
      (st_main_call3_v3 m c))

theorem st_main_call3_v5 :
    after (ops (F := Ideal)) (launchContents m c) (Proc.devRef .tc main_call3_v5) = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tbinary writesR 180 main_v140 main_call3_v4 main_call3_v5
      (subf (F := Ideal) : (⟨S50000x40, .f32⟩ : BufTy).Contents (Elt Ideal) → (⟨S50000x40, .f32⟩ : BufTy).Contents (Elt Ideal) → (⟨S50000x40, .f32⟩ : BufTy).Contents (Elt Ideal))
      rfl (by decide) (by decide) (by decide) (launchContents m c)).trans
    (congrArg₂ (subf (F := Ideal) : (⟨S50000x40, .f32⟩ : BufTy).Contents (Elt Ideal) → (⟨S50000x40, .f32⟩ : BufTy).Contents (Elt Ideal) → (⟨S50000x40, .f32⟩ : BufTy).Contents (Elt Ideal))
      (st_main_v140 m c) (st_main_call3_v4 m c))

theorem st_main_call3_v6 :
    after (ops (F := Ideal)) (launchContents m c) (Proc.devRef .tc main_call3_v6) = val_main_call3_v6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tunary writesR 181 main_call3_v5 main_call3_v6
      (Host.exp (F := Ideal) : (⟨S50000x40, .f32⟩ : BufTy).Contents (Elt Ideal) → (⟨S50000x40, .f32⟩ : BufTy).Contents (Elt Ideal))
      rfl (by decide) (by decide) (launchContents m c)).trans
    (congrArg (Host.exp (F := Ideal) : (⟨S50000x40, .f32⟩ : BufTy).Contents (Elt Ideal) → (⟨S50000x40, .f32⟩ : BufTy).Contents (Elt Ideal))
      (st_main_call3_v5 m c))

theorem st_main_call3_cst_1 :
    after (ops (F := Ideal)) (launchContents m c) (Proc.devRef .tc main_call3_cst_1) = val_main_call3_cst_1 (F := Ideal) :=
  stage_tnullary writesR 182 main_call3_cst_1
      ((constant (F := Ideal) S_ .f32 0x00000000#32) : (⟨S_, .f32⟩ : BufTy).Contents (Elt Ideal))
      rfl (by decide) (launchContents m c)

theorem st_main_call3_v7 :
    after (ops (F := Ideal)) (launchContents m c) (Proc.devRef .tc main_call3_v7) = val_main_call3_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tbinary writesR 183 main_call3_v6 main_call3_cst_1 main_call3_v7
      ((fun x v => Host.reduceAdd (F := Ideal) x v reducesTo_S50000x40_S50000_d1 h_S_) : (⟨S50000x40, .f32⟩ : BufTy).Contents (Elt Ideal) → (⟨S_, .f32⟩ : BufTy).Contents (Elt Ideal) → (⟨S50000, .f32⟩ : BufTy).Contents (Elt Ideal))
      rfl (by decide) (by decide) (by decide) (launchContents m c)).trans
    (congrArg₂ ((fun x v => Host.reduceAdd (F := Ideal) x v reducesTo_S50000x40_S50000_d1 h_S_) : (⟨S50000x40, .f32⟩ : BufTy).Contents (Elt Ideal) → (⟨S_, .f32⟩ : BufTy).Contents (Elt Ideal) → (⟨S50000, .f32⟩ : BufTy).Contents (Elt Ideal))
      (st_main_call3_v6 m c) (st_main_call3_cst_1 m c))

theorem st_main_call3_v8 :
    after (ops (F := Ideal)) (launchContents m c) (Proc.devRef .tc main_call3_v8) = val_main_call3_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tunary writesR 184 main_call3_v7 main_call3_v8
      ((broadcastInDim S50000x1 ![0] bcast_S50000_S50000x1_0) : (⟨S50000, .f32⟩ : BufTy).Contents (Elt Ideal) → (⟨S50000x1, .f32⟩ : BufTy).Contents (Elt Ideal))
      rfl (by decide) (by decide) (launchContents m c)).trans
    (congrArg ((broadcastInDim S50000x1 ![0] bcast_S50000_S50000x1_0) : (⟨S50000, .f32⟩ : BufTy).Contents (Elt Ideal) → (⟨S50000x1, .f32⟩ : BufTy).Contents (Elt Ideal))
      (st_main_call3_v7 m c))

theorem st_main_call3_v9 :
    after (ops (F := Ideal)) (launchContents m c) (Proc.devRef .tc main_call3_v9) = val_main_call3_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tunary writesR 185 main_call3_v8 main_call3_v9
      (Host.log (F := Ideal) : (⟨S50000x1, .f32⟩ : BufTy).Contents (Elt Ideal) → (⟨S50000x1, .f32⟩ : BufTy).Contents (Elt Ideal))
      rfl (by decide) (by decide) (launchContents m c)).trans
    (congrArg (Host.log (F := Ideal) : (⟨S50000x1, .f32⟩ : BufTy).Contents (Elt Ideal) → (⟨S50000x1, .f32⟩ : BufTy).Contents (Elt Ideal))
      (st_main_call3_v8 m c))

theorem st_main_call3_v10 :
    after (ops (F := Ideal)) (launchContents m c) (Proc.devRef .tc main_call3_v10) = val_main_call3_v10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tunary writesR 186 main_call3_v9 main_call3_v10
      ((broadcastInDim S50000x40 ![0, 1] bcast_S50000x1_S50000x40_0_1) : (⟨S50000x1, .f32⟩ : BufTy).Contents (Elt Ideal) → (⟨S50000x40, .f32⟩ : BufTy).Contents (Elt Ideal))
      rfl (by decide) (by decide) (launchContents m c)).trans
    (congrArg ((broadcastInDim S50000x40 ![0, 1] bcast_S50000x1_S50000x40_0_1) : (⟨S50000x1, .f32⟩ : BufTy).Contents (Elt Ideal) → (⟨S50000x40, .f32⟩ : BufTy).Contents (Elt Ideal))
      (st_main_call3_v9 m c))

theorem st_main_v141 :
    after (ops (F := Ideal)) (launchContents m c) (Proc.devRef .tc main_v141) = val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (stage_tbinary writesR 187 main_call3_v5 main_call3_v10 main_v141
      (subf (F := Ideal) : (⟨S50000x40, .f32⟩ : BufTy).Contents (Elt Ideal) → (⟨S50000x40, .f32⟩ : BufTy).Contents (Elt Ideal) → (⟨S50000x40, .f32⟩ : BufTy).Contents (Elt Ideal))
      rfl (by decide) (by decide) (by decide) (launchContents m c)).trans
    (congrArg₂ (subf (F := Ideal) : (⟨S50000x40, .f32⟩ : BufTy).Contents (Elt Ideal) → (⟨S50000x40, .f32⟩ : BufTy).Contents (Elt Ideal) → (⟨S50000x40, .f32⟩ : BufTy).Contents (Elt Ideal))
      (st_main_call3_v5 m c) (st_main_call3_v10 m c))

/-! # The run

Every weakly fair execution of the reference program terminates, and in every final state each device holds, in the
two result buffers, the folded stage values of the arguments, and in every argument buffer what it was launched with. -/

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v141)
          = val_main_v141 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
      ∧ r.2.mem ((c.tc : Thread nD τ).loc main_v135)
          = val_main_v135 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c =>
      ⟨(h c main_v141).trans (st_main_v141 m c), (h c main_v135).trans (st_main_v135 m c),
        (h c main_arg0).trans (st_main_arg0 m c),
        (h c main_arg1).trans (st_main_arg1 m c),
        (h c main_arg2).trans (st_main_arg2 m c),
        (h c main_arg3).trans (st_main_arg3 m c),
        (h c main_arg4).trans (st_main_arg4 m c),
        (h c main_arg5).trans (st_main_arg5 m c),
        (h c main_arg6).trans (st_main_arg6 m c),
        (h c main_arg7).trans (st_main_arg7 m c),
        (h c main_arg8).trans (st_main_arg8 m c),
        (h c main_arg9).trans (st_main_arg9 m c),
        (h c main_arg10).trans (st_main_arg10 m c),
        (h c main_arg11).trans (st_main_arg11 m c)⟩)
    (run_seq scopedRefs_eq scopedSems_eq defs main (fun _ => ops) main_eq (fun _ => ops_sub) m ρ)

end Cert.ReferenceIdeal.Hand
-- ==== Proof.lean ====
/-
  A two-layer graph network with antisymmetric weight updates — two graph convolutions over one graph, a linear layer
  between them and a linear classifier with a log-softmax after them — computed by four tiled kernels with the edge
  aggregation between them, against the same network written with whole-array operations.

  The two programs differ in how a convolution's aggregate is arranged.  With `d n` the inverse square root of node
  `n`'s degree (self loop included), the reference scales each gathered row by `d (source) · d (target)` on the edge,
  sums into the target and adds the node's own row times `d n · d n`; the kernel scales every projected row by its
  own `d` once, gathers and sums the scaled rows, adds the node's own scaled row and multiplies the total by `d n`.
  Over the extended reals these agree because `d n` is a nonnegative real — a degree is a positive count — and a
  nonnegative real factor distributes over a sum; products commute and associate.  Everything else is the same
  arithmetic in another layout: row blocks against whole matrices, weights transposed beforehand against weights
  read transposed, biases as rows against biases as vectors, and format changes that are the identity on exact values.
  Neither the frames nor the equality of results uses the finiteness of the inputs.

  The three frames: the two kernel programs' by the launch theorem for a program of several regions, the reference's
  from its run.  The sanctioned idealization rewrote nothing, so its statement is `True`.
-/
import proofs.«147570_j43654047596706_2_alg».proof.Defs
import proofs.«147570_j43654047596706_2_alg».proof.Proof.Gen.Kernel
import proofs.«147570_j43654047596706_2_alg».proof.Proof.Gen.Kernel.Skeleton
import proofs.«147570_j43654047596706_2_alg».proof.Proof.Gen.Kernel.Launch
import proofs.«147570_j43654047596706_2_alg».proof.Proof.Gen.Kernel.Points
import proofs.«147570_j43654047596706_2_alg».proof.Proof.Gen.Kernel.Frame
import proofs.«147570_j43654047596706_2_alg».proof.Proof.Gen.KernelIdeal
import proofs.«147570_j43654047596706_2_alg».proof.Proof.Gen.KernelIdeal.Skeleton
import proofs.«147570_j43654047596706_2_alg».proof.Proof.Gen.KernelIdeal.Launch
import proofs.«147570_j43654047596706_2_alg».proof.Proof.Gen.KernelIdeal.Points
import proofs.«147570_j43654047596706_2_alg».proof.Proof.Gen.KernelIdeal.Frame
import proofs.«147570_j43654047596706_2_alg».proof.Proof.Gen.ReferenceIdeal
import proofs.«147570_j43654047596706_2_alg».proof.Proof.Gen.Pre_finite_inputs
import proofs.«147570_j43654047596706_2_alg».proof.Proof.RunRes
import proofs.«147570_j43654047596706_2_alg».proof.Proof.Bridge
import proofs.«147570_j43654047596706_2_alg».proof.Proof.RefRunB
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments as launched: its run, the two results dropped. -/
theorem frame_reference_ideal : Cert.frame_ReferenceIdeal := fun m ρ _ =>
  (θ_run Cert.ReferenceIdeal.defs _ _).mono (fun _ h c => (h c).2.2) (Cert.ReferenceIdeal.Hand.ref_run m ρ)

/-- From memories that agree on the arguments the two idealized programs end with equal results: the kernel's two
    result arrays hold what its last region's write-backs leave, which are the specification's stage functions of
    the arguments, which are the reference's stages of the same arguments. -/
theorem algebraic : Cert.algebraic_KernelIdeal_ReferenceIdeal := by
  intro m ρ m' ρ' _ hagree
  refine ⟨fun c => Cert.KernelIdeal.Gen.W7 m ρ c (Proc.devRef .tc Cert.KernelIdeal.main_v63_1),
    fun c => Cert.KernelIdeal.Gen.W7 m ρ c (Proc.devRef .tc Cert.KernelIdeal.main_v63_0),
    Cert.KernelIdeal.Hand.run_results m ρ, ?_⟩
  refine (θ_run Cert.ReferenceIdeal.defs _ _).mono (fun _ h c => ⟨(h c).1.trans ?_, (h c).2.1.trans ?_, (h c).2.2⟩)
    (Cert.ReferenceIdeal.Hand.ref_run m' ρ')
  · obtain ⟨g0, g1, g2, g3, g4, g5, g6, g7, g8, g9, g10, g11⟩ := hagree c
    rw [g0, g1, g2, g3, g4, g5, g6, g7, g8, g9, g10, g11]
    exact ((Cert.KernelIdeal.Hand.k_logp m ρ c).trans (Cert.Bridge.logp_fact m ρ c)).symm
  · obtain ⟨g0, g1, g2, g3, g4, g5, g6, g7, g8, g9, g10, g11⟩ := hagree c
    rw [g0, g1, g2, g3, g4, g5, g6, g7, g8, g9]
    exact ((Cert.KernelIdeal.Hand.k_x1 m ρ c).trans (Cert.Bridge.x1_fact m ρ c)).symm

/-- Everything claimed. -/
theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
